-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v198) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S7x100000x32 : Shape := ⟨3, ![7, 100000, 32]⟩
abbrev S128x32 : Shape := ⟨2, ![128, 32]⟩
abbrev S32 : Shape := ⟨1, ![32]⟩
abbrev S6x32x32 : Shape := ⟨3, ![6, 32, 32]⟩
abbrev S6x32 : Shape := ⟨2, ![6, 32]⟩
abbrev S32x40 : Shape := ⟨2, ![32, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S7x100000x32 : S_.BroadcastsInDim S7x100000x32 (![] : Fin 0 → Fin S7x100000x32.rank)
  reducesTo_S7x100000x32_S_d0_1_2 : S7x100000x32.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S6x32x32 : S_.BroadcastsInDim S6x32x32 (![] : Fin 0 → Fin S6x32x32.rank)
  reducesTo_S6x32x32_S_d0_1_2 : S6x32x32.ReducesTo [0, 1, 2] S_
  bcast_S_S6x32 : S_.BroadcastsInDim S6x32 (![] : Fin 0 → Fin S6x32.rank)
  reducesTo_S6x32_S_d0_1 : S6x32.ReducesTo [0, 1] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S6x32x32 .f32) (main_arg6 : FVec F S6x32 .f32) (main_arg7 : FVec F S32x40 .f32) (main_arg8 : FVec F S40 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S6x32x32 .f32 := Host.absf main_arg5
  let main_cst_6 : FVec F S_ .f32 := constant S_ .f32 0x7F800000#32
  let main_v20 : FVec F S6x32x32 .f32 := broadcastInDim S6x32x32 ![] bcast_S_S6x32x32 main_cst_6
  let main_v21 : IVec S6x32x32 1 := cmpf .olt main_v19 main_v20
  let main_c_7 : IVec S_ 1 := constantI S_ 1 1#1
  let main_v22 : IVec S_ 1 := (fun x v => Host.reduce IntOp.andi x v reducesTo_S6x32x32_S_d0_1_2 h_S_) main_v21 main_c_7
  let main_v23 : IVec S_ 1 := andi main_v18 main_v22
  let main_v24 : FVec F S6x32 .f32 := Host.absf main_arg6
  let main_cst_8 : FVec F S_ .f32 := constant S_ .f32 0x7F800000#32
  let main_v25 : FVec F S6x32 .f32 := broadcastInDim S6x32 ![] bcast_S_S6x32 main_cst_8
  let main_v26 : IVec S6x32 1 := cmpf .olt main_v24 main_v25
  let main_c_9 : IVec S_ 1 := constantI S_ 1 1#1
  let main_v27 : IVec S_ 1 := (fun x v => Host.reduce IntOp.andi x v reducesTo_S6x32_S_d0_1 h_S_) main_v26 main_c_9
  let main_v28 : IVec S_ 1 := andi main_v23 main_v27
  let main_v29 : FVec F S32x40 .f32 := Host.absf main_arg7
  let main_cst_10 : FVec F S_ .f32 := constant S_ .f32 0x7F800000#32
  let main_v30 : FVec F S32x40 .f32 := broadcastInDim S32x40 ![] bcast_S_S32x40 main_cst_10
  let main_v31 : IVec S32x40 1 := cmpf .olt main_v29 main_v30
  let main_c_11 : IVec S_ 1 := constantI S_ 1 1#1
  let main_v32 : IVec S_ 1 := (fun x v => Host.reduce IntOp.andi x v reducesTo_S32x40_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S7x100000x32 .f32) (main_arg3 : FVec F S128x32 .f32) (main_arg4 : FVec F S32 .f32) (main_arg5 : FVec F S6x32x32 .f32) (main_arg6 : FVec F S6x32 .f32) (main_arg7 : FVec F S32x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S7x100000x32 .f32 := Host.absf main_arg2
  let main_cst_0 : FVec F S_ .f32 := constant S_ .f32 0x7F800000#32
  let main_v5 : FVec F S7x100000x32 .f32 := broadcastInDim S7x100000x32 ![] bcast_S_S7x100000x32 main_cst_0
  let main_v6 : IVec S7x100000x32 1 := cmpf .olt main_v4 main_v5
  let main_c_1 : IVec S_ 1 := constantI S_ 1 1#1
  let main_v7 : IVec S_ 1 := (fun x v => Host.reduce IntOp.andi x v reducesTo_S7x100000x32_S_d0_1_2 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S7x100000x32 : Shape := ⟨3, ![7, 100000, 32]⟩
abbrev S128x32 : Shape := ⟨2, ![128, 32]⟩
abbrev S32 : Shape := ⟨1, ![32]⟩
abbrev S6x32x32 : Shape := ⟨3, ![6, 32, 32]⟩
abbrev S6x32 : Shape := ⟨2, ![6, 32]⟩
abbrev S32x40 : Shape := ⟨2, ![32, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x32x32 : Shape := ⟨3, ![1, 32, 32]⟩
abbrev S32x32 : Shape := ⟨2, ![32, 32]⟩
abbrev S1x32 : Shape := ⟨2, ![1, 32]⟩
abbrev S100000x32 : Shape := ⟨2, ![100000, 32]⟩
abbrev S10000x128 : Shape := ⟨2, ![10000, 128]⟩
abbrev S10000x32 : Shape := ⟨2, ![10000, 32]⟩
abbrev S1700000x32 : Shape := ⟨2, ![1700000, 32]⟩
abbrev S1x100000x32 : Shape := ⟨3, ![1, 100000, 32]⟩
abbrev S2000x32 : Shape := ⟨2, ![2000, 32]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S2000x40 : Shape := ⟨2, ![2000, 40]⟩

abbrev nBuf : Space → Nat
  | .hbm => 251
  | .vmem => 122
  | .smem => 0
  | _ => 0

abbrev hbmTy0_0 (i : Nat) : BufTy := match i % 128 with
  | 0 => ⟨S100000x128, .f32⟩
  | 1 => ⟨S2x1600000, .i32⟩
  | 2 => ⟨S7x100000x32, .f32⟩
  | 3 => ⟨S128x32, .f32⟩
  | 4 => ⟨S32, .f32⟩
  | 5 => ⟨S6x32x32, .f32⟩
  | 6 => ⟨S6x32, .f32⟩
  | 7 => ⟨S32x40, .f32⟩
  | 8 => ⟨S40, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1x32x32, .f32⟩
  | 53 => ⟨S32x32, .f32⟩
  | 54 => ⟨S1x32x32, .f32⟩
  | 55 => ⟨S32x32, .f32⟩
  | 56 => ⟨S1x32x32, .f32⟩
  | 57 => ⟨S32x32, .f32⟩
  | 58 => ⟨S1x32x32, .f32⟩
  | 59 => ⟨S32x32, .f32⟩
  | 60 => ⟨S1x32x32, .f32⟩
  | 61 => ⟨S32x32, .f32⟩
  | 62 => ⟨S1x32x32, .f32⟩
  | 63 => ⟨S32x32, .f32⟩
  | 64 => ⟨S1x32, .f32⟩
  | 65 => ⟨S32, .f32⟩
  | 66 => ⟨S1x32, .f32⟩
  | 67 => ⟨S32, .f32⟩
  | 68 => ⟨S1x32, .f32⟩
  | 69 => ⟨S32, .f32⟩
  | 70 => ⟨S1x32, .f32⟩
  | 71 => ⟨S32, .f32⟩
  | 72 => ⟨S1x32, .f32⟩
  | 73 => ⟨S32, .f32⟩
  | 74 => ⟨S1x32, .f32⟩
  | 75 => ⟨S32, .f32⟩
  | 76 => ⟨S_, .f32⟩
  | 77 => ⟨S100000x32, .f32⟩
  | 78 => ⟨S100000x32, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x32, .f32⟩
  | 88 => ⟨S1700000x1, .f32⟩
  | 89 => ⟨S1700000x32, .f32⟩
  | 90 => ⟨S1700000x32, .f32⟩
  | 91 => ⟨S_, .f32⟩
  | 92 => ⟨S100000x32, .f32⟩
  | 93 => ⟨S1700000x1, .i32⟩
  | 94 => ⟨S100000x32, .f32⟩
  | 95 => ⟨S1x100000x32, .f32⟩
  | 96 => ⟨S100000x32, .f32⟩
  | 97 => ⟨S1x32, .f32⟩
  | 98 => ⟨S100000x32, .f32⟩
  | 99 => ⟨S100000x32, .f32⟩
  | 100 => ⟨S100000x32, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x32, .f32⟩
  | 110 => ⟨S1700000x1, .f32⟩
  | 111 => ⟨S1700000x32, .f32⟩
  | 112 => ⟨S1700000x32, .f32⟩
  | 113 => ⟨S_, .f32⟩
  | 114 => ⟨S100000x32, .f32⟩
  | 115 => ⟨S1700000x1, .i32⟩
  | 116 => ⟨S100000x32, .f32⟩
  | 117 => ⟨S1x100000x32, .f32⟩
  | 118 => ⟨S100000x32, .f32⟩
  | 119 => ⟨S1x32, .f32⟩
  | 120 => ⟨S100000x32, .f32⟩
  | 121 => ⟨S100000x32, .f32⟩
  | 122 => ⟨S100000x32, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x32, .f32⟩
  | 4 => ⟨S1700000x1, .f32⟩
  | 5 => ⟨S1700000x32, .f32⟩
  | 6 => ⟨S1700000x32, .f32⟩
  | 7 => ⟨S_, .f32⟩
  | 8 => ⟨S100000x32, .f32⟩
  | 9 => ⟨S1700000x1, .i32⟩
  | 10 => ⟨S100000x32, .f32⟩
  | 11 => ⟨S1x100000x32, .f32⟩
  | 12 => ⟨S100000x32, .f32⟩
  | 13 => ⟨S1x32, .f32⟩
  | 14 => ⟨S100000x32, .f32⟩
  | 15 => ⟨S100000x32, .f32⟩
  | 16 => ⟨S100000x32, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000x32, .f32⟩
  | 26 => ⟨S1700000x1, .f32⟩
  | 27 => ⟨S1700000x32, .f32⟩
  | 28 => ⟨S1700000x32, .f32⟩
  | 29 => ⟨S_, .f32⟩
  | 30 => ⟨S100000x32, .f32⟩
  | 31 => ⟨S1700000x1, .i32⟩
  | 32 => ⟨S100000x32, .f32⟩
  | 33 => ⟨S1x100000x32, .f32⟩
  | 34 => ⟨S100000x32, .f32⟩
  | 35 => ⟨S1x32, .f32⟩
  | 36 => ⟨S100000x32, .f32⟩
  | 37 => ⟨S100000x32, .f32⟩
  | 38 => ⟨S100000x32, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x32, .f32⟩
  | 48 => ⟨S1700000x1, .f32⟩
  | 49 => ⟨S1700000x32, .f32⟩
  | 50 => ⟨S1700000x32, .f32⟩
  | 51 => ⟨S_, .f32⟩
  | 52 => ⟨S100000x32, .f32⟩
  | 53 => ⟨S1700000x1, .i32⟩
  | 54 => ⟨S100000x32, .f32⟩
  | 55 => ⟨S1x100000x32, .f32⟩
  | 56 => ⟨S100000x32, .f32⟩
  | 57 => ⟨S1x32, .f32⟩
  | 58 => ⟨S100000x32, .f32⟩
  | 59 => ⟨S100000x32, .f32⟩
  | 60 => ⟨S100000x32, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x32, .f32⟩
  | 70 => ⟨S1700000x1, .f32⟩
  | 71 => ⟨S1700000x32, .f32⟩
  | 72 => ⟨S1700000x32, .f32⟩
  | 73 => ⟨S_, .f32⟩
  | 74 => ⟨S100000x32, .f32⟩
  | 75 => ⟨S1700000x1, .i32⟩
  | 76 => ⟨S100000x32, .f32⟩
  | 77 => ⟨S1x100000x32, .f32⟩
  | 78 => ⟨S100000x32, .f32⟩
  | 79 => ⟨S1x32, .f32⟩
  | 80 => ⟨S100000x32, .f32⟩
  | 81 => ⟨S100000x32, .f32⟩
  | 82 => ⟨S100000x32, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x32, .f32⟩
  | 92 => ⟨S1700000x1, .f32⟩
  | 93 => ⟨S1700000x32, .f32⟩
  | 94 => ⟨S1700000x32, .f32⟩
  | 95 => ⟨S_, .f32⟩
  | 96 => ⟨S100000x32, .f32⟩
  | 97 => ⟨S1700000x1, .i32⟩
  | 98 => ⟨S100000x32, .f32⟩
  | 99 => ⟨S1x100000x32, .f32⟩
  | 100 => ⟨S100000x32, .f32⟩
  | 101 => ⟨S1x32, .f32⟩
  | 102 => ⟨S100000x32, .f32⟩
  | 103 => ⟨S100000x32, .f32⟩
  | 104 => ⟨S100000x40, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x40, .f32⟩
  | 114 => ⟨S1700000x1, .f32⟩
  | 115 => ⟨S1700000x40, .f32⟩
  | 116 => ⟨S1700000x40, .f32⟩
  | 117 => ⟨S_, .f32⟩
  | 118 => ⟨S100000x40, .f32⟩
  | 119 => ⟨S1700000x1, .i32⟩
  | 120 => ⟨S100000x40, .f32⟩
  | 121 => ⟨S1x40, .f32⟩
  | 122 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S1x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S10000x32, .f32⟩
  | .local _ .vmem, ⟨17, _⟩ => ⟨S10000x32, .f32⟩
  | .local _ .vmem, ⟨18, _⟩ => ⟨S32x32, .f32⟩
  | .local _ .vmem, ⟨19, _⟩ => ⟨S10000x32, .f32⟩
  | .local _ .vmem, ⟨20, _⟩ => ⟨S10000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S1x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S10000x32, .f32⟩
  | .local _ .vmem, ⟨33, _⟩ => ⟨S10000x32, .f32⟩
  | .local _ .vmem, ⟨34, _⟩ => ⟨S32x32, .f32⟩
  | .local _ .vmem, ⟨35, _⟩ => ⟨S10000x32, .f32⟩
  | .local _ .vmem, ⟨36, _⟩ => ⟨S10000x32, .f32⟩
  | .local _ .vmem, ⟨37, _⟩ => ⟨S2000x32, .f32⟩
  | .local _ .vmem, ⟨38, _⟩ => ⟨S2000x32, .f32⟩
  | .local _ .vmem, ⟨39, _⟩ => ⟨S2000x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S1x32, .f32⟩
  | .local _ .vmem, ⟨44, _⟩ => ⟨S2000x32, .f32⟩
  | .local _ .vmem, ⟨45, _⟩ => ⟨S2000x32, .f32⟩
  | .local _ .vmem, ⟨46, _⟩ => ⟨S2000x32, .f32⟩
  | .local _ .vmem, ⟨47, _⟩ => ⟨S2000x32, .f32⟩
  | .local _ .vmem, ⟨48, _⟩ => ⟨S10000x32, .f32⟩
  | .local _ .vmem, ⟨49, _⟩ => ⟨S10000x32, .f32⟩
  | .local _ .vmem, ⟨50, _⟩ => ⟨S32x32, .f32⟩
  | .local _ .vmem, ⟨51, _⟩ => ⟨S10000x32, .f32⟩
  | .local _ .vmem, ⟨52, _⟩ => ⟨S10000x32, .f32⟩
  | .local _ .vmem, ⟨53, _⟩ => ⟨S2000x32, .f32⟩
  | .local _ .vmem, ⟨54, _⟩ => ⟨S2000x32, .f32⟩
  | .local _ .vmem, ⟨55, _⟩ => ⟨S2000x32, .f32⟩
  | .local _ .vmem, ⟨56, _⟩ => ⟨S2000x32, .f32⟩
  | .local _ .vmem, ⟨57, _⟩ => ⟨S2000x32, .f32⟩
  | .local _ .vmem, ⟨58, _⟩ => ⟨S2000x32, .f32⟩
  | .local _ .vmem, ⟨59, _⟩ => ⟨S1x32, .f32⟩
  | .local _ .vmem, ⟨60, _⟩ => ⟨S2000x32, .f32⟩
  | .local _ .vmem, ⟨61, _⟩ => ⟨S2000x32, .f32⟩
  | .local _ .vmem, ⟨62, _⟩ => ⟨S2000x32, .f32⟩
  | .local _ .vmem, ⟨63, _⟩ => ⟨S2000x32, .f32⟩
  | .local _ .vmem, ⟨64, _⟩ => ⟨S10000x32, .f32⟩
  | .local _ .vmem, ⟨65, _⟩ => ⟨S10000x32, .f32⟩
  | .local _ .vmem, ⟨66, _⟩ => ⟨S32x32, .f32⟩
  | .local _ .vmem, ⟨67, _⟩ => ⟨S10000x32, .f32⟩
  | .local _ .vmem, ⟨68, _⟩ => ⟨S10000x32, .f32⟩
  | .local _ .vmem, ⟨69, _⟩ => ⟨S2000x32, .f32⟩
  | .local _ .vmem, ⟨70, _⟩ => ⟨S2000x32, .f32⟩
  | .local _ .vmem, ⟨71, _⟩ => ⟨S2000x32, .f32⟩
  | .local _ .vmem, ⟨72, _⟩ => ⟨S2000x32, .f32⟩
  | .local _ .vmem, ⟨73, _⟩ => ⟨S2000x32, .f32⟩
  | .local _ .vmem, ⟨74, _⟩ => ⟨S2000x32, .f32⟩
  | .local _ .vmem, ⟨75, _⟩ => ⟨S1x32, .f32⟩
  | .local _ .vmem, ⟨76, _⟩ => ⟨S2000x32, .f32⟩
  | .local _ .vmem, ⟨77, _⟩ => ⟨S2000x32, .f32⟩
  | .local _ .vmem, ⟨78, _⟩ => ⟨S2000x32, .f32⟩
  | .local _ .vmem, ⟨79, _⟩ => ⟨S2000x32, .f32⟩
  | .local _ .vmem, ⟨80, _⟩ => ⟨S10000x32, .f32⟩
  | .local _ .vmem, ⟨81, _⟩ => ⟨S10000x32, .f32⟩
  | .local _ .vmem, ⟨82, _⟩ => ⟨S32x32, .f32⟩
  | .local _ .vmem, ⟨83, _⟩ => ⟨S10000x32, .f32⟩
  | .local _ .vmem, ⟨84, _⟩ => ⟨S10000x32, .f32⟩
  | .local _ .vmem, ⟨85, _⟩ => ⟨S2000x32, .f32⟩
  | .local _ .vmem, ⟨86, _⟩ => ⟨S2000x32, .f32⟩
  | .local _ .vmem, ⟨87, _⟩ => ⟨S2000x32, .f32⟩
  | .local _ .vmem, ⟨88, _⟩ => ⟨S2000x32, .f32⟩
  | .local _ .vmem, ⟨89, _⟩ => ⟨S2000x32, .f32⟩
  | .local _ .vmem, ⟨90, _⟩ => ⟨S2000x32, .f32⟩
  | .local _ .vmem, ⟨91, _⟩ => ⟨S1x32, .f32⟩
  | .local _ .vmem, ⟨92, _⟩ => ⟨S2000x32, .f32⟩
  | .local _ .vmem, ⟨93, _⟩ => ⟨S2000x32, .f32⟩
  | .local _ .vmem, ⟨94, _⟩ => ⟨S2000x32, .f32⟩
  | .local _ .vmem, ⟨95, _⟩ => ⟨S2000x32, .f32⟩
  | .local _ .vmem, ⟨96, _⟩ => ⟨S10000x32, .f32⟩
  | .local _ .vmem, ⟨97, _⟩ => ⟨S10000x32, .f32⟩
  | .local _ .vmem, ⟨98, _⟩ => ⟨S32x32, .f32⟩
  | .local _ .vmem, ⟨99, _⟩ => ⟨S10000x32, .f32⟩
  | .local _ .vmem, ⟨100, _⟩ => ⟨S10000x32, .f32⟩
  | .local _ .vmem, ⟨101, _⟩ => ⟨S2000x32, .f32⟩
  | .local _ .vmem, ⟨102, _⟩ => ⟨S2000x32, .f32⟩
  | .local _ .vmem, ⟨103, _⟩ => ⟨S2000x32, .f32⟩
  | .local _ .vmem, ⟨104, _⟩ => ⟨S2000x32, .f32⟩
  | .local _ .vmem, ⟨105, _⟩ => ⟨S2000x32, .f32⟩
  | .local _ .vmem, ⟨106, _⟩ => ⟨S2000x32, .f32⟩
  | .local _ .vmem, ⟨107, _⟩ => ⟨S1x32, .f32⟩
  | .local _ .vmem, ⟨108, _⟩ => ⟨S2000x32, .f32⟩
  | .local _ .vmem, ⟨109, _⟩ => ⟨S2000x32, .f32⟩
  | .local _ .vmem, ⟨110, _⟩ => ⟨S2000x32, .f32⟩
  | .local _ .vmem, ⟨111, _⟩ => ⟨S2000x32, .f32⟩
  | .local _ .vmem, ⟨112, _⟩ => ⟨S10000x32, .f32⟩
  | .local _ .vmem, ⟨113, _⟩ => ⟨S10000x32, .f32⟩
  | .local _ .vmem, ⟨114, _⟩ => ⟨S32x40, .f32⟩
  | .local _ .vmem, ⟨115, _⟩ => ⟨S10000x40, .f32⟩
  | .local _ .vmem, ⟨116, _⟩ => ⟨S10000x40, .f32⟩
  | .local _ .vmem, ⟨117, _⟩ => ⟨S2000x40, .f32⟩
  | .local _ .vmem, ⟨118, _⟩ => ⟨S2000x40, .f32⟩
  | .local _ .vmem, ⟨119, _⟩ => ⟨S1x40, .f32⟩
  | .local _ .vmem, ⟨120, _⟩ => ⟨S2000x40, .f32⟩
  | .local _ .vmem, ⟨121, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | _, _ => false

abbrev semScoped : Fin 0 → Bool
  | ⟨_, h⟩ => absurd h (Nat.not_lt_zero _)

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  ofTc nBuf bufTy 0 122 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74_0 : Ref sig .tc := ⟨.hbm, 98, rfl⟩
abbrev main_v74_1 : Ref sig .tc := ⟨.hbm, 99, rfl⟩
abbrev main_v75 : Ref sig .tc := ⟨.hbm, 100, rfl⟩
abbrev main_c_11 : Ref sig .tc := ⟨.hbm, 101, rfl⟩
abbrev main_v76 : Ref sig .tc := ⟨.hbm, 102, rfl⟩
abbrev main_v77 : Ref sig .tc := ⟨.hbm, 103, rfl⟩
abbrev main_c_12 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92_0 : Ref sig .tc := ⟨.hbm, 120, rfl⟩
abbrev main_v92_1 : Ref sig .tc := ⟨.hbm, 121, rfl⟩
abbrev main_v93 : Ref sig .tc := ⟨.hbm, 122, rfl⟩
abbrev main_c_14 : Ref sig .tc := ⟨.hbm, 123, rfl⟩
abbrev main_v94 : Ref sig .tc := ⟨.hbm, 124, rfl⟩
abbrev main_v95 : Ref sig .tc := ⟨.hbm, 125, rfl⟩
abbrev main_c_15 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_16 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110_0 : Ref sig .tc := ⟨.hbm, 142, rfl⟩
abbrev main_v110_1 : Ref sig .tc := ⟨.hbm, 143, rfl⟩
abbrev main_v111 : Ref sig .tc := ⟨.hbm, 144, rfl⟩
abbrev main_c_17 : Ref sig .tc := ⟨.hbm, 145, rfl⟩
abbrev main_v112 : Ref sig .tc := ⟨.hbm, 146, rfl⟩
abbrev main_v113 : Ref sig .tc := ⟨.hbm, 147, rfl⟩
abbrev main_c_18 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_19 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128_0 : Ref sig .tc := ⟨.hbm, 164, rfl⟩
abbrev main_v128_1 : Ref sig .tc := ⟨.hbm, 165, rfl⟩
abbrev main_v129 : Ref sig .tc := ⟨.hbm, 166, rfl⟩
abbrev main_c_20 : Ref sig .tc := ⟨.hbm, 167, rfl⟩
abbrev main_v130 : Ref sig .tc := ⟨.hbm, 168, rfl⟩
abbrev main_v131 : Ref sig .tc := ⟨.hbm, 169, rfl⟩
abbrev main_c_21 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_22 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146_0 : Ref sig .tc := ⟨.hbm, 186, rfl⟩
abbrev main_v146_1 : Ref sig .tc := ⟨.hbm, 187, rfl⟩
abbrev main_v147 : Ref sig .tc := ⟨.hbm, 188, rfl⟩
abbrev main_c_23 : Ref sig .tc := ⟨.hbm, 189, rfl⟩
abbrev main_v148 : Ref sig .tc := ⟨.hbm, 190, rfl⟩
abbrev main_v149 : Ref sig .tc := ⟨.hbm, 191, rfl⟩
abbrev main_c_24 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_25 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164_0 : Ref sig .tc := ⟨.hbm, 208, rfl⟩
abbrev main_v164_1 : Ref sig .tc := ⟨.hbm, 209, rfl⟩
abbrev main_v165 : Ref sig .tc := ⟨.hbm, 210, rfl⟩
abbrev main_c_26 : Ref sig .tc := ⟨.hbm, 211, rfl⟩
abbrev main_v166 : Ref sig .tc := ⟨.hbm, 212, rfl⟩
abbrev main_v167 : Ref sig .tc := ⟨.hbm, 213, rfl⟩
abbrev main_c_27 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_28 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182_0 : Ref sig .tc := ⟨.hbm, 230, rfl⟩
abbrev main_v182_1 : Ref sig .tc := ⟨.hbm, 231, rfl⟩
abbrev main_v183 : Ref sig .tc := ⟨.hbm, 232, rfl⟩
abbrev main_c_29 : Ref sig .tc := ⟨.hbm, 233, rfl⟩
abbrev main_v184 : Ref sig .tc := ⟨.hbm, 234, rfl⟩
abbrev main_v185 : Ref sig .tc := ⟨.hbm, 235, rfl⟩
abbrev main_c_30 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_cst_31 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg2_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg1_1 : Ref sig .tc := ⟨.vmem, 72, rfl⟩
abbrev cc9_stg2_0 : Ref sig .tc := ⟨.vmem, 73, rfl⟩
abbrev cc9_stg2_1 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg4_1 : Ref sig .tc := ⟨.vmem, 77, rfl⟩
abbrev cc9_stg5_0 : Ref sig .tc := ⟨.vmem, 78, rfl⟩
abbrev cc9_stg5_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg2_1 : Ref sig .tc := ⟨.vmem, 84, rfl⟩
abbrev cc11_stg0_0 : Ref sig .tc := ⟨.vmem, 85, rfl⟩
abbrev cc11_stg0_1 : Ref sig .tc := ⟨.vmem, 86, rfl⟩
abbrev cc11_stg1_0 : Ref sig .tc := ⟨.vmem, 87, rfl⟩
abbrev cc11_stg1_1 : Ref sig .tc := ⟨.vmem, 88, rfl⟩
abbrev cc11_stg2_0 : Ref sig .tc := ⟨.vmem, 89, rfl⟩
abbrev cc11_stg2_1 : Ref sig .tc := ⟨.vmem, 90, rfl⟩
abbrev cc11_stg3_0 : Ref sig .tc := ⟨.vmem, 91, rfl⟩
abbrev cc11_stg4_0 : Ref sig .tc := ⟨.vmem, 92, rfl⟩
abbrev cc11_stg4_1 : Ref sig .tc := ⟨.vmem, 93, rfl⟩
abbrev cc11_stg5_0 : Ref sig .tc := ⟨.vmem, 94, rfl⟩
abbrev cc11_stg5_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg2_1 : Ref sig .tc := ⟨.vmem, 100, rfl⟩
abbrev cc13_stg0_0 : Ref sig .tc := ⟨.vmem, 101, rfl⟩
abbrev cc13_stg0_1 : Ref sig .tc := ⟨.vmem, 102, rfl⟩
abbrev cc13_stg1_0 : Ref sig .tc := ⟨.vmem, 103, rfl⟩
abbrev cc13_stg1_1 : Ref sig .tc := ⟨.vmem, 104, rfl⟩
abbrev cc13_stg2_0 : Ref sig .tc := ⟨.vmem, 105, rfl⟩
abbrev cc13_stg2_1 : Ref sig .tc := ⟨.vmem, 106, rfl⟩
abbrev cc13_stg3_0 : Ref sig .tc := ⟨.vmem, 107, rfl⟩
abbrev cc13_stg4_0 : Ref sig .tc := ⟨.vmem, 108, rfl⟩
abbrev cc13_stg4_1 : Ref sig .tc := ⟨.vmem, 109, rfl⟩
abbrev cc13_stg5_0 : Ref sig .tc := ⟨.vmem, 110, rfl⟩
abbrev cc13_stg5_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg2_0 : Ref sig .tc := ⟨.vmem, 115, rfl⟩
abbrev cc14_stg2_1 : Ref sig .tc := ⟨.vmem, 116, rfl⟩
abbrev cc15_stg0_0 : Ref sig .tc := ⟨.vmem, 117, rfl⟩
abbrev cc15_stg0_1 : Ref sig .tc := ⟨.vmem, 118, rfl⟩
abbrev cc15_stg1_0 : Ref sig .tc := ⟨.vmem, 119, rfl⟩
abbrev cc15_stg2_0 : Ref sig .tc := ⟨.vmem, 120, rfl⟩
abbrev cc15_stg2_1 : Ref sig .tc := ⟨.vmem, 121, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem2_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem2_1 : DmaSem sig := 74
abbrev cc9_sem3_0 : DmaSem sig := 75
abbrev cc9_sem4_0 : DmaSem sig := 76
abbrev cc9_sem4_1 : DmaSem sig := 77
abbrev cc9_sem5_0 : DmaSem sig := 78
abbrev cc9_sem5_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem2_1 : DmaSem sig := 84
abbrev cc11_sem0_0 : DmaSem sig := 85
abbrev cc11_sem0_1 : DmaSem sig := 86
abbrev cc11_sem1_0 : DmaSem sig := 87
abbrev cc11_sem1_1 : DmaSem sig := 88
abbrev cc11_sem2_0 : DmaSem sig := 89
abbrev cc11_sem2_1 : DmaSem sig := 90
abbrev cc11_sem3_0 : DmaSem sig := 91
abbrev cc11_sem4_0 : DmaSem sig := 92
abbrev cc11_sem4_1 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem2_1 : DmaSem sig := 100
abbrev cc13_sem0_0 : DmaSem sig := 101
abbrev cc13_sem0_1 : DmaSem sig := 102
abbrev cc13_sem1_0 : DmaSem sig := 103
abbrev cc13_sem1_1 : DmaSem sig := 104
abbrev cc13_sem2_0 : DmaSem sig := 105
abbrev cc13_sem2_1 : DmaSem sig := 106
abbrev cc13_sem3_0 : DmaSem sig := 107
abbrev cc13_sem4_0 : DmaSem sig := 108
abbrev cc13_sem4_1 : DmaSem sig := 109
abbrev cc13_sem5_0 : DmaSem sig := 110
abbrev cc13_sem5_1 : DmaSem sig := 111
abbrev cc14_sem0_0 : DmaSem sig := 112
abbrev cc14_sem0_1 : DmaSem sig := 113
abbrev cc14_sem1_0 : DmaSem sig := 114
abbrev cc14_sem2_0 : DmaSem sig := 115
abbrev cc14_sem2_1 : DmaSem sig := 116
abbrev cc15_sem0_0 : DmaSem sig := 117
abbrev cc15_sem0_1 : DmaSem sig := 118
abbrev cc15_sem1_0 : DmaSem sig := 119
abbrev cc15_sem2_0 : DmaSem sig := 120
abbrev cc15_sem2_1 : DmaSem sig := 121

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x32 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S2000x32 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x32 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x32 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x32 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x32 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S2000x32 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S2000x32 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S32x32 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S10000x32 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x32 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x32 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S2000x32 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S1x32 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S2000x32 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S2000x32 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S32x40 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S10000x40 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x40 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x40 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S2000x40 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S6x32x32_S1x32x32_0_0_0 : S6x32x32.Slices ![0, 0, 0] S1x32x32
  shapeCasts_S1x32x32_S32x32 : S1x32x32.ShapeCasts S32x32
  slices_S6x32x32_S1x32x32_1_0_0 : S6x32x32.Slices ![1, 0, 0] S1x32x32
  slices_S6x32x32_S1x32x32_2_0_0 : S6x32x32.Slices ![2, 0, 0] S1x32x32
  slices_S6x32x32_S1x32x32_3_0_0 : S6x32x32.Slices ![3, 0, 0] S1x32x32
  slices_S6x32x32_S1x32x32_4_0_0 : S6x32x32.Slices ![4, 0, 0] S1x32x32
  slices_S6x32x32_S1x32x32_5_0_0 : S6x32x32.Slices ![5, 0, 0] S1x32x32
  slices_S6x32_S1x32_0_0 : S6x32.Slices ![0, 0] S1x32
  shapeCasts_S1x32_S32 : S1x32.ShapeCasts S32
  slices_S6x32_S1x32_1_0 : S6x32.Slices ![1, 0] S1x32
  slices_S6x32_S1x32_2_0 : S6x32.Slices ![2, 0] S1x32
  slices_S6x32_S1x32_3_0 : S6x32.Slices ![3, 0] S1x32
  slices_S6x32_S1x32_4_0 : S6x32.Slices ![4, 0] S1x32
  slices_S6x32_S1x32_5_0 : S6x32.Slices ![5, 0] S1x32
  bcast_S_S100000x32 : S_.BroadcastsInDim S100000x32 (![] : Fin 0 → Fin S100000x32.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  slices_S7x100000x32_S1x100000x32_0_0_0 : S7x100000x32.Slices ![0, 0, 0] S1x100000x32
  shapeCasts_S1x100000x32_S100000x32 : S1x100000x32.ShapeCasts S100000x32
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S7x100000x32_S1x100000x32_1_0_0 : S7x100000x32.Slices ![1, 0, 0] S1x100000x32
  slices_S7x100000x32_S1x100000x32_2_0_0 : S7x100000x32.Slices ![2, 0, 0] S1x100000x32
  slices_S7x100000x32_S1x100000x32_3_0_0 : S7x100000x32.Slices ![3, 0, 0] S1x100000x32
  slices_S7x100000x32_S1x100000x32_4_0_0 : S7x100000x32.Slices ![4, 0, 0] S1x100000x32
  slices_S7x100000x32_S1x100000x32_5_0_0 : S7x100000x32.Slices ![5, 0, 0] S1x100000x32
  slices_S7x100000x32_S1x100000x32_6_0_0 : S7x100000x32.Slices ![6, 0, 0] S1x100000x32
  inb_S32x40_S32x40_0_0 : ∀ a, (![0, 0] : Fin 2 → Nat) a + S32x40.size a ≤ S32x40.size a
  h_S32x40 : 0 < S32x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  inb_S2000x40_S2000x40_0_0 : ∀ a, (![0, 0] : Fin 2 → Nat) a + S2000x40.size a ≤ S2000x40.size a
  h_S2000x40 : 0 < S2000x40.numel
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x32_S10000x32_1_0_0_1_n_n_wf : DotDims.WF S10000x128 S128x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x32_S10000x32_1_0_0_1_n_n_wf : DotDims.WF S10000x32 S32x32 S10000x32 [1] [0] [0] [1] [] []
  dot_S10000x32_S32x40_S10000x40_1_0_0_1_n_n_wf : DotDims.WF S10000x32 S32x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S100000x32.size a
  hwx1_4 : ∀ i : grid1.Coords, EltTy.bits .f32 = 32 ∨ (Rect.block (s := S100000x32) S2000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S100000x32.size a
  hwx1_5 : ∀ i : grid1.Coords, EltTy.bits .f32 = 32 ∨ (Rect.block (s := S100000x32) S2000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x32.size a ≤ S100000x32.size a
  hwx3_4 : ∀ i : grid3.Coords, EltTy.bits .f32 = 32 ∨ (Rect.block (s := S100000x32) S2000x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x32.size a ≤ S100000x32.size a
  hwx3_5 : ∀ i : grid3.Coords, EltTy.bits .f32 = 32 ∨ (Rect.block (s := S100000x32) S2000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S100000x32.size a
  hwx5_1 : ∀ i : grid5.Coords, EltTy.bits .f32 = 32 ∨ (Rect.block (s := S100000x32) S2000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x32.size a ≤ S100000x32.size a
  hwx5_2 : ∀ i : grid5.Coords, EltTy.bits .f32 = 32 ∨ (Rect.block (s := S100000x32) S2000x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x32.size a ≤ S100000x32.size a
  hwx5_4 : ∀ i : grid5.Coords, EltTy.bits .f32 = 32 ∨ (Rect.block (s := S100000x32) S2000x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x32.size a ≤ S100000x32.size a
  hwx5_5 : ∀ i : grid5.Coords, EltTy.bits .f32 = 32 ∨ (Rect.block (s := S100000x32) S2000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x32.size a ≤ S100000x32.size a
  hwx6_2 : ∀ i : grid6.Coords, EltTy.bits .f32 = 32 ∨ (Rect.block (s := S100000x32) S10000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x32.size a ≤ S100000x32.size a
  hwx7_1 : ∀ i : grid7.Coords, EltTy.bits .f32 = 32 ∨ (Rect.block (s := S100000x32) S2000x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x32.size a ≤ S100000x32.size a
  hwx7_2 : ∀ i : grid7.Coords, EltTy.bits .f32 = 32 ∨ (Rect.block (s := S100000x32) S2000x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x32.size a ≤ S100000x32.size a
  hwx7_4 : ∀ i : grid7.Coords, EltTy.bits .f32 = 32 ∨ (Rect.block (s := S100000x32) S2000x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x32.size a ≤ S100000x32.size a
  hwx7_5 : ∀ i : grid7.Coords, EltTy.bits .f32 = 32 ∨ (Rect.block (s := S100000x32) S2000x32.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x32.size a ≤ S32x32.size a
  hwx8_1 : ∀ i : grid8.Coords, EltTy.bits .f32 = 32 ∨ (Rect.block (s := S32x32) S32x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x32.size a ≤ S100000x32.size a
  hwx8_2 : ∀ i : grid8.Coords, EltTy.bits .f32 = 32 ∨ (Rect.block (s := S100000x32) S10000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x32.size a ≤ S100000x32.size a
  hwx9_0 : ∀ i : grid9.Coords, EltTy.bits .f32 = 32 ∨ (Rect.block (s := S100000x32) S2000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x32.size a ≤ S100000x32.size a
  hwx9_1 : ∀ i : grid9.Coords, EltTy.bits .f32 = 32 ∨ (Rect.block (s := S100000x32) S2000x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x32.size a ≤ S100000x32.size a
  hwx9_2 : ∀ i : grid9.Coords, EltTy.bits .f32 = 32 ∨ (Rect.block (s := S100000x32) S2000x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x32.size a ≤ S1x32.size a
  hwx9_3 : ∀ i : grid9.Coords, EltTy.bits .f32 = 32 ∨ (Rect.block (s := S1x32) S1x32.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x32.size a ≤ S100000x32.size a
  hwx9_4 : ∀ i : grid9.Coords, EltTy.bits .f32 = 32 ∨ (Rect.block (s := S100000x32) S2000x32.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x32.size a ≤ S100000x32.size a
  hwx9_5 : ∀ i : grid9.Coords, EltTy.bits .f32 = 32 ∨ (Rect.block (s := S100000x32) S2000x32.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x32.size a ≤ S100000x32.size a
  hwx10_0 : ∀ i : grid10.Coords, EltTy.bits .f32 = 32 ∨ (Rect.block (s := S100000x32) S10000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x32.size a ≤ S32x32.size a
  hwx10_1 : ∀ i : grid10.Coords, EltTy.bits .f32 = 32 ∨ (Rect.block (s := S32x32) S32x32.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x32.size a ≤ S100000x32.size a
  hwx10_2 : ∀ i : grid10.Coords, EltTy.bits .f32 = 32 ∨ (Rect.block (s := S100000x32) S10000x32.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x32.size a ≤ S100000x32.size a
  hwx11_0 : ∀ i : grid11.Coords, EltTy.bits .f32 = 32 ∨ (Rect.block (s := S100000x32) S2000x32.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x32.size a ≤ S100000x32.size a
  hwx11_1 : ∀ i : grid11.Coords, EltTy.bits .f32 = 32 ∨ (Rect.block (s := S100000x32) S2000x32.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x32.size a ≤ S100000x32.size a
  hwx11_2 : ∀ i : grid11.Coords, EltTy.bits .f32 = 32 ∨ (Rect.block (s := S100000x32) S2000x32.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x32.size a ≤ S1x32.size a
  hwx11_3 : ∀ i : grid11.Coords, EltTy.bits .f32 = 32 ∨ (Rect.block (s := S1x32) S1x32.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x32.size a ≤ S100000x32.size a
  hwx11_4 : ∀ i : grid11.Coords, EltTy.bits .f32 = 32 ∨ (Rect.block (s := S100000x32) S2000x32.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x32.size a ≤ S100000x32.size a
  hwx11_5 : ∀ i : grid11.Coords, EltTy.bits .f32 = 32 ∨ (Rect.block (s := S100000x32) S2000x32.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x32.size a ≤ S100000x32.size a
  hwx12_0 : ∀ i : grid12.Coords, EltTy.bits .f32 = 32 ∨ (Rect.block (s := S100000x32) S10000x32.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S32x32.size a ≤ S32x32.size a
  hwx12_1 : ∀ i : grid12.Coords, EltTy.bits .f32 = 32 ∨ (Rect.block (s := S32x32) S32x32.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x32.size a ≤ S100000x32.size a
  hwx12_2 : ∀ i : grid12.Coords, EltTy.bits .f32 = 32 ∨ (Rect.block (s := S100000x32) S10000x32.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x32.size a ≤ S100000x32.size a
  hwx13_0 : ∀ i : grid13.Coords, EltTy.bits .f32 = 32 ∨ (Rect.block (s := S100000x32) S2000x32.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x32.size a ≤ S100000x32.size a
  hwx13_1 : ∀ i : grid13.Coords, EltTy.bits .f32 = 32 ∨ (Rect.block (s := S100000x32) S2000x32.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x32.size a ≤ S100000x32.size a
  hwx13_2 : ∀ i : grid13.Coords, EltTy.bits .f32 = 32 ∨ (Rect.block (s := S100000x32) S2000x32.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x32.size a ≤ S1x32.size a
  hwx13_3 : ∀ i : grid13.Coords, EltTy.bits .f32 = 32 ∨ (Rect.block (s := S1x32) S1x32.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2000x32.size a ≤ S100000x32.size a
  hwx13_4 : ∀ i : grid13.Coords, EltTy.bits .f32 = 32 ∨ (Rect.block (s := S100000x32) S2000x32.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x32.size a ≤ S100000x32.size a
  hwx13_5 : ∀ i : grid13.Coords, EltTy.bits .f32 = 32 ∨ (Rect.block (s := S100000x32) S2000x32.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x32.size a ≤ S100000x32.size a
  hwx14_0 : ∀ i : grid14.Coords, EltTy.bits .f32 = 32 ∨ (Rect.block (s := S100000x32) S10000x32.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S32x40.size a ≤ S32x40.size a
  hwx14_1 : ∀ i : grid14.Coords, EltTy.bits .f32 = 32 ∨ (Rect.block (s := S32x40) S32x40.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x40.size a ≤ S100000x40.size a
  hwx14_2 : ∀ i : grid14.Coords, EltTy.bits .f32 = 32 ∨ (Rect.block (s := S100000x40) S10000x40.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x40.size a ≤ S100000x40.size a
  hwx15_0 : ∀ i : grid15.Coords, EltTy.bits .f32 = 32 ∨ (Rect.block (s := S100000x40) S2000x40.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x40.size a ≤ S1x40.size a
  hwx15_1 : ∀ i : grid15.Coords, EltTy.bits .f32 = 32 ∨ (Rect.block (s := S1x40) S1x40.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x40.size a ≤ S100000x40.size a
  hwx15_2 : ∀ i : grid15.Coords, EltTy.bits .f32 = 32 ∨ (Rect.block (s := S100000x40) S2000x40.size (cc15_transform_2 i) (hinb15_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x40_S10000x40_1_0_0_1_n_n : DotDims S10000x32 S32x40 S10000x40 where
  lhsContracting := [1]
  rhsContracting := [0]
  lhsNonContracting := [0]
  rhsNonContracting := [1]
  lhsBatch := []
  rhsBatch := []
  wf := dot_S10000x32_S32x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v70) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S2000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74_0) S2000x32.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v74_1) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74_0) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74_1) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v90) S2000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v91) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92_0) S2000x32.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v92_1) S2000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v92_0) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v106) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92_1) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v108) S2000x32.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v109) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v110_0) S2000x32.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v110_1) S2000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v110_0) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v37) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S10000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v124) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110_1) S2000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v126) S2000x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v127) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v128_0) S2000x32.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v128_1) S2000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v128_0) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v39) S32x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v129) S10000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v142) S2000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v128_1) S2000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v144) S2000x32.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v145) S1x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v146_0) S2000x32.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v146_1) S2000x32.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v146_0) S10000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v41) S32x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v147) S10000x32.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v160) S2000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v146_1) S2000x32.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v162) S2000x32.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v163) S1x32.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v164_0) S2000x32.size cc11_transform_4 reads11_4 true false 2 stage11_4 sem11_4
    hrank11 hreads11_4 hinb11_4 nbuf11_4 (Memref.isWhole_whole _) hwx11_4 hstage11_4

abbrev win11_5 : Pipeline.Window sig grid11 :=
  Pipeline.Window.ofSpec (Memref.whole main_v164_1) S2000x32.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v164_0) S10000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v43) S32x32.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v165) S10000x32.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v178) S2000x32.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v164_1) S2000x32.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v180) S2000x32.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v181) S1x32.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v182_0) S2000x32.size cc13_transform_4 reads13_4 true false 2 stage13_4 sem13_4
    hrank13 hreads13_4 hinb13_4 nbuf13_4 (Memref.isWhole_whole _) hwx13_4 hstage13_4

abbrev win13_5 : Pipeline.Window sig grid13 :=
  Pipeline.Window.ofSpec (Memref.whole main_v182_1) S2000x32.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v182_0) S10000x32.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg7) S32x40.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v183) S10000x40.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v196) S2000x40.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v197) S1x40.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v198) S2000x40.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S7x100000x32 : Shape := ⟨3, ![7, 100000, 32]⟩
abbrev S128x32 : Shape := ⟨2, ![128, 32]⟩
abbrev S32 : Shape := ⟨1, ![32]⟩
abbrev S6x32x32 : Shape := ⟨3, ![6, 32, 32]⟩
abbrev S6x32 : Shape := ⟨2, ![6, 32]⟩
abbrev S32x40 : Shape := ⟨2, ![32, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x32x32 : Shape := ⟨3, ![1, 32, 32]⟩
abbrev S32x32 : Shape := ⟨2, ![32, 32]⟩
abbrev S1x32 : Shape := ⟨2, ![1, 32]⟩
abbrev S100000x32 : Shape := ⟨2, ![100000, 32]⟩
abbrev S1700000x32 : Shape := ⟨2, ![1700000, 32]⟩
abbrev S1x100000x32 : Shape := ⟨3, ![1, 100000, 32]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 343
  | .vmem => 0
  | .smem => 0
  | _ => 0

abbrev hbmTy0_0 (i : Nat) : BufTy := match i % 128 with
  | 0 => ⟨S100000x128, .f32⟩
  | 1 => ⟨S2x1600000, .i32⟩
  | 2 => ⟨S7x100000x32, .f32⟩
  | 3 => ⟨S128x32, .f32⟩
  | 4 => ⟨S32, .f32⟩
  | 5 => ⟨S6x32x32, .f32⟩
  | 6 => ⟨S6x32, .f32⟩
  | 7 => ⟨S32x40, .f32⟩
  | 8 => ⟨S40, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1x32x32, .f32⟩
  | 53 => ⟨S32x32, .f32⟩
  | 54 => ⟨S1x32x32, .f32⟩
  | 55 => ⟨S32x32, .f32⟩
  | 56 => ⟨S1x32x32, .f32⟩
  | 57 => ⟨S32x32, .f32⟩
  | 58 => ⟨S1x32x32, .f32⟩
  | 59 => ⟨S32x32, .f32⟩
  | 60 => ⟨S1x32x32, .f32⟩
  | 61 => ⟨S32x32, .f32⟩
  | 62 => ⟨S1x32x32, .f32⟩
  | 63 => ⟨S32x32, .f32⟩
  | 64 => ⟨S1x32, .f32⟩
  | 65 => ⟨S32, .f32⟩
  | 66 => ⟨S1x32, .f32⟩
  | 67 => ⟨S32, .f32⟩
  | 68 => ⟨S1x32, .f32⟩
  | 69 => ⟨S32, .f32⟩
  | 70 => ⟨S1x32, .f32⟩
  | 71 => ⟨S32, .f32⟩
  | 72 => ⟨S1x32, .f32⟩
  | 73 => ⟨S32, .f32⟩
  | 74 => ⟨S1x32, .f32⟩
  | 75 => ⟨S32, .f32⟩
  | 76 => ⟨S100000x32, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x32, .f32⟩
  | 86 => ⟨S1700000x1, .f32⟩
  | 87 => ⟨S1700000x32, .f32⟩
  | 88 => ⟨S1700000x32, .f32⟩
  | 89 => ⟨S_, .f32⟩
  | 90 => ⟨S100000x32, .f32⟩
  | 91 => ⟨S1700000x1, .i32⟩
  | 92 => ⟨S100000x32, .f32⟩
  | 93 => ⟨S1x32, .f32⟩
  | 94 => ⟨S100000x32, .f32⟩
  | 95 => ⟨S100000x32, .f32⟩
  | 96 => ⟨S_, .f32⟩
  | 97 => ⟨S100000x32, .f32⟩
  | 98 => ⟨S100000x32, .f32⟩
  | 99 => ⟨S_, .f32⟩
  | 100 => ⟨S100000x32, .f32⟩
  | 101 => ⟨S100000x32, .f32⟩
  | 102 => ⟨S1x100000x32, .f32⟩
  | 103 => ⟨S100000x32, .f32⟩
  | 104 => ⟨S_, .f32⟩
  | 105 => ⟨S100000x32, .f32⟩
  | 106 => ⟨S100000x32, .i1⟩
  | 107 => ⟨S_, .f32⟩
  | 108 => ⟨S_, .f32⟩
  | 109 => ⟨S100000x32, .f32⟩
  | 110 => ⟨S100000x32, .f32⟩
  | 111 => ⟨S100000x32, .f32⟩
  | 112 => ⟨S100000x32, .f32⟩
  | 113 => ⟨S100000x32, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x32, .f32⟩
  | 123 => ⟨S1700000x1, .f32⟩
  | 124 => ⟨S1700000x32, .f32⟩
  | 125 => ⟨S1700000x32, .f32⟩
  | 126 => ⟨S_, .f32⟩
  | 127 => ⟨S100000x32, .f32⟩
  | _ => ⟨S100000x128, .f32⟩

abbrev hbmTy0_1 (i : Nat) : BufTy := match i % 128 with
  | 0 => ⟨S1700000x1, .i32⟩
  | 1 => ⟨S100000x32, .f32⟩
  | 2 => ⟨S1x32, .f32⟩
  | 3 => ⟨S100000x32, .f32⟩
  | 4 => ⟨S100000x32, .f32⟩
  | 5 => ⟨S_, .f32⟩
  | 6 => ⟨S100000x32, .f32⟩
  | 7 => ⟨S100000x32, .f32⟩
  | 8 => ⟨S100000x32, .f32⟩
  | 9 => ⟨S1x100000x32, .f32⟩
  | 10 => ⟨S100000x32, .f32⟩
  | 11 => ⟨S_, .f32⟩
  | 12 => ⟨S100000x32, .f32⟩
  | 13 => ⟨S100000x32, .i1⟩
  | 14 => ⟨S_, .f32⟩
  | 15 => ⟨S_, .f32⟩
  | 16 => ⟨S100000x32, .f32⟩
  | 17 => ⟨S100000x32, .f32⟩
  | 18 => ⟨S100000x32, .f32⟩
  | 19 => ⟨S100000x32, .f32⟩
  | 20 => ⟨S100000x32, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000x32, .f32⟩
  | 30 => ⟨S1700000x1, .f32⟩
  | 31 => ⟨S1700000x32, .f32⟩
  | 32 => ⟨S1700000x32, .f32⟩
  | 33 => ⟨S_, .f32⟩
  | 34 => ⟨S100000x32, .f32⟩
  | 35 => ⟨S1700000x1, .i32⟩
  | 36 => ⟨S100000x32, .f32⟩
  | 37 => ⟨S1x32, .f32⟩
  | 38 => ⟨S100000x32, .f32⟩
  | 39 => ⟨S100000x32, .f32⟩
  | 40 => ⟨S_, .f32⟩
  | 41 => ⟨S100000x32, .f32⟩
  | 42 => ⟨S100000x32, .f32⟩
  | 43 => ⟨S100000x32, .f32⟩
  | 44 => ⟨S1x100000x32, .f32⟩
  | 45 => ⟨S100000x32, .f32⟩
  | 46 => ⟨S_, .f32⟩
  | 47 => ⟨S100000x32, .f32⟩
  | 48 => ⟨S100000x32, .i1⟩
  | 49 => ⟨S_, .f32⟩
  | 50 => ⟨S_, .f32⟩
  | 51 => ⟨S100000x32, .f32⟩
  | 52 => ⟨S100000x32, .f32⟩
  | 53 => ⟨S100000x32, .f32⟩
  | 54 => ⟨S100000x32, .f32⟩
  | 55 => ⟨S100000x32, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x32, .f32⟩
  | 65 => ⟨S1700000x1, .f32⟩
  | 66 => ⟨S1700000x32, .f32⟩
  | 67 => ⟨S1700000x32, .f32⟩
  | 68 => ⟨S_, .f32⟩
  | 69 => ⟨S100000x32, .f32⟩
  | 70 => ⟨S1700000x1, .i32⟩
  | 71 => ⟨S100000x32, .f32⟩
  | 72 => ⟨S1x32, .f32⟩
  | 73 => ⟨S100000x32, .f32⟩
  | 74 => ⟨S100000x32, .f32⟩
  | 75 => ⟨S_, .f32⟩
  | 76 => ⟨S100000x32, .f32⟩
  | 77 => ⟨S100000x32, .f32⟩
  | 78 => ⟨S100000x32, .f32⟩
  | 79 => ⟨S1x100000x32, .f32⟩
  | 80 => ⟨S100000x32, .f32⟩
  | 81 => ⟨S_, .f32⟩
  | 82 => ⟨S100000x32, .f32⟩
  | 83 => ⟨S100000x32, .i1⟩
  | 84 => ⟨S_, .f32⟩
  | 85 => ⟨S_, .f32⟩
  | 86 => ⟨S100000x32, .f32⟩
  | 87 => ⟨S100000x32, .f32⟩
  | 88 => ⟨S100000x32, .f32⟩
  | 89 => ⟨S100000x32, .f32⟩
  | 90 => ⟨S100000x32, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x32, .f32⟩
  | 100 => ⟨S1700000x1, .f32⟩
  | 101 => ⟨S1700000x32, .f32⟩
  | 102 => ⟨S1700000x32, .f32⟩
  | 103 => ⟨S_, .f32⟩
  | 104 => ⟨S100000x32, .f32⟩
  | 105 => ⟨S1700000x1, .i32⟩
  | 106 => ⟨S100000x32, .f32⟩
  | 107 => ⟨S1x32, .f32⟩
  | 108 => ⟨S100000x32, .f32⟩
  | 109 => ⟨S100000x32, .f32⟩
  | 110 => ⟨S_, .f32⟩
  | 111 => ⟨S100000x32, .f32⟩
  | 112 => ⟨S100000x32, .f32⟩
  | 113 => ⟨S100000x32, .f32⟩
  | 114 => ⟨S1x100000x32, .f32⟩
  | 115 => ⟨S100000x32, .f32⟩
  | 116 => ⟨S_, .f32⟩
  | 117 => ⟨S100000x32, .f32⟩
  | 118 => ⟨S100000x32, .i1⟩
  | 119 => ⟨S_, .f32⟩
  | 120 => ⟨S_, .f32⟩
  | 121 => ⟨S100000x32, .f32⟩
  | 122 => ⟨S100000x32, .f32⟩
  | 123 => ⟨S100000x32, .f32⟩
  | 124 => ⟨S100000x32, .f32⟩
  | 125 => ⟨S100000x32, .f32⟩
  | 126 => ⟨S_, .i32⟩
  | 127 => ⟨S1700000, .i32⟩
  | _ => ⟨S100000x128, .f32⟩

abbrev hbmTy0_2 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x32, .f32⟩
  | 7 => ⟨S1700000x1, .f32⟩
  | 8 => ⟨S1700000x32, .f32⟩
  | 9 => ⟨S1700000x32, .f32⟩
  | 10 => ⟨S_, .f32⟩
  | 11 => ⟨S100000x32, .f32⟩
  | 12 => ⟨S1700000x1, .i32⟩
  | 13 => ⟨S100000x32, .f32⟩
  | 14 => ⟨S1x32, .f32⟩
  | 15 => ⟨S100000x32, .f32⟩
  | 16 => ⟨S100000x32, .f32⟩
  | 17 => ⟨S_, .f32⟩
  | 18 => ⟨S100000x32, .f32⟩
  | 19 => ⟨S100000x32, .f32⟩
  | 20 => ⟨S100000x32, .f32⟩
  | 21 => ⟨S1x100000x32, .f32⟩
  | 22 => ⟨S100000x32, .f32⟩
  | 23 => ⟨S_, .f32⟩
  | 24 => ⟨S100000x32, .f32⟩
  | 25 => ⟨S100000x32, .i1⟩
  | 26 => ⟨S_, .f32⟩
  | 27 => ⟨S_, .f32⟩
  | 28 => ⟨S100000x32, .f32⟩
  | 29 => ⟨S100000x32, .f32⟩
  | 30 => ⟨S100000x32, .f32⟩
  | 31 => ⟨S100000x32, .f32⟩
  | 32 => ⟨S100000x32, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x32, .f32⟩
  | 42 => ⟨S1700000x1, .f32⟩
  | 43 => ⟨S1700000x32, .f32⟩
  | 44 => ⟨S1700000x32, .f32⟩
  | 45 => ⟨S_, .f32⟩
  | 46 => ⟨S100000x32, .f32⟩
  | 47 => ⟨S1700000x1, .i32⟩
  | 48 => ⟨S100000x32, .f32⟩
  | 49 => ⟨S1x32, .f32⟩
  | 50 => ⟨S100000x32, .f32⟩
  | 51 => ⟨S100000x32, .f32⟩
  | 52 => ⟨S_, .f32⟩
  | 53 => ⟨S100000x32, .f32⟩
  | 54 => ⟨S100000x32, .f32⟩
  | 55 => ⟨S100000x32, .f32⟩
  | 56 => ⟨S1x100000x32, .f32⟩
  | 57 => ⟨S100000x32, .f32⟩
  | 58 => ⟨S_, .f32⟩
  | 59 => ⟨S100000x32, .f32⟩
  | 60 => ⟨S100000x32, .i1⟩
  | 61 => ⟨S_, .f32⟩
  | 62 => ⟨S_, .f32⟩
  | 63 => ⟨S100000x32, .f32⟩
  | 64 => ⟨S100000x32, .f32⟩
  | 65 => ⟨S100000x32, .f32⟩
  | 66 => ⟨S100000x32, .f32⟩
  | 67 => ⟨S100000x40, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x40, .f32⟩
  | 77 => ⟨S1700000x1, .f32⟩
  | 78 => ⟨S1700000x40, .f32⟩
  | 79 => ⟨S1700000x40, .f32⟩
  | 80 => ⟨S_, .f32⟩
  | 81 => ⟨S100000x40, .f32⟩
  | 82 => ⟨S1700000x1, .i32⟩
  | 83 => ⟨S100000x40, .f32⟩
  | 84 => ⟨S1x40, .f32⟩
  | 85 => ⟨S100000x40, .f32⟩
  | 86 => ⟨S100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_7 : Ref sig .tc := ⟨.hbm, 77, rfl⟩
abbrev main_v57 : Ref sig .tc := ⟨.hbm, 78, rfl⟩
abbrev main_v58 : Ref sig .tc := ⟨.hbm, 79, rfl⟩
abbrev main_c_8 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call1_cst : Ref sig .tc := ⟨.hbm, 96, rfl⟩
abbrev main_call1_v0 : Ref sig .tc := ⟨.hbm, 97, rfl⟩
abbrev main_v73 : Ref sig .tc := ⟨.hbm, 98, rfl⟩
abbrev main_cst_10 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_11 : Ref sig .tc := ⟨.hbm, 104, rfl⟩
abbrev main_v78 : Ref sig .tc := ⟨.hbm, 105, rfl⟩
abbrev main_v79 : Ref sig .tc := ⟨.hbm, 106, rfl⟩
abbrev main_cst_12 : Ref sig .tc := ⟨.hbm, 107, rfl⟩
abbrev main_cst_13 : Ref sig .tc := ⟨.hbm, 108, rfl⟩
abbrev main_call2_v0 : Ref sig .tc := ⟨.hbm, 109, rfl⟩
abbrev main_call2_v1 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_14 : Ref sig .tc := ⟨.hbm, 114, rfl⟩
abbrev main_v83 : Ref sig .tc := ⟨.hbm, 115, rfl⟩
abbrev main_v84 : Ref sig .tc := ⟨.hbm, 116, rfl⟩
abbrev main_c_15 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_16 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call3_cst : Ref sig .tc := ⟨.hbm, 133, rfl⟩
abbrev main_call3_v0 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_17 : Ref sig .tc := ⟨.hbm, 139, rfl⟩
abbrev main_v103 : Ref sig .tc := ⟨.hbm, 140, rfl⟩
abbrev main_v104 : Ref sig .tc := ⟨.hbm, 141, rfl⟩
abbrev main_cst_18 : Ref sig .tc := ⟨.hbm, 142, rfl⟩
abbrev main_cst_19 : Ref sig .tc := ⟨.hbm, 143, rfl⟩
abbrev main_call4_v0 : Ref sig .tc := ⟨.hbm, 144, rfl⟩
abbrev main_call4_v1 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_20 : Ref sig .tc := ⟨.hbm, 149, rfl⟩
abbrev main_v108 : Ref sig .tc := ⟨.hbm, 150, rfl⟩
abbrev main_v109 : Ref sig .tc := ⟨.hbm, 151, rfl⟩
abbrev main_c_21 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_22 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_call5_cst : Ref sig .tc := ⟨.hbm, 168, rfl⟩
abbrev main_call5_v0 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_23 : Ref sig .tc := ⟨.hbm, 174, rfl⟩
abbrev main_v128 : Ref sig .tc := ⟨.hbm, 175, rfl⟩
abbrev main_v129 : Ref sig .tc := ⟨.hbm, 176, rfl⟩
abbrev main_cst_24 : Ref sig .tc := ⟨.hbm, 177, rfl⟩
abbrev main_cst_25 : Ref sig .tc := ⟨.hbm, 178, rfl⟩
abbrev main_call6_v0 : Ref sig .tc := ⟨.hbm, 179, rfl⟩
abbrev main_call6_v1 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_c_26 : Ref sig .tc := ⟨.hbm, 184, rfl⟩
abbrev main_v133 : Ref sig .tc := ⟨.hbm, 185, rfl⟩
abbrev main_v134 : Ref sig .tc := ⟨.hbm, 186, rfl⟩
abbrev main_c_27 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_28 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_call7_cst : Ref sig .tc := ⟨.hbm, 203, rfl⟩
abbrev main_call7_v0 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_29 : Ref sig .tc := ⟨.hbm, 209, rfl⟩
abbrev main_v153 : Ref sig .tc := ⟨.hbm, 210, rfl⟩
abbrev main_v154 : Ref sig .tc := ⟨.hbm, 211, rfl⟩
abbrev main_cst_30 : Ref sig .tc := ⟨.hbm, 212, rfl⟩
abbrev main_cst_31 : Ref sig .tc := ⟨.hbm, 213, rfl⟩
abbrev main_call8_v0 : Ref sig .tc := ⟨.hbm, 214, rfl⟩
abbrev main_call8_v1 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_c_32 : Ref sig .tc := ⟨.hbm, 219, rfl⟩
abbrev main_v158 : Ref sig .tc := ⟨.hbm, 220, rfl⟩
abbrev main_v159 : Ref sig .tc := ⟨.hbm, 221, rfl⟩
abbrev main_c_33 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_34 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_call9_cst : Ref sig .tc := ⟨.hbm, 238, rfl⟩
abbrev main_call9_v0 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_35 : Ref sig .tc := ⟨.hbm, 244, rfl⟩
abbrev main_v178 : Ref sig .tc := ⟨.hbm, 245, rfl⟩
abbrev main_v179 : Ref sig .tc := ⟨.hbm, 246, rfl⟩
abbrev main_cst_36 : Ref sig .tc := ⟨.hbm, 247, rfl⟩
abbrev main_cst_37 : Ref sig .tc := ⟨.hbm, 248, rfl⟩
abbrev main_call10_v0 : Ref sig .tc := ⟨.hbm, 249, rfl⟩
abbrev main_call10_v1 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_c_38 : Ref sig .tc := ⟨.hbm, 254, rfl⟩
abbrev main_v183 : Ref sig .tc := ⟨.hbm, 255, rfl⟩
abbrev main_v184 : Ref sig .tc := ⟨.hbm, 256, rfl⟩
abbrev main_c_39 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_cst_40 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_call11_cst : Ref sig .tc := ⟨.hbm, 273, rfl⟩
abbrev main_call11_v0 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_cst_41 : Ref sig .tc := ⟨.hbm, 279, rfl⟩
abbrev main_v203 : Ref sig .tc := ⟨.hbm, 280, rfl⟩
abbrev main_v204 : Ref sig .tc := ⟨.hbm, 281, rfl⟩
abbrev main_cst_42 : Ref sig .tc := ⟨.hbm, 282, rfl⟩
abbrev main_cst_43 : Ref sig .tc := ⟨.hbm, 283, rfl⟩
abbrev main_call12_v0 : Ref sig .tc := ⟨.hbm, 284, rfl⟩
abbrev main_call12_v1 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_c_44 : Ref sig .tc := ⟨.hbm, 289, rfl⟩
abbrev main_v208 : Ref sig .tc := ⟨.hbm, 290, rfl⟩
abbrev main_v209 : Ref sig .tc := ⟨.hbm, 291, rfl⟩
abbrev main_c_45 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_cst_46 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_call13_cst : Ref sig .tc := ⟨.hbm, 308, rfl⟩
abbrev main_call13_v0 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_cst_47 : Ref sig .tc := ⟨.hbm, 314, rfl⟩
abbrev main_v228 : Ref sig .tc := ⟨.hbm, 315, rfl⟩
abbrev main_v229 : Ref sig .tc := ⟨.hbm, 316, rfl⟩
abbrev main_cst_48 : Ref sig .tc := ⟨.hbm, 317, rfl⟩
abbrev main_cst_49 : Ref sig .tc := ⟨.hbm, 318, rfl⟩
abbrev main_call14_v0 : Ref sig .tc := ⟨.hbm, 319, rfl⟩
abbrev main_call14_v1 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_c_50 : Ref sig .tc := ⟨.hbm, 324, rfl⟩
abbrev main_v233 : Ref sig .tc := ⟨.hbm, 325, rfl⟩
abbrev main_v234 : Ref sig .tc := ⟨.hbm, 326, rfl⟩
abbrev main_c_51 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_cst_52 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S6x32x32_S1x32x32_0_0_0 : S6x32x32.Slices ![0, 0, 0] S1x32x32
  shapeCasts_S1x32x32_S32x32 : S1x32x32.ShapeCasts S32x32
  slices_S6x32x32_S1x32x32_1_0_0 : S6x32x32.Slices ![1, 0, 0] S1x32x32
  slices_S6x32x32_S1x32x32_2_0_0 : S6x32x32.Slices ![2, 0, 0] S1x32x32
  slices_S6x32x32_S1x32x32_3_0_0 : S6x32x32.Slices ![3, 0, 0] S1x32x32
  slices_S6x32x32_S1x32x32_4_0_0 : S6x32x32.Slices ![4, 0, 0] S1x32x32
  slices_S6x32x32_S1x32x32_5_0_0 : S6x32x32.Slices ![5, 0, 0] S1x32x32
  slices_S6x32_S1x32_0_0 : S6x32.Slices ![0, 0] S1x32
  shapeCasts_S1x32_S32 : S1x32.ShapeCasts S32
  slices_S6x32_S1x32_1_0 : S6x32.Slices ![1, 0] S1x32
  slices_S6x32_S1x32_2_0 : S6x32.Slices ![2, 0] S1x32
  slices_S6x32_S1x32_3_0 : S6x32.Slices ![3, 0] S1x32
  slices_S6x32_S1x32_4_0 : S6x32.Slices ![4, 0] S1x32
  slices_S6x32_S1x32_5_0 : S6x32.Slices ![5, 0] S1x32
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S7x100000x32_S1x100000x32_0_0_0 : S7x100000x32.Slices ![0, 0, 0] S1x100000x32
  shapeCasts_S1x100000x32_S100000x32 : S1x100000x32.ShapeCasts S100000x32
  slices_S7x100000x32_S1x100000x32_1_0_0 : S7x100000x32.Slices ![1, 0, 0] S1x100000x32
  slices_S7x100000x32_S1x100000x32_2_0_0 : S7x100000x32.Slices ![2, 0, 0] S1x100000x32
  slices_S7x100000x32_S1x100000x32_3_0_0 : S7x100000x32.Slices ![3, 0, 0] S1x100000x32
  slices_S7x100000x32_S1x100000x32_4_0_0 : S7x100000x32.Slices ![4, 0, 0] S1x100000x32
  slices_S7x100000x32_S1x100000x32_5_0_0 : S7x100000x32.Slices ![5, 0, 0] S1x100000x32
  slices_S7x100000x32_S1x100000x32_6_0_0 : S7x100000x32.Slices ![6, 0, 0] S1x100000x32
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []
  dot_S100000x32_S32x40_S100000x40_1_0_0_1_n_n_wf : DotDims.WF S100000x32 S32x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.RunResult.lean ====
/-
  The idealized kernel program's run with its RESULT named.

  The program is sixteen kernel regions among stretches of host operations.  Its buffer contents at each boundary
  are a fold from the launch memory (`Gen.W0` … `Gen.W27`: a stretch applies its host operations, a region leaves
  each of its arrays at what its write-backs leave and every other buffer as it found it).  Every weakly fair
  execution terminates, nothing faulting, with every unscoped buffer at the last boundary's contents `Gen.W27`: in
  particular the result buffer, and the argument arrays, which nothing writes, at their launch contents.
-/
import proofs.«148016_j80401787781528_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of the program terminates without a fault; the result buffer ends at the last
    boundary's contents and the nine argument arrays as launched. -/
theorem run : θ_run defs (onTc (τ := τ) (main (F := F))) ⟨m, fun _ => 0, ρ⟩ (fun r => ∀ c : Dev nD,
      r.2.mem ((c.tc : Thread nD τ).loc main_v198) = W27 m ρ c (Proc.devRef .tc main_v198)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v198 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c)⟩)

end Cert.KernelIdeal.RunResult

end
-- ==== Proof.Spec.lean ====
/-
  The mathematics both programs compute, stated once over literal shapes at the exact (extended-real) values.

  A graph-convolution layer first multiplies the node features by a weight matrix (`prod`: entry (r, q) is the sum
  over k of X(r, k) · W(k, q)), then gathers, scales and scatter-adds the rows along the edges (the same host
  operations in both programs: they are never opened here), and finally applies, element by element,
  `resid`: max(agg + b, 0) + old, and `masked`: resid · (2 where drop > 1/2, else 0).  The last layer only adds its
  bias row (`biased`).
-/
import Idealize.ShloMosaic.PureOps.Ideal.Laws
import Idealize.ShloMosaic.Lib.ValueIdx

noncomputable section

namespace Cert.Spec

open Idealize.ShloMosaic Idealize.ShloMosaic.ValueIdx

/-- The shape of an `a × b` matrix. -/
abbrev Mat (a b : ℕ) : Shape := ⟨2, ![a, b]⟩

/-- The row coordinate of a matrix index. -/
abbrev row {a b : ℕ} (i : (Mat a b).Idx) : Fin a := ⟨(i 0).val, (i 0).isLt⟩
/-- The column coordinate of a matrix index. -/
abbrev col {a b : ℕ} (i : (Mat a b).Idx) : Fin b := ⟨(i 1).val, (i 1).isLt⟩

theorem eq_ix2_row_col {a b : ℕ} (i : (Mat a b).Idx) : i = ix2 (row i) (col i) :=
  funext fun ax => by
    match ax with
    | ⟨0, _⟩ => rfl
    | ⟨1, _⟩ => rfl

/-- The matrix product: entry (r, q) is the sum over k of X(r, k) · W(k, q). -/
def prod (M K N : ℕ) (X : (Mat M K).Idx → EReal) (W : (Mat K N).Idx → EReal) : (Mat M N).Idx → EReal :=
  fun i => ∑ k : Fin K, X (ix2 (row i) k) * W (ix2 k (col i))

/-- The residual activation of a hidden layer at one element: max(agg + b, 0) + old, the bias a `1 × f` row. -/
def resid (n f : ℕ) (agg : (Mat n f).Idx → Ideal .f32) (b : (Mat 1 f).Idx → Ideal .f32) (old : (Mat n f).Idx → Ideal .f32) :
    (Mat n f).Idx → Ideal .f32 :=
  fun i => FloatOps.addf (FloatOps.maximumf (FloatOps.addf (agg i) (b (ix2 (0 : Fin 1) (col i))))
    (FloatOps.ofBits .f32 0x00000000#32)) (old i)

/-- The dropout factor at one element: 2 where the uniform draw exceeds 1/2, else 0. -/
def keep (n f : ℕ) (drop : (Mat n f).Idx → Ideal .f32) : (Mat n f).Idx → Ideal .f32 :=
  fun i => Scalar.select (FloatOps.cmpf .ogt (drop i) (FloatOps.ofBits .f32 0x3F000000#32))
    (FloatOps.ofBits .f32 0x40000000#32) (FloatOps.ofBits .f32 0x00000000#32)

/-- The next layer's input at one element: the residual activation times the dropout factor. -/
def masked (n f : ℕ) (agg : (Mat n f).Idx → Ideal .f32) (b : (Mat 1 f).Idx → Ideal .f32) (old drop : (Mat n f).Idx → Ideal .f32) :
    (Mat n f).Idx → Ideal .f32 :=
  fun i => FloatOps.mulf (resid n f agg b old i) (keep n f drop i)

/-- The output layer at one element: agg + b, the bias a `1 × f` row. -/
def biased (n f : ℕ) (agg : (Mat n f).Idx → Ideal .f32) (b : (Mat 1 f).Idx → Ideal .f32) : (Mat n f).Idx → Ideal .f32 :=
  fun i => FloatOps.addf (agg i) (b (ix2 (0 : Fin 1) (col i)))

end Cert.Spec

end
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.LibBroadcastInDim.lean ====
/-
  Readings of `broadcast_in_dim` at an element. Between a vector and a matrix: a length-b vector laid as a
  [1, b] row; a [1, b] row repeated down `a` rows; a length-a vector laid as an [a, 1] column; an [a, 1] column repeated
  across `b` lanes. And a scalar repeated over any shape. Each reads one element of its operand.
-/
import Idealize.ShloMosaic.Lib.Pipeline.Value
import Idealize.ShloMosaic.Lib.ValueIdx

namespace Idealize.ShloMosaic.ValueIdx

variable {α : Type}

/-- A length-b vector laid as a [1, b] row reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A [1, b] row repeated down `a` rows reads, at (r, j), the row at (0, j). -/
theorem broadcastInDim_1b_ab_apply {a b : ℕ} (x : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ =>
    show (0 : ℕ) = if (1 : ℕ) = 1 then 0 else r.val
    rw [if_pos rfl]
  | ⟨1, _⟩ =>
    show j.val = if b = 1 then 0 else j.val
    split
    · have := j.isLt; omega
    · rfl

/-- A length-a vector laid as an [a, 1] column reads, at (r, u), the vector at r. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- An [a, 1] column repeated across `b` lanes reads, at (r, j), the column at (r, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else j.val
    rw [if_pos rfl]

/-- A scalar repeated over any shape reads, at every index, the scalar. -/
theorem broadcastInDim_scalar_apply {t : Shape} (x : (⟨0, ![]⟩ : Shape).Idx → α)
    (h : (⟨0, ![]⟩ : Shape).BroadcastsInDim t ![]) (i : t.Idx) : broadcastInDim t ![] h x i = x ix0 :=
  broadcastInDim_apply _ h x i ix0 fun a => a.elim0

end Idealize.ShloMosaic.ValueIdx
-- ==== Proof.Glue.lean ====
/-
  The host operations both programs share, named once, and the reference's stages read against the specification.

  Between the matrix product and the elementwise tail of every layer both programs run the SAME host operations:
  wrap negative edge sources around, gather the product's rows at the sources, scale each gathered row by its
  edge's normalisation, and scatter-add the rows at the edge destinations into zeros.  That chain is `agg32`
  (hidden width 32) and `agg40` (the output width 40): one function of the sources, the destinations, the
  normalisation and the product, which no proof here opens.
-/
import proofs.«148016_j80401787781528_2_alg».proof.Proof.RefRead
import proofs.«148016_j80401787781528_2_alg».proof.Proof.Spec
import proofs.«148016_j80401787781528_2_alg».proof.Proof.LibPlainDot
import proofs.«148016_j80401787781528_2_alg».proof.Proof.LibBroadcastInDim

noncomputable section

namespace Cert.Glue

open Cert.ReferenceIdeal Cert.ReferenceIdeal.Gen Cert.ReferenceIdeal.Read
open Idealize.ShloMosaic Idealize.ShloMosaic.ValueIdx

/-- An edge endpoint below zero wraps around once: s + 100000 where s < 0, else s. -/
def wrap (s : (⟨S1700000, .i32⟩ : BufTy).Contents (Elt Ideal)) : (⟨S1700000, .i32⟩ : BufTy).Contents (Elt Ideal) :=
  select (cmpi .slt s (broadcastInDim S1700000 ![] bcast_S_S1700000 (constantI S_ 32 0#32)))
    (addi s (broadcastInDim S1700000 ![] bcast_S_S1700000 (constantI S_ 32 100000#32))) s

/-- Rows of `h` gathered at the wrapped sources, each scaled by its edge's factor, scatter-added at the destinations
    into zeros: the aggregation of a hidden layer (width 32). -/
def agg32 (src dst : (⟨S1700000, .i32⟩ : BufTy).Contents (Elt Ideal)) (norm : (⟨S1700000, .f32⟩ : BufTy).Contents (Elt Ideal))
    (h : (⟨S100000x32, .f32⟩ : BufTy).Contents (Elt Ideal)) : (⟨S100000x32, .f32⟩ : BufTy).Contents (Elt Ideal) :=
  Host.scatterAdd scatter_S100000x32_S1700000x1_S1700000x32_1_0_0_1
    (broadcastInDim S100000x32 ![] bcast_S_S100000x32 (constant (F := Ideal) S_ .f32 0x00000000#32))
    (broadcastInDim S1700000x1 ![0] bcast_S1700000_S1700000x1_0 dst)
    (mulf (Host.gather gather_S100000x32_S1700000x1_S1700000x32_1_0_n_n_0_1_132 h
        (broadcastInDim S1700000x1 ![0] bcast_S1700000_S1700000x1_0 (wrap src)))
      (broadcastInDim S1700000x32 ![0, 1] bcast_S1700000x1_S1700000x32_0_1
        (broadcastInDim S1700000x1 ![0] bcast_S1700000_S1700000x1_0 norm)))

/-- The same aggregation at the output width 40. -/
def agg40 (src dst : (⟨S1700000, .i32⟩ : BufTy).Contents (Elt Ideal)) (norm : (⟨S1700000, .f32⟩ : BufTy).Contents (Elt Ideal))
    (h : (⟨S100000x40, .f32⟩ : BufTy).Contents (Elt Ideal)) : (⟨S100000x40, .f32⟩ : BufTy).Contents (Elt Ideal) :=
  Host.scatterAdd scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 dst)
    (mulf (Host.gather gather_S100000x40_S1700000x1_S1700000x40_1_0_n_n_0_1_140 h
        (broadcastInDim S1700000x1 ![0] bcast_S1700000_S1700000x1_0 (wrap src)))
      (broadcastInDim S1700000x40 ![0, 1] bcast_S1700000x1_S1700000x40_0_1
        (broadcastInDim S1700000x1 ![0] bcast_S1700000_S1700000x1_0 norm)))

/-- The all-zero [100000, 32] array the first layer's residual starts from. -/
def zeros32 : (⟨S100000x32, .f32⟩ : BufTy).Contents (Elt Ideal) :=
  broadcastInDim S100000x32 ![] bcast_S_S100000x32 (constant (F := Ideal) S_ .f32 0x00000000#32)

/-! ## The reference's first layer against the specification -/

/-- The host's product of the features with the first weight matrix is the specification's product. -/
theorem ref_prod0 (x0 : (⟨S100000x128, .f32⟩ : BufTy).Contents (Elt Ideal)) (x3 : (⟨S128x32, .f32⟩ : BufTy).Contents (Elt Ideal)) :
    val_main_v56 (F := Ideal) x0 x3 = Cert.Spec.prod 100000 128 32 x0 x3 := by
  funext i
  rw [Cert.Spec.eq_ix2_row_col i]
  unfold val_main_v56 Cert.Spec.prod
  exact dotGeneral_plain_apply _ rfl none x0 x3 _ _

/-- The reference's first aggregation is the shared chain of its product. -/
theorem ref_agg0 (x0 : (⟨S100000x128, .f32⟩ : BufTy).Contents (Elt Ideal)) (x1 : (⟨S2x1600000, .i32⟩ : BufTy).Contents (Elt Ideal))
    (x3 : (⟨S128x32, .f32⟩ : BufTy).Contents (Elt Ideal)) :
    val_main_v69 (F := Ideal) x0 x1 x3
      = agg32 (val_main_v3 (F := Ideal) x1) (val_main_v6 (F := Ideal) x1) (val_main_v31 (F := Ideal) x1) (val_main_v56 (F := Ideal) x0 x3) := by
  unfold val_main_v69 val_main_v67 val_main_v68 val_main_v66 val_main_cst_9 val_main_v63 val_main_v65 val_main_v62
    val_main_v64 val_main_v61 val_main_v58 val_main_v60 val_main_v57 val_main_v59 val_main_c_7 val_main_c_8 agg32 wrap
  rfl

/-! ## The elementwise tail read against the specification -/

/-- A length-32 bias laid as a [1, 32] row. -/
def row32 (b : (⟨S32, .f32⟩ : BufTy).Contents (Elt Ideal)) : (⟨S1x32, .f32⟩ : BufTy).Contents (Elt Ideal) :=
  broadcastInDim S1x32 ![1] bcast_S32_S1x32_1 b

/-- A length-40 bias laid as a [1, 40] row. -/
def row40 (b : (⟨S40, .f32⟩ : BufTy).Contents (Elt Ideal)) : (⟨S1x40, .f32⟩ : BufTy).Contents (Elt Ideal) :=
  broadcastInDim S1x40 ![1] bcast_S40_S1x40_1 b

/-- A length-32 vector recast as a [1, 32] row is the same row as the one the reference lays by broadcasting: both read,
    at (0, q), the vector at q. -/
theorem rowcast32 (b : (⟨S32, .f32⟩ : BufTy).Contents (Elt Ideal)) (h : (⟨1, ![32]⟩ : Shape).ShapeCasts ⟨2, ![1, 32]⟩) :
    shapeCast ⟨2, ![1, 32]⟩ b h = row32 b := by
  funext j
  obtain ⟨u, q, rfl⟩ : ∃ (u : Fin 1) (q : Fin 32), j = ix2 u q := ⟨j 0, j 1, eq_ix2 j⟩
  unfold row32
  refine Eq.trans ?_ (broadcastInDim_b_1b_apply (b := 32) b bcast_S32_S1x32_1 u q).symm
  refine (shapeCast_addUnit_apply ![32] b h _).trans (congrArg b (funext fun a => ?_))
  match a with
  | ⟨0, _⟩ => rfl

/-- The same for a length-40 vector. -/
theorem rowcast40 (b : (⟨S40, .f32⟩ : BufTy).Contents (Elt Ideal)) (h : (⟨1, ![40]⟩ : Shape).ShapeCasts ⟨2, ![1, 40]⟩) :
    shapeCast ⟨2, ![1, 40]⟩ b h = row40 b := by
  funext j
  obtain ⟨u, q, rfl⟩ : ∃ (u : Fin 1) (q : Fin 40), j = ix2 u q := ⟨j 0, j 1, eq_ix2 j⟩
  unfold row40
  refine Eq.trans ?_ (broadcastInDim_b_1b_apply (b := 40) b bcast_S40_S1x40_1 u q).symm
  refine (shapeCast_addUnit_apply ![40] b h _).trans (congrArg b (funext fun a => ?_))
  match a with
  | ⟨0, _⟩ => rfl

/-- max(agg + bias row repeated down the rows, 0) + old, as whole-array operations, is the specification's residual
    activation: at (r, q) the repeated row reads the row at (0, q) and the repeated zero reads zero. -/
theorem resid_ops (agg old : (⟨S100000x32, .f32⟩ : BufTy).Contents (Elt Ideal)) (row : (⟨S1x32, .f32⟩ : BufTy).Contents (Elt Ideal)) :
    addf (maximumf (addf agg (broadcastInDim S100000x32 ![0, 1] bcast_S1x32_S100000x32_0_1 row))
        (broadcastInDim S100000x32 ![] bcast_S_S100000x32 (constant (F := Ideal) S_ .f32 0x00000000#32))) old
      = Cert.Spec.resid 100000 32 agg row old := by
  funext i
  rw [Cert.Spec.eq_ix2_row_col i]
  show FloatOps.addf (FloatOps.maximumf (FloatOps.addf (agg _) (broadcastInDim S100000x32 ![0, 1] bcast_S1x32_S100000x32_0_1 row (ix2 _ _)))
      (broadcastInDim S100000x32 ![] bcast_S_S100000x32 (constant (F := Ideal) S_ .f32 0x00000000#32) (ix2 _ _))) (old _) = _
  rw [broadcastInDim_1b_ab_apply, broadcastInDim_scalar_apply]
  rfl

/-- select(drop > 1/2, 2, 0), as whole-array operations, is the specification's dropout factor. -/
theorem keep_ops (drop : (⟨S100000x32, .f32⟩ : BufTy).Contents (Elt Ideal)) :
    select (cmpf .ogt drop (broadcastInDim S100000x32 ![] bcast_S_S100000x32 (constant (F := Ideal) S_ .f32 0x3F000000#32)))
        (broadcastInDim S100000x32 ![] bcast_S_S100000x32 (constant (F := Ideal) S_ .f32 0x40000000#32))
        (broadcastInDim S100000x32 ![] bcast_S_S100000x32 (constant (F := Ideal) S_ .f32 0x00000000#32))
      = Cert.Spec.keep 100000 32 drop := by
  funext i
  show Scalar.select (FloatOps.cmpf .ogt (drop i) (broadcastInDim S100000x32 ![] bcast_S_S100000x32 (constant (F := Ideal) S_ .f32 0x3F000000#32) i))
      (broadcastInDim S100000x32 ![] bcast_S_S100000x32 (constant (F := Ideal) S_ .f32 0x40000000#32) i)
      (broadcastInDim S100000x32 ![] bcast_S_S100000x32 (constant (F := Ideal) S_ .f32 0x00000000#32) i) = _
  rw [broadcastInDim_scalar_apply, broadcastInDim_scalar_apply, broadcastInDim_scalar_apply]
  rfl

/-- agg + bias row repeated down the rows is the specification's output layer. -/
theorem biased_ops (agg : (⟨S100000x40, .f32⟩ : BufTy).Contents (Elt Ideal)) (row : (⟨S1x40, .f32⟩ : BufTy).Contents (Elt Ideal)) :
    addf agg (broadcastInDim S100000x40 ![0, 1] bcast_S1x40_S100000x40_0_1 row) = Cert.Spec.biased 100000 40 agg row := by
  funext i
  rw [Cert.Spec.eq_ix2_row_col i]
  exact congrArg (fun z : Ideal .f32 => FloatOps.addf (F := Ideal) (φ := .f32) (agg (ix2 (Cert.Spec.row i) (Cert.Spec.col i))) z)
    (broadcastInDim_1b_ab_apply (a := 100000) (b := 40) row bcast_S1x40_S100000x40_0_1 (Cert.Spec.row i) (Cert.Spec.col i))

/-! ## The reference's stages, layer by layer -/

/-- Layer 0's residual activation. -/
theorem ref_old0 (x0 : (⟨S100000x128, .f32⟩ : BufTy).Contents (Elt Ideal)) (x1 : (⟨S2x1600000, .i32⟩ : BufTy).Contents (Elt Ideal)) (x3 : (⟨S128x32, .f32⟩ : BufTy).Contents (Elt Ideal)) (x4 : (⟨S32, .f32⟩ : BufTy).Contents (Elt Ideal)) :
    val_main_v75 (F := Ideal) x0 x1 x3 x4 = Cert.Spec.resid 100000 32 (val_main_v69 (F := Ideal) x0 x1 x3) (row32 x4) (val_main_v74 (F := Ideal)) :=
  resid_ops (val_main_v69 (F := Ideal) x0 x1 x3) (val_main_v74 (F := Ideal)) (row32 x4)

/-- Layer 0's masked activation. -/
theorem ref_cur0 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) :
    val_main_v81 (F := Ideal) x0 x1 x2 x3 x4 = Cert.Spec.masked 100000 32 (val_main_v69 (F := Ideal) x0 x1 x3) (row32 x4) (val_main_v74 (F := Ideal)) (val_main_v77 (F := Ideal) x2) := by
  unfold val_main_v81
  rw [ref_old0, show val_main_v80 (F := Ideal) x2 = Cert.Spec.keep 100000 32 (val_main_v77 (F := Ideal) x2) from keep_ops _]
  rfl

/-- Layer 1's product. -/
theorem ref_prod1 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) :
    val_main_v82 (F := Ideal) x0 x1 x2 x3 x4 x5 = Cert.Spec.prod 100000 32 32 (val_main_v81 (F := Ideal) x0 x1 x2 x3 x4) (val_main_v33 (F := Ideal) x5) := by
  funext i
  rw [Cert.Spec.eq_ix2_row_col i]
  unfold val_main_v82 Cert.Spec.prod
  exact dotGeneral_plain_apply _ rfl none _ _ _ _

/-- Layer 1's aggregation is the shared chain of its product. -/
theorem ref_agg1 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) :
    val_main_v95 (F := Ideal) x0 x1 x2 x3 x4 x5 = agg32 (val_main_v3 (F := Ideal) x1) (val_main_v6 (F := Ideal) x1) (val_main_v31 (F := Ideal) x1) (val_main_v82 (F := Ideal) x0 x1 x2 x3 x4 x5) := by
  unfold val_main_v95 val_main_v93 val_main_v94 val_main_v92 val_main_cst_16 val_main_v89 val_main_v91 val_main_v88
    val_main_v90 val_main_v87 val_main_v84 val_main_v86 val_main_v83 val_main_v85 val_main_c_14 val_main_c_15 agg32 wrap
  rfl

/-- Layer 1's residual activation. -/
theorem ref_old1 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v100 (F := Ideal) x0 x1 x2 x3 x4 x5 x6 = Cert.Spec.resid 100000 32 (val_main_v95 (F := Ideal) x0 x1 x2 x3 x4 x5) (row32 (val_main_v45 (F := Ideal) x6)) (val_main_v75 (F := Ideal) x0 x1 x3 x4) :=
  resid_ops (val_main_v95 (F := Ideal) x0 x1 x2 x3 x4 x5) (val_main_v75 (F := Ideal) x0 x1 x3 x4) (row32 (val_main_v45 (F := Ideal) x6))

/-- Layer 1's masked activation. -/
theorem ref_cur1 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v106 (F := Ideal) x0 x1 x2 x3 x4 x5 x6 = Cert.Spec.masked 100000 32 (val_main_v95 (F := Ideal) x0 x1 x2 x3 x4 x5) (row32 (val_main_v45 (F := Ideal) x6)) (val_main_v75 (F := Ideal) x0 x1 x3 x4) (val_main_v102 (F := Ideal) x2) := by
  unfold val_main_v106
  rw [ref_old1, show val_main_v105 (F := Ideal) x2 = Cert.Spec.keep 100000 32 (val_main_v102 (F := Ideal) x2) from keep_ops _]
  rfl

/-- Layer 2's product. -/
theorem ref_prod2 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v107 (F := Ideal) x0 x1 x2 x3 x4 x5 x6 = Cert.Spec.prod 100000 32 32 (val_main_v106 (F := Ideal) x0 x1 x2 x3 x4 x5 x6) (val_main_v35 (F := Ideal) x5) := by
  funext i
  rw [Cert.Spec.eq_ix2_row_col i]
  unfold val_main_v107 Cert.Spec.prod
  exact dotGeneral_plain_apply _ rfl none _ _ _ _

/-- Layer 2's aggregation is the shared chain of its product. -/
theorem ref_agg2 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v120 (F := Ideal) x0 x1 x2 x3 x4 x5 x6 = agg32 (val_main_v3 (F := Ideal) x1) (val_main_v6 (F := Ideal) x1) (val_main_v31 (F := Ideal) x1) (val_main_v107 (F := Ideal) x0 x1 x2 x3 x4 x5 x6) := by
  unfold val_main_v120 val_main_v118 val_main_v119 val_main_v117 val_main_cst_22 val_main_v114 val_main_v116 val_main_v113
    val_main_v115 val_main_v112 val_main_v109 val_main_v111 val_main_v108 val_main_v110 val_main_c_20 val_main_c_21 agg32 wrap
  rfl

/-- Layer 2's residual activation. -/
theorem ref_old2 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v125 (F := Ideal) x0 x1 x2 x3 x4 x5 x6 = Cert.Spec.resid 100000 32 (val_main_v120 (F := Ideal) x0 x1 x2 x3 x4 x5 x6) (row32 (val_main_v47 (F := Ideal) x6)) (val_main_v100 (F := Ideal) x0 x1 x2 x3 x4 x5 x6) :=
  resid_ops (val_main_v120 (F := Ideal) x0 x1 x2 x3 x4 x5 x6) (val_main_v100 (F := Ideal) x0 x1 x2 x3 x4 x5 x6) (row32 (val_main_v47 (F := Ideal) x6))

/-- Layer 2's masked activation. -/
theorem ref_cur2 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v131 (F := Ideal) x0 x1 x2 x3 x4 x5 x6 = Cert.Spec.masked 100000 32 (val_main_v120 (F := Ideal) x0 x1 x2 x3 x4 x5 x6) (row32 (val_main_v47 (F := Ideal) x6)) (val_main_v100 (F := Ideal) x0 x1 x2 x3 x4 x5 x6) (val_main_v127 (F := Ideal) x2) := by
  unfold val_main_v131
  rw [ref_old2, show val_main_v130 (F := Ideal) x2 = Cert.Spec.keep 100000 32 (val_main_v127 (F := Ideal) x2) from keep_ops _]
  rfl

/-- Layer 3's product. -/
theorem ref_prod3 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v132 (F := Ideal) x0 x1 x2 x3 x4 x5 x6 = Cert.Spec.prod 100000 32 32 (val_main_v131 (F := Ideal) x0 x1 x2 x3 x4 x5 x6) (val_main_v37 (F := Ideal) x5) := by
  funext i
  rw [Cert.Spec.eq_ix2_row_col i]
  unfold val_main_v132 Cert.Spec.prod
  exact dotGeneral_plain_apply _ rfl none _ _ _ _

/-- Layer 3's aggregation is the shared chain of its product. -/
theorem ref_agg3 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v145 (F := Ideal) x0 x1 x2 x3 x4 x5 x6 = agg32 (val_main_v3 (F := Ideal) x1) (val_main_v6 (F := Ideal) x1) (val_main_v31 (F := Ideal) x1) (val_main_v132 (F := Ideal) x0 x1 x2 x3 x4 x5 x6) := by
  unfold val_main_v145 val_main_v143 val_main_v144 val_main_v142 val_main_cst_28 val_main_v139 val_main_v141 val_main_v138
    val_main_v140 val_main_v137 val_main_v134 val_main_v136 val_main_v133 val_main_v135 val_main_c_26 val_main_c_27 agg32 wrap
  rfl

/-- Layer 3's residual activation. -/
theorem ref_old3 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v150 (F := Ideal) x0 x1 x2 x3 x4 x5 x6 = Cert.Spec.resid 100000 32 (val_main_v145 (F := Ideal) x0 x1 x2 x3 x4 x5 x6) (row32 (val_main_v49 (F := Ideal) x6)) (val_main_v125 (F := Ideal) x0 x1 x2 x3 x4 x5 x6) :=
  resid_ops (val_main_v145 (F := Ideal) x0 x1 x2 x3 x4 x5 x6) (val_main_v125 (F := Ideal) x0 x1 x2 x3 x4 x5 x6) (row32 (val_main_v49 (F := Ideal) x6))

/-- Layer 3's masked activation. -/
theorem ref_cur3 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v156 (F := Ideal) x0 x1 x2 x3 x4 x5 x6 = Cert.Spec.masked 100000 32 (val_main_v145 (F := Ideal) x0 x1 x2 x3 x4 x5 x6) (row32 (val_main_v49 (F := Ideal) x6)) (val_main_v125 (F := Ideal) x0 x1 x2 x3 x4 x5 x6) (val_main_v152 (F := Ideal) x2) := by
  unfold val_main_v156
  rw [ref_old3, show val_main_v155 (F := Ideal) x2 = Cert.Spec.keep 100000 32 (val_main_v152 (F := Ideal) x2) from keep_ops _]
  rfl

/-- Layer 4's product. -/
theorem ref_prod4 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v157 (F := Ideal) x0 x1 x2 x3 x4 x5 x6 = Cert.Spec.prod 100000 32 32 (val_main_v156 (F := Ideal) x0 x1 x2 x3 x4 x5 x6) (val_main_v39 (F := Ideal) x5) := by
  funext i
  rw [Cert.Spec.eq_ix2_row_col i]
  unfold val_main_v157 Cert.Spec.prod
  exact dotGeneral_plain_apply _ rfl none _ _ _ _

/-- Layer 4's aggregation is the shared chain of its product. -/
theorem ref_agg4 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v170 (F := Ideal) x0 x1 x2 x3 x4 x5 x6 = agg32 (val_main_v3 (F := Ideal) x1) (val_main_v6 (F := Ideal) x1) (val_main_v31 (F := Ideal) x1) (val_main_v157 (F := Ideal) x0 x1 x2 x3 x4 x5 x6) := by
  unfold val_main_v170 val_main_v168 val_main_v169 val_main_v167 val_main_cst_34 val_main_v164 val_main_v166 val_main_v163
    val_main_v165 val_main_v162 val_main_v159 val_main_v161 val_main_v158 val_main_v160 val_main_c_32 val_main_c_33 agg32 wrap
  rfl

/-- Layer 4's residual activation. -/
theorem ref_old4 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v175 (F := Ideal) x0 x1 x2 x3 x4 x5 x6 = Cert.Spec.resid 100000 32 (val_main_v170 (F := Ideal) x0 x1 x2 x3 x4 x5 x6) (row32 (val_main_v51 (F := Ideal) x6)) (val_main_v150 (F := Ideal) x0 x1 x2 x3 x4 x5 x6) :=
  resid_ops (val_main_v170 (F := Ideal) x0 x1 x2 x3 x4 x5 x6) (val_main_v150 (F := Ideal) x0 x1 x2 x3 x4 x5 x6) (row32 (val_main_v51 (F := Ideal) x6))

/-- Layer 4's masked activation. -/
theorem ref_cur4 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v181 (F := Ideal) x0 x1 x2 x3 x4 x5 x6 = Cert.Spec.masked 100000 32 (val_main_v170 (F := Ideal) x0 x1 x2 x3 x4 x5 x6) (row32 (val_main_v51 (F := Ideal) x6)) (val_main_v150 (F := Ideal) x0 x1 x2 x3 x4 x5 x6) (val_main_v177 (F := Ideal) x2) := by
  unfold val_main_v181
  rw [ref_old4, show val_main_v180 (F := Ideal) x2 = Cert.Spec.keep 100000 32 (val_main_v177 (F := Ideal) x2) from keep_ops _]
  rfl

/-- Layer 5's product. -/
theorem ref_prod5 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v182 (F := Ideal) x0 x1 x2 x3 x4 x5 x6 = Cert.Spec.prod 100000 32 32 (val_main_v181 (F := Ideal) x0 x1 x2 x3 x4 x5 x6) (val_main_v41 (F := Ideal) x5) := by
  funext i
  rw [Cert.Spec.eq_ix2_row_col i]
  unfold val_main_v182 Cert.Spec.prod
  exact dotGeneral_plain_apply _ rfl none _ _ _ _

/-- Layer 5's aggregation is the shared chain of its product. -/
theorem ref_agg5 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v195 (F := Ideal) x0 x1 x2 x3 x4 x5 x6 = agg32 (val_main_v3 (F := Ideal) x1) (val_main_v6 (F := Ideal) x1) (val_main_v31 (F := Ideal) x1) (val_main_v182 (F := Ideal) x0 x1 x2 x3 x4 x5 x6) := by
  unfold val_main_v195 val_main_v193 val_main_v194 val_main_v192 val_main_cst_40 val_main_v189 val_main_v191 val_main_v188
    val_main_v190 val_main_v187 val_main_v184 val_main_v186 val_main_v183 val_main_v185 val_main_c_38 val_main_c_39 agg32 wrap
  rfl

/-- Layer 5's residual activation. -/
theorem ref_old5 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v200 (F := Ideal) x0 x1 x2 x3 x4 x5 x6 = Cert.Spec.resid 100000 32 (val_main_v195 (F := Ideal) x0 x1 x2 x3 x4 x5 x6) (row32 (val_main_v53 (F := Ideal) x6)) (val_main_v175 (F := Ideal) x0 x1 x2 x3 x4 x5 x6) :=
  resid_ops (val_main_v195 (F := Ideal) x0 x1 x2 x3 x4 x5 x6) (val_main_v175 (F := Ideal) x0 x1 x2 x3 x4 x5 x6) (row32 (val_main_v53 (F := Ideal) x6))

/-- Layer 5's masked activation. -/
theorem ref_cur5 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v206 (F := Ideal) x0 x1 x2 x3 x4 x5 x6 = Cert.Spec.masked 100000 32 (val_main_v195 (F := Ideal) x0 x1 x2 x3 x4 x5 x6) (row32 (val_main_v53 (F := Ideal) x6)) (val_main_v175 (F := Ideal) x0 x1 x2 x3 x4 x5 x6) (val_main_v202 (F := Ideal) x2) := by
  unfold val_main_v206
  rw [ref_old5, show val_main_v205 (F := Ideal) x2 = Cert.Spec.keep 100000 32 (val_main_v202 (F := Ideal) x2) from keep_ops _]
  rfl

/-- Layer 6's product. -/
theorem ref_prod6 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v207 (F := Ideal) x0 x1 x2 x3 x4 x5 x6 = Cert.Spec.prod 100000 32 32 (val_main_v206 (F := Ideal) x0 x1 x2 x3 x4 x5 x6) (val_main_v43 (F := Ideal) x5) := by
  funext i
  rw [Cert.Spec.eq_ix2_row_col i]
  unfold val_main_v207 Cert.Spec.prod
  exact dotGeneral_plain_apply _ rfl none _ _ _ _

/-- Layer 6's aggregation is the shared chain of its product. -/
theorem ref_agg6 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v220 (F := Ideal) x0 x1 x2 x3 x4 x5 x6 = agg32 (val_main_v3 (F := Ideal) x1) (val_main_v6 (F := Ideal) x1) (val_main_v31 (F := Ideal) x1) (val_main_v207 (F := Ideal) x0 x1 x2 x3 x4 x5 x6) := by
  unfold val_main_v220 val_main_v218 val_main_v219 val_main_v217 val_main_cst_46 val_main_v214 val_main_v216 val_main_v213
    val_main_v215 val_main_v212 val_main_v209 val_main_v211 val_main_v208 val_main_v210 val_main_c_44 val_main_c_45 agg32 wrap
  rfl

/-- Layer 6's residual activation. -/
theorem ref_old6 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v225 (F := Ideal) x0 x1 x2 x3 x4 x5 x6 = Cert.Spec.resid 100000 32 (val_main_v220 (F := Ideal) x0 x1 x2 x3 x4 x5 x6) (row32 (val_main_v55 (F := Ideal) x6)) (val_main_v200 (F := Ideal) x0 x1 x2 x3 x4 x5 x6) :=
  resid_ops (val_main_v220 (F := Ideal) x0 x1 x2 x3 x4 x5 x6) (val_main_v200 (F := Ideal) x0 x1 x2 x3 x4 x5 x6) (row32 (val_main_v55 (F := Ideal) x6))

/-- Layer 6's masked activation. -/
theorem ref_cur6 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) :
    val_main_v231 (F := Ideal) x0 x1 x2 x3 x4 x5 x6 = Cert.Spec.masked 100000 32 (val_main_v220 (F := Ideal) x0 x1 x2 x3 x4 x5 x6) (row32 (val_main_v55 (F := Ideal) x6)) (val_main_v200 (F := Ideal) x0 x1 x2 x3 x4 x5 x6) (val_main_v227 (F := Ideal) x2) := by
  unfold val_main_v231
  rw [ref_old6, show val_main_v230 (F := Ideal) x2 = Cert.Spec.keep 100000 32 (val_main_v227 (F := Ideal) x2) from keep_ops _]
  rfl

/-- The output layer's product. -/
theorem ref_prod7 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) (x7 : (⟨S32x40, .f32⟩ : BufTy).Contents (Elt Ideal)) :
    val_main_v232 (F := Ideal) x0 x1 x2 x3 x4 x5 x6 x7 = Cert.Spec.prod 100000 32 40 (val_main_v231 (F := Ideal) x0 x1 x2 x3 x4 x5 x6) x7 := by
  funext i
  rw [Cert.Spec.eq_ix2_row_col i]
  unfold val_main_v232 Cert.Spec.prod
  exact dotGeneral_plain_apply _ rfl none _ _ _ _

/-- The output layer's aggregation is the shared chain of its product. -/
theorem ref_agg7 (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) (x7 : (⟨S32x40, .f32⟩ : BufTy).Contents (Elt Ideal)) :
    val_main_v245 (F := Ideal) x0 x1 x2 x3 x4 x5 x6 x7 = agg40 (val_main_v3 (F := Ideal) x1) (val_main_v6 (F := Ideal) x1) (val_main_v31 (F := Ideal) x1) (val_main_v232 (F := Ideal) x0 x1 x2 x3 x4 x5 x6 x7) := by
  unfold val_main_v245 val_main_v243 val_main_v244 val_main_v242 val_main_cst_52 val_main_v239 val_main_v241 val_main_v238
    val_main_v240 val_main_v237 val_main_v234 val_main_v236 val_main_v233 val_main_v235 val_main_c_50 val_main_c_51 agg40 wrap
  rfl

/-- The reference's result. -/
theorem ref_out (x0 : (⟨S100000x128, .f32⟩ : BufTy).Contents (Elt Ideal)) (x1 : (⟨S2x1600000, .i32⟩ : BufTy).Contents (Elt Ideal)) (x2 : (⟨S7x100000x32, .f32⟩ : BufTy).Contents (Elt Ideal)) (x3 : (⟨S128x32, .f32⟩ : BufTy).Contents (Elt Ideal)) (x4 : (⟨S32, .f32⟩ : BufTy).Contents (Elt Ideal)) (x5 : (⟨S6x32x32, .f32⟩ : BufTy).Contents (Elt Ideal)) (x6 : (⟨S6x32, .f32⟩ : BufTy).Contents (Elt Ideal)) (x7 : (⟨S32x40, .f32⟩ : BufTy).Contents (Elt Ideal)) (x8 : (⟨S40, .f32⟩ : BufTy).Contents (Elt Ideal)) :
    val_main_v248 (F := Ideal) x0 x1 x2 x3 x4 x5 x6 x7 x8 = Cert.Spec.biased 100000 40 (val_main_v245 (F := Ideal) x0 x1 x2 x3 x4 x5 x6 x7) (row40 x8) :=
  biased_ops (val_main_v245 (F := Ideal) x0 x1 x2 x3 x4 x5 x6 x7) (row40 x8)

end Cert.Glue

end
-- ==== Proof.Prefix.lean ====
/-
  What the first kernel region finds in the buffers the program fills before it.

  Before its first region the kernel's program runs the same host operations as the reference: the edge sources and
  destinations (each endpoint row followed by the self loops), the edge normalisation (the inverse square roots of
  the two endpoint degrees multiplied), the six hidden weight slices and the six hidden bias slices.  Each of those
  buffers therefore holds the reference's corresponding stage of the same arguments; the residual starts from zeros.
-/
import proofs.«148016_j80401787781528_2_alg».proof.Proof.Gen.KernelIdeal.Frame
import proofs.«148016_j80401787781528_2_alg».proof.Proof.RefRead

set_option maxRecDepth 16384

noncomputable section

namespace Cert.KernelIdeal.Prefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The edge sources: the reference's stage of the same argument. -/
theorem v3 (c : Dev nD) : W3 m ρ c (Proc.devRef .tc main_v3) = Cert.ReferenceIdeal.Read.val_main_v3 (F := Ideal) (m ((c : Thread nD τ).loc main_arg1)) := by
  dsimp only [W3, W2, W1, hostOps0, hostOps0_1, hostOps0_2]
  after_results_simp
  rfl

/-- The edge destinations: the reference's stage of the same argument. -/
theorem v6 (c : Dev nD) : W3 m ρ c (Proc.devRef .tc main_v6) = Cert.ReferenceIdeal.Read.val_main_v6 (F := Ideal) (m ((c : Thread nD τ).loc main_arg1)) := by
  dsimp only [W3, W2, W1, hostOps0, hostOps0_1, hostOps0_2]
  after_results_simp
  rfl

/-! ## The edge normalisation, stage by stage

The three stretches are read one at a time: each stage is stated at the contents the stretch before it leaves, which stay
closed while the next stretch is unfolded. -/

/-- After the first stretch, the edge sources. -/
theorem w1_v3 (c : Dev nD) : W1 m ρ c (Proc.devRef .tc main_v3) = Cert.ReferenceIdeal.Read.val_main_v3 (F := Ideal) (m ((c : Thread nD τ).loc main_arg1)) := by
  dsimp only [W1, hostOps0]
  after_results_simp
  repeat (first
    | rw [nullary_result] | rw [unary_result] | rw [binary_result] | rw [reshape_result]
    | (rw [nullary_result_ne]; rotate_left; decide) | (rw [unary_result_ne]; rotate_left; decide)
    | (rw [binary_result_ne]; rotate_left; decide) | (rw [reshape_result_ne]; rotate_left; decide))
  rfl

/-- After the first stretch, the edge destinations. -/
theorem w1_v6 (c : Dev nD) : W1 m ρ c (Proc.devRef .tc main_v6) = Cert.ReferenceIdeal.Read.val_main_v6 (F := Ideal) (m ((c : Thread nD τ).loc main_arg1)) := by
  dsimp only [W1, hostOps0]
  after_results_simp
  repeat (first
    | rw [nullary_result] | rw [unary_result] | rw [binary_result] | rw [reshape_result]
    | (rw [nullary_result_ne]; rotate_left; decide) | (rw [unary_result_ne]; rotate_left; decide)
    | (rw [binary_result_ne]; rotate_left; decide) | (rw [reshape_result_ne]; rotate_left; decide))
  rfl

/-- After the first stretch, where the degree is positive. -/
theorem w1_v12 (c : Dev nD) : W1 m ρ c (Proc.devRef .tc main_v12) = Cert.ReferenceIdeal.Read.val_main_v12 (F := Ideal) (m ((c : Thread nD τ).loc main_arg1)) := by
  dsimp only [W1, hostOps0]
  after_results_simp
  repeat (first
    | rw [nullary_result] | rw [unary_result] | rw [binary_result] | rw [reshape_result]
    | (rw [nullary_result_ne]; rotate_left; decide) | (rw [unary_result_ne]; rotate_left; decide)
    | (rw [binary_result_ne]; rotate_left; decide) | (rw [reshape_result_ne]; rotate_left; decide))
  rfl

/-- After the first stretch, the inverse square root of the degree (of at least one). -/
theorem w1_v15 (c : Dev nD) : W1 m ρ c (Proc.devRef .tc main_v15) = Cert.ReferenceIdeal.Read.val_main_v15 (F := Ideal) (m ((c : Thread nD τ).loc main_arg1)) := by
  dsimp only [W1, hostOps0]
  after_results_simp
  repeat (first
    | rw [nullary_result] | rw [unary_result] | rw [binary_result] | rw [reshape_result]
    | (rw [nullary_result_ne]; rotate_left; decide) | (rw [unary_result_ne]; rotate_left; decide)
    | (rw [binary_result_ne]; rotate_left; decide) | (rw [reshape_result_ne]; rotate_left; decide))
  rfl

/-- After the first stretch, the zero the isolated nodes get. -/
theorem w1_cst_3 (c : Dev nD) : W1 m ρ c (Proc.devRef .tc main_cst_3) = Cert.ReferenceIdeal.Read.val_main_cst_3 (F := Ideal) := by
  dsimp only [W1, hostOps0]
  after_results_simp
  rfl

/-- The second stretch leaves the edge sources. -/
theorem w2_v3 (c : Dev nD) : W2 m ρ c (Proc.devRef .tc main_v3) = Cert.ReferenceIdeal.Read.val_main_v3 (F := Ideal) (m ((c : Thread nD τ).loc main_arg1)) := by
  have h := w1_v3 m ρ c
  dsimp only [W2, hostOps0_1]
  generalize W1 m ρ c = V1 at *
  after_results_simp
  exact h

/-- The second stretch leaves the edge destinations. -/
theorem w2_v6 (c : Dev nD) : W2 m ρ c (Proc.devRef .tc main_v6) = Cert.ReferenceIdeal.Read.val_main_v6 (F := Ideal) (m ((c : Thread nD τ).loc main_arg1)) := by
  have h := w1_v6 m ρ c
  dsimp only [W2, hostOps0_1]
  generalize W1 m ρ c = V1 at *
  after_results_simp
  exact h

/-- After the second stretch, the per-node factor: the inverse square root where the degree is positive, else zero.
    The typed references of the called function carry their values along identities of types. -/
theorem w2_v16 (c : Dev nD) : W2 m ρ c (Proc.devRef .tc main_v16) = Cert.ReferenceIdeal.Read.val_main_v16 (F := Ideal) (m ((c : Thread nD τ).loc main_arg1)) := by
  have h12 := w1_v12 m ρ c
  have h15 := w1_v15 m ρ c
  have hc3 := w1_cst_3 m ρ c
  dsimp only [W2, hostOps0_1]
  generalize W1 m ρ c = V1 at *
  after_results_simp
  rw [h12, h15, hc3]
  unfold Cert.ReferenceIdeal.Read.val_main_v16
  refine eq_of_heq ((cast_heq _ _).trans (heq_of_eq ?_))
  refine congr (congr (congrArg select ?_) ?_) ?_
  · exact eq_of_heq (cast_heq _ _)
  · exact eq_of_heq (cast_heq _ _)
  · rfl

/-- The edge normalisation: the reference's stage of the same argument. -/
theorem v31 (c : Dev nD) : W3 m ρ c (Proc.devRef .tc main_v31) = Cert.ReferenceIdeal.Read.val_main_v31 (F := Ideal) (m ((c : Thread nD τ).loc main_arg1)) := by
  have h3 := w2_v3 m ρ c
  have h6 := w2_v6 m ρ c
  have h16 := w2_v16 m ρ c
  dsimp only [W3, hostOps0_2]
  generalize W2 m ρ c = V2 at *
  after_results_simp
  rw [h3, h6, h16]
  rfl

/-- Hidden weight slice 0: the reference's stage of the same argument. -/
theorem v33 (c : Dev nD) : W3 m ρ c (Proc.devRef .tc main_v33) = Cert.ReferenceIdeal.Read.val_main_v33 (F := Ideal) (m ((c : Thread nD τ).loc main_arg5)) := by
  dsimp only [W3, W2, W1, hostOps0, hostOps0_1, hostOps0_2]
  after_results_simp
  rfl

/-- Hidden weight slice 1: the reference's stage of the same argument. -/
theorem v35 (c : Dev nD) : W3 m ρ c (Proc.devRef .tc main_v35) = Cert.ReferenceIdeal.Read.val_main_v35 (F := Ideal) (m ((c : Thread nD τ).loc main_arg5)) := by
  dsimp only [W3, W2, W1, hostOps0, hostOps0_1, hostOps0_2]
  after_results_simp
  rfl

/-- Hidden weight slice 2: the reference's stage of the same argument. -/
theorem v37 (c : Dev nD) : W3 m ρ c (Proc.devRef .tc main_v37) = Cert.ReferenceIdeal.Read.val_main_v37 (F := Ideal) (m ((c : Thread nD τ).loc main_arg5)) := by
  dsimp only [W3, W2, W1, hostOps0, hostOps0_1, hostOps0_2]
  after_results_simp
  rfl

/-- Hidden weight slice 3: the reference's stage of the same argument. -/
theorem v39 (c : Dev nD) : W3 m ρ c (Proc.devRef .tc main_v39) = Cert.ReferenceIdeal.Read.val_main_v39 (F := Ideal) (m ((c : Thread nD τ).loc main_arg5)) := by
  dsimp only [W3, W2, W1, hostOps0, hostOps0_1, hostOps0_2]
  after_results_simp
  rfl

/-- Hidden weight slice 4: the reference's stage of the same argument. -/
theorem v41 (c : Dev nD) : W3 m ρ c (Proc.devRef .tc main_v41) = Cert.ReferenceIdeal.Read.val_main_v41 (F := Ideal) (m ((c : Thread nD τ).loc main_arg5)) := by
  dsimp only [W3, W2, W1, hostOps0, hostOps0_1, hostOps0_2]
  after_results_simp
  rfl

/-- Hidden weight slice 5: the reference's stage of the same argument. -/
theorem v43 (c : Dev nD) : W3 m ρ c (Proc.devRef .tc main_v43) = Cert.ReferenceIdeal.Read.val_main_v43 (F := Ideal) (m ((c : Thread nD τ).loc main_arg5)) := by
  dsimp only [W3, W2, W1, hostOps0, hostOps0_1, hostOps0_2]
  after_results_simp
  rfl

/-- Hidden bias slice 0: the reference's stage of the same argument. -/
theorem v45 (c : Dev nD) : W3 m ρ c (Proc.devRef .tc main_v45) = Cert.ReferenceIdeal.Read.val_main_v45 (F := Ideal) (m ((c : Thread nD τ).loc main_arg6)) := by
  dsimp only [W3, W2, W1, hostOps0, hostOps0_1, hostOps0_2]
  after_results_simp
  rfl

/-- Hidden bias slice 1: the reference's stage of the same argument. -/
theorem v47 (c : Dev nD) : W3 m ρ c (Proc.devRef .tc main_v47) = Cert.ReferenceIdeal.Read.val_main_v47 (F := Ideal) (m ((c : Thread nD τ).loc main_arg6)) := by
  dsimp only [W3, W2, W1, hostOps0, hostOps0_1, hostOps0_2]
  after_results_simp
  rfl

/-- Hidden bias slice 2: the reference's stage of the same argument. -/
theorem v49 (c : Dev nD) : W3 m ρ c (Proc.devRef .tc main_v49) = Cert.ReferenceIdeal.Read.val_main_v49 (F := Ideal) (m ((c : Thread nD τ).loc main_arg6)) := by
  dsimp only [W3, W2, W1, hostOps0, hostOps0_1, hostOps0_2]
  after_results_simp
  rfl

/-- Hidden bias slice 3: the reference's stage of the same argument. -/
theorem v51 (c : Dev nD) : W3 m ρ c (Proc.devRef .tc main_v51) = Cert.ReferenceIdeal.Read.val_main_v51 (F := Ideal) (m ((c : Thread nD τ).loc main_arg6)) := by
  dsimp only [W3, W2, W1, hostOps0, hostOps0_1, hostOps0_2]
  after_results_simp
  rfl

/-- Hidden bias slice 4: the reference's stage of the same argument. -/
theorem v53 (c : Dev nD) : W3 m ρ c (Proc.devRef .tc main_v53) = Cert.ReferenceIdeal.Read.val_main_v53 (F := Ideal) (m ((c : Thread nD τ).loc main_arg6)) := by
  dsimp only [W3, W2, W1, hostOps0, hostOps0_1, hostOps0_2]
  after_results_simp
  rfl

/-- Hidden bias slice 5: the reference's stage of the same argument. -/
theorem v55 (c : Dev nD) : W3 m ρ c (Proc.devRef .tc main_v55) = Cert.ReferenceIdeal.Read.val_main_v55 (F := Ideal) (m ((c : Thread nD τ).loc main_arg6)) := by
  dsimp only [W3, W2, W1, hostOps0, hostOps0_1, hostOps0_2]
  after_results_simp
  rfl

/-- The residual starts from zeros. -/
theorem v56 (c : Dev nD) : W3 m ρ c (Proc.devRef .tc main_v56) = Cert.ReferenceIdeal.Read.val_main_v74 (F := Ideal) := by
  dsimp only [W3, W2, W1, hostOps0, hostOps0_1, hostOps0_2]
  after_results_simp
  rfl

/-- Argument 0 is as launched. -/
theorem arg0 (c : Dev nD) : W3 m ρ c (Proc.devRef .tc main_arg0) = m ((c : Thread nD τ).loc main_arg0) := by
  dsimp only [W3, W2, W1, hostOps0, hostOps0_1, hostOps0_2]
  after_results_simp

/-- Argument 1 is as launched. -/
theorem arg1 (c : Dev nD) : W3 m ρ c (Proc.devRef .tc main_arg1) = m ((c : Thread nD τ).loc main_arg1) := by
  dsimp only [W3, W2, W1, hostOps0, hostOps0_1, hostOps0_2]
  after_results_simp

/-- Argument 2 is as launched. -/
theorem arg2 (c : Dev nD) : W3 m ρ c (Proc.devRef .tc main_arg2) = m ((c : Thread nD τ).loc main_arg2) := by
  dsimp only [W3, W2, W1, hostOps0, hostOps0_1, hostOps0_2]
  after_results_simp

/-- Argument 3 is as launched. -/
theorem arg3 (c : Dev nD) : W3 m ρ c (Proc.devRef .tc main_arg3) = m ((c : Thread nD τ).loc main_arg3) := by
  dsimp only [W3, W2, W1, hostOps0, hostOps0_1, hostOps0_2]
  after_results_simp

/-- Argument 4 is as launched. -/
theorem arg4 (c : Dev nD) : W3 m ρ c (Proc.devRef .tc main_arg4) = m ((c : Thread nD τ).loc main_arg4) := by
  dsimp only [W3, W2, W1, hostOps0, hostOps0_1, hostOps0_2]
  after_results_simp

/-- Argument 5 is as launched. -/
theorem arg5 (c : Dev nD) : W3 m ρ c (Proc.devRef .tc main_arg5) = m ((c : Thread nD τ).loc main_arg5) := by
  dsimp only [W3, W2, W1, hostOps0, hostOps0_1, hostOps0_2]
  after_results_simp

/-- Argument 6 is as launched. -/
theorem arg6 (c : Dev nD) : W3 m ρ c (Proc.devRef .tc main_arg6) = m ((c : Thread nD τ).loc main_arg6) := by
  dsimp only [W3, W2, W1, hostOps0, hostOps0_1, hostOps0_2]
  after_results_simp

/-- Argument 7 is as launched. -/
theorem arg7 (c : Dev nD) : W3 m ρ c (Proc.devRef .tc main_arg7) = m ((c : Thread nD τ).loc main_arg7) := by
  dsimp only [W3, W2, W1, hostOps0, hostOps0_1, hostOps0_2]
  after_results_simp

/-- Argument 8 is as launched. -/
theorem arg8 (c : Dev nD) : W3 m ρ c (Proc.devRef .tc main_arg8) = m ((c : Thread nD τ).loc main_arg8) := by
  dsimp only [W3, W2, W1, hostOps0, hostOps0_1, hostOps0_2]
  after_results_simp

end Cert.KernelIdeal.Prefix

end
-- ==== Proof.Keep.lean ====
/-
  What the later parts of the program read of the buffers filled before its first kernel region.

  A kernel region changes only its output arrays: an input array ends as the region found it, and a buffer that is
  none of its arrays is untouched.  A stretch of host operations changes only the buffers it writes.  The edge
  sources, destinations and normalisation, the weight and bias slices, the zero residual and the arguments are written
  by nothing after the first region's entry, so at every later boundary they hold what they held there.
-/
import proofs.«148016_j80401787781528_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## A region changes only its outputs -/

/-- Region 0 leaves every buffer other than its output as it found it. -/
theorem region0 (c : Dev nD) (b : Ref sig .tc) (hb2 : b ≠ main_v57) :
    W4 m ρ c (Proc.devRef .tc b) = W3 m ρ c (Proc.devRef .tc b) := by
  by_cases h0 : main_arg0 = b
  · subst h0; exact (W4_arr m ρ c 0).trans (((dat0 (V3 m ρ) c).arrAt_in 0 rfl _).trans (A_eq0 (V3 m ρ) c 0))
  by_cases h1 : main_arg3 = b
  · subst h1; exact (W4_arr m ρ c 1).trans (((dat0 (V3 m ρ) c).arrAt_in 1 rfl _).trans (A_eq0 (V3 m ρ) c 1))
  exact W4_of_ne m ρ c b (fun w => by
    match w with
    | ⟨0, _⟩ => exact h0
    | ⟨1, _⟩ => exact h1
    | ⟨2, _⟩ => exact fun e => hb2 e.symm)

/-- Region 1 leaves every buffer other than its outputs as it found it. -/
theorem region1 (c : Dev nD) (b : Ref sig .tc) (hb4 : b ≠ main_v74_0) (hb5 : b ≠ main_v74_1) :
    W6 m ρ c (Proc.devRef .tc b) = W5 m ρ c (Proc.devRef .tc b) := by
  by_cases h0 : main_v70 = b
  · subst h0; exact (W6_arr m ρ c 0).trans (((dat1 (V5 m ρ) c).arrAt_in 0 rfl _).trans (A_eq1 (V5 m ρ) c 0))
  by_cases h1 : main_v56 = b
  · subst h1; exact (W6_arr m ρ c 1).trans (((dat1 (V5 m ρ) c).arrAt_in 1 rfl _).trans (A_eq1 (V5 m ρ) c 1))
  by_cases h2 : main_v72 = b
  · subst h2; exact (W6_arr m ρ c 2).trans (((dat1 (V5 m ρ) c).arrAt_in 2 rfl _).trans (A_eq1 (V5 m ρ) c 2))
  by_cases h3 : main_v73 = b
  · subst h3; exact (W6_arr m ρ c 3).trans (((dat1 (V5 m ρ) c).arrAt_in 3 rfl _).trans (A_eq1 (V5 m ρ) c 3))
  exact W6_of_ne m ρ c b (fun w => by
    match w with
    | ⟨0, _⟩ => exact h0
    | ⟨1, _⟩ => exact h1
    | ⟨2, _⟩ => exact h2
    | ⟨3, _⟩ => exact h3
    | ⟨4, _⟩ => exact fun e => hb4 e.symm
    | ⟨5, _⟩ => exact fun e => hb5 e.symm)

/-- Region 2 leaves every buffer other than its output as it found it. -/
theorem region2 (c : Dev nD) (b : Ref sig .tc) (hb2 : b ≠ main_v75) :
    W7 m ρ c (Proc.devRef .tc b) = W6 m ρ c (Proc.devRef .tc b) := by
  by_cases h0 : main_v74_0 = b
  · subst h0; exact (W7_arr m ρ c 0).trans (((dat2 (V6 m ρ) c).arrAt_in 0 rfl _).trans (A_eq2 (V6 m ρ) c 0))
  by_cases h1 : main_v33 = b
  · subst h1; exact (W7_arr m ρ c 1).trans (((dat2 (V6 m ρ) c).arrAt_in 1 rfl _).trans (A_eq2 (V6 m ρ) c 1))
  exact W7_of_ne m ρ c b (fun w => by
    match w with
    | ⟨0, _⟩ => exact h0
    | ⟨1, _⟩ => exact h1
    | ⟨2, _⟩ => exact fun e => hb2 e.symm)

/-- Region 3 leaves every buffer other than its outputs as it found it. -/
theorem region3 (c : Dev nD) (b : Ref sig .tc) (hb4 : b ≠ main_v92_0) (hb5 : b ≠ main_v92_1) :
    W9 m ρ c (Proc.devRef .tc b) = W8 m ρ c (Proc.devRef .tc b) := by
  by_cases h0 : main_v88 = b
  · subst h0; exact (W9_arr m ρ c 0).trans (((dat3 (V8 m ρ) c).arrAt_in 0 rfl _).trans (A_eq3 (V8 m ρ) c 0))
  by_cases h1 : main_v74_1 = b
  · subst h1; exact (W9_arr m ρ c 1).trans (((dat3 (V8 m ρ) c).arrAt_in 1 rfl _).trans (A_eq3 (V8 m ρ) c 1))
  by_cases h2 : main_v90 = b
  · subst h2; exact (W9_arr m ρ c 2).trans (((dat3 (V8 m ρ) c).arrAt_in 2 rfl _).trans (A_eq3 (V8 m ρ) c 2))
  by_cases h3 : main_v91 = b
  · subst h3; exact (W9_arr m ρ c 3).trans (((dat3 (V8 m ρ) c).arrAt_in 3 rfl _).trans (A_eq3 (V8 m ρ) c 3))
  exact W9_of_ne m ρ c b (fun w => by
    match w with
    | ⟨0, _⟩ => exact h0
    | ⟨1, _⟩ => exact h1
    | ⟨2, _⟩ => exact h2
    | ⟨3, _⟩ => exact h3
    | ⟨4, _⟩ => exact fun e => hb4 e.symm
    | ⟨5, _⟩ => exact fun e => hb5 e.symm)

/-- Region 4 leaves every buffer other than its output as it found it. -/
theorem region4 (c : Dev nD) (b : Ref sig .tc) (hb2 : b ≠ main_v93) :
    W10 m ρ c (Proc.devRef .tc b) = W9 m ρ c (Proc.devRef .tc b) := by
  by_cases h0 : main_v92_0 = b
  · subst h0; exact (W10_arr m ρ c 0).trans (((dat4 (V9 m ρ) c).arrAt_in 0 rfl _).trans (A_eq4 (V9 m ρ) c 0))
  by_cases h1 : main_v35 = b
  · subst h1; exact (W10_arr m ρ c 1).trans (((dat4 (V9 m ρ) c).arrAt_in 1 rfl _).trans (A_eq4 (V9 m ρ) c 1))
  exact W10_of_ne m ρ c b (fun w => by
    match w with
    | ⟨0, _⟩ => exact h0
    | ⟨1, _⟩ => exact h1
    | ⟨2, _⟩ => exact fun e => hb2 e.symm)

/-- Region 5 leaves every buffer other than its outputs as it found it. -/
theorem region5 (c : Dev nD) (b : Ref sig .tc) (hb4 : b ≠ main_v110_0) (hb5 : b ≠ main_v110_1) :
    W12 m ρ c (Proc.devRef .tc b) = W11 m ρ c (Proc.devRef .tc b) := by
  by_cases h0 : main_v106 = b
  · subst h0; exact (W12_arr m ρ c 0).trans (((dat5 (V11 m ρ) c).arrAt_in 0 rfl _).trans (A_eq5 (V11 m ρ) c 0))
  by_cases h1 : main_v92_1 = b
  · subst h1; exact (W12_arr m ρ c 1).trans (((dat5 (V11 m ρ) c).arrAt_in 1 rfl _).trans (A_eq5 (V11 m ρ) c 1))
  by_cases h2 : main_v108 = b
  · subst h2; exact (W12_arr m ρ c 2).trans (((dat5 (V11 m ρ) c).arrAt_in 2 rfl _).trans (A_eq5 (V11 m ρ) c 2))
  by_cases h3 : main_v109 = b
  · subst h3; exact (W12_arr m ρ c 3).trans (((dat5 (V11 m ρ) c).arrAt_in 3 rfl _).trans (A_eq5 (V11 m ρ) c 3))
  exact W12_of_ne m ρ c b (fun w => by
    match w with
    | ⟨0, _⟩ => exact h0
    | ⟨1, _⟩ => exact h1
    | ⟨2, _⟩ => exact h2
    | ⟨3, _⟩ => exact h3
    | ⟨4, _⟩ => exact fun e => hb4 e.symm
    | ⟨5, _⟩ => exact fun e => hb5 e.symm)

/-- Region 6 leaves every buffer other than its output as it found it. -/
theorem region6 (c : Dev nD) (b : Ref sig .tc) (hb2 : b ≠ main_v111) :
    W13 m ρ c (Proc.devRef .tc b) = W12 m ρ c (Proc.devRef .tc b) := by
  by_cases h0 : main_v110_0 = b
  · subst h0; exact (W13_arr m ρ c 0).trans (((dat6 (V12 m ρ) c).arrAt_in 0 rfl _).trans (A_eq6 (V12 m ρ) c 0))
  by_cases h1 : main_v37 = b
  · subst h1; exact (W13_arr m ρ c 1).trans (((dat6 (V12 m ρ) c).arrAt_in 1 rfl _).trans (A_eq6 (V12 m ρ) c 1))
  exact W13_of_ne m ρ c b (fun w => by
    match w with
    | ⟨0, _⟩ => exact h0
    | ⟨1, _⟩ => exact h1
    | ⟨2, _⟩ => exact fun e => hb2 e.symm)

/-- Region 7 leaves every buffer other than its outputs as it found it. -/
theorem region7 (c : Dev nD) (b : Ref sig .tc) (hb4 : b ≠ main_v128_0) (hb5 : b ≠ main_v128_1) :
    W15 m ρ c (Proc.devRef .tc b) = W14 m ρ c (Proc.devRef .tc b) := by
  by_cases h0 : main_v124 = b
  · subst h0; exact (W15_arr m ρ c 0).trans (((dat7 (V14 m ρ) c).arrAt_in 0 rfl _).trans (A_eq7 (V14 m ρ) c 0))
  by_cases h1 : main_v110_1 = b
  · subst h1; exact (W15_arr m ρ c 1).trans (((dat7 (V14 m ρ) c).arrAt_in 1 rfl _).trans (A_eq7 (V14 m ρ) c 1))
  by_cases h2 : main_v126 = b
  · subst h2; exact (W15_arr m ρ c 2).trans (((dat7 (V14 m ρ) c).arrAt_in 2 rfl _).trans (A_eq7 (V14 m ρ) c 2))
  by_cases h3 : main_v127 = b
  · subst h3; exact (W15_arr m ρ c 3).trans (((dat7 (V14 m ρ) c).arrAt_in 3 rfl _).trans (A_eq7 (V14 m ρ) c 3))
  exact W15_of_ne m ρ c b (fun w => by
    match w with
    | ⟨0, _⟩ => exact h0
    | ⟨1, _⟩ => exact h1
    | ⟨2, _⟩ => exact h2
    | ⟨3, _⟩ => exact h3
    | ⟨4, _⟩ => exact fun e => hb4 e.symm
    | ⟨5, _⟩ => exact fun e => hb5 e.symm)

/-- Region 8 leaves every buffer other than its output as it found it. -/
theorem region8 (c : Dev nD) (b : Ref sig .tc) (hb2 : b ≠ main_v129) :
    W16 m ρ c (Proc.devRef .tc b) = W15 m ρ c (Proc.devRef .tc b) := by
  by_cases h0 : main_v128_0 = b
  · subst h0; exact (W16_arr m ρ c 0).trans (((dat8 (V15 m ρ) c).arrAt_in 0 rfl _).trans (A_eq8 (V15 m ρ) c 0))
  by_cases h1 : main_v39 = b
  · subst h1; exact (W16_arr m ρ c 1).trans (((dat8 (V15 m ρ) c).arrAt_in 1 rfl _).trans (A_eq8 (V15 m ρ) c 1))
  exact W16_of_ne m ρ c b (fun w => by
    match w with
    | ⟨0, _⟩ => exact h0
    | ⟨1, _⟩ => exact h1
    | ⟨2, _⟩ => exact fun e => hb2 e.symm)

/-- Region 9 leaves every buffer other than its outputs as it found it. -/
theorem region9 (c : Dev nD) (b : Ref sig .tc) (hb4 : b ≠ main_v146_0) (hb5 : b ≠ main_v146_1) :
    W18 m ρ c (Proc.devRef .tc b) = W17 m ρ c (Proc.devRef .tc b) := by
  by_cases h0 : main_v142 = b
  · subst h0; exact (W18_arr m ρ c 0).trans (((dat9 (V17 m ρ) c).arrAt_in 0 rfl _).trans (A_eq9 (V17 m ρ) c 0))
  by_cases h1 : main_v128_1 = b
  · subst h1; exact (W18_arr m ρ c 1).trans (((dat9 (V17 m ρ) c).arrAt_in 1 rfl _).trans (A_eq9 (V17 m ρ) c 1))
  by_cases h2 : main_v144 = b
  · subst h2; exact (W18_arr m ρ c 2).trans (((dat9 (V17 m ρ) c).arrAt_in 2 rfl _).trans (A_eq9 (V17 m ρ) c 2))
  by_cases h3 : main_v145 = b
  · subst h3; exact (W18_arr m ρ c 3).trans (((dat9 (V17 m ρ) c).arrAt_in 3 rfl _).trans (A_eq9 (V17 m ρ) c 3))
  exact W18_of_ne m ρ c b (fun w => by
    match w with
    | ⟨0, _⟩ => exact h0
    | ⟨1, _⟩ => exact h1
    | ⟨2, _⟩ => exact h2
    | ⟨3, _⟩ => exact h3
    | ⟨4, _⟩ => exact fun e => hb4 e.symm
    | ⟨5, _⟩ => exact fun e => hb5 e.symm)

/-- Region 10 leaves every buffer other than its output as it found it. -/
theorem region10 (c : Dev nD) (b : Ref sig .tc) (hb2 : b ≠ main_v147) :
    W19 m ρ c (Proc.devRef .tc b) = W18 m ρ c (Proc.devRef .tc b) := by
  by_cases h0 : main_v146_0 = b
  · subst h0; exact (W19_arr m ρ c 0).trans (((dat10 (V18 m ρ) c).arrAt_in 0 rfl _).trans (A_eq10 (V18 m ρ) c 0))
  by_cases h1 : main_v41 = b
  · subst h1; exact (W19_arr m ρ c 1).trans (((dat10 (V18 m ρ) c).arrAt_in 1 rfl _).trans (A_eq10 (V18 m ρ) c 1))
  exact W19_of_ne m ρ c b (fun w => by
    match w with
    | ⟨0, _⟩ => exact h0
    | ⟨1, _⟩ => exact h1
    | ⟨2, _⟩ => exact fun e => hb2 e.symm)

/-- Region 11 leaves every buffer other than its outputs as it found it. -/
theorem region11 (c : Dev nD) (b : Ref sig .tc) (hb4 : b ≠ main_v164_0) (hb5 : b ≠ main_v164_1) :
    W21 m ρ c (Proc.devRef .tc b) = W20 m ρ c (Proc.devRef .tc b) := by
  by_cases h0 : main_v160 = b
  · subst h0; exact (W21_arr m ρ c 0).trans (((dat11 (V20 m ρ) c).arrAt_in 0 rfl _).trans (A_eq11 (V20 m ρ) c 0))
  by_cases h1 : main_v146_1 = b
  · subst h1; exact (W21_arr m ρ c 1).trans (((dat11 (V20 m ρ) c).arrAt_in 1 rfl _).trans (A_eq11 (V20 m ρ) c 1))
  by_cases h2 : main_v162 = b
  · subst h2; exact (W21_arr m ρ c 2).trans (((dat11 (V20 m ρ) c).arrAt_in 2 rfl _).trans (A_eq11 (V20 m ρ) c 2))
  by_cases h3 : main_v163 = b
  · subst h3; exact (W21_arr m ρ c 3).trans (((dat11 (V20 m ρ) c).arrAt_in 3 rfl _).trans (A_eq11 (V20 m ρ) c 3))
  exact W21_of_ne m ρ c b (fun w => by
    match w with
    | ⟨0, _⟩ => exact h0
    | ⟨1, _⟩ => exact h1
    | ⟨2, _⟩ => exact h2
    | ⟨3, _⟩ => exact h3
    | ⟨4, _⟩ => exact fun e => hb4 e.symm
    | ⟨5, _⟩ => exact fun e => hb5 e.symm)

/-- Region 12 leaves every buffer other than its output as it found it. -/
theorem region12 (c : Dev nD) (b : Ref sig .tc) (hb2 : b ≠ main_v165) :
    W22 m ρ c (Proc.devRef .tc b) = W21 m ρ c (Proc.devRef .tc b) := by
  by_cases h0 : main_v164_0 = b
  · subst h0; exact (W22_arr m ρ c 0).trans (((dat12 (V21 m ρ) c).arrAt_in 0 rfl _).trans (A_eq12 (V21 m ρ) c 0))
  by_cases h1 : main_v43 = b
  · subst h1; exact (W22_arr m ρ c 1).trans (((dat12 (V21 m ρ) c).arrAt_in 1 rfl _).trans (A_eq12 (V21 m ρ) c 1))
  exact W22_of_ne m ρ c b (fun w => by
    match w with
    | ⟨0, _⟩ => exact h0
    | ⟨1, _⟩ => exact h1
    | ⟨2, _⟩ => exact fun e => hb2 e.symm)

/-- Region 13 leaves every buffer other than its outputs as it found it. -/
theorem region13 (c : Dev nD) (b : Ref sig .tc) (hb4 : b ≠ main_v182_0) (hb5 : b ≠ main_v182_1) :
    W24 m ρ c (Proc.devRef .tc b) = W23 m ρ c (Proc.devRef .tc b) := by
  by_cases h0 : main_v178 = b
  · subst h0; exact (W24_arr m ρ c 0).trans (((dat13 (V23 m ρ) c).arrAt_in 0 rfl _).trans (A_eq13 (V23 m ρ) c 0))
  by_cases h1 : main_v164_1 = b
  · subst h1; exact (W24_arr m ρ c 1).trans (((dat13 (V23 m ρ) c).arrAt_in 1 rfl _).trans (A_eq13 (V23 m ρ) c 1))
  by_cases h2 : main_v180 = b
  · subst h2; exact (W24_arr m ρ c 2).trans (((dat13 (V23 m ρ) c).arrAt_in 2 rfl _).trans (A_eq13 (V23 m ρ) c 2))
  by_cases h3 : main_v181 = b
  · subst h3; exact (W24_arr m ρ c 3).trans (((dat13 (V23 m ρ) c).arrAt_in 3 rfl _).trans (A_eq13 (V23 m ρ) c 3))
  exact W24_of_ne m ρ c b (fun w => by
    match w with
    | ⟨0, _⟩ => exact h0
    | ⟨1, _⟩ => exact h1
    | ⟨2, _⟩ => exact h2
    | ⟨3, _⟩ => exact h3
    | ⟨4, _⟩ => exact fun e => hb4 e.symm
    | ⟨5, _⟩ => exact fun e => hb5 e.symm)

/-- Region 14 leaves every buffer other than its output as it found it. -/
theorem region14 (c : Dev nD) (b : Ref sig .tc) (hb2 : b ≠ main_v183) :
    W25 m ρ c (Proc.devRef .tc b) = W24 m ρ c (Proc.devRef .tc b) := by
  by_cases h0 : main_v182_0 = b
  · subst h0; exact (W25_arr m ρ c 0).trans (((dat14 (V24 m ρ) c).arrAt_in 0 rfl _).trans (A_eq14 (V24 m ρ) c 0))
  by_cases h1 : main_arg7 = b
  · subst h1; exact (W25_arr m ρ c 1).trans (((dat14 (V24 m ρ) c).arrAt_in 1 rfl _).trans (A_eq14 (V24 m ρ) c 1))
  exact W25_of_ne m ρ c b (fun w => by
    match w with
    | ⟨0, _⟩ => exact h0
    | ⟨1, _⟩ => exact h1
    | ⟨2, _⟩ => exact fun e => hb2 e.symm)

/-- Region 15 leaves every buffer other than its output as it found it. -/
theorem region15 (c : Dev nD) (b : Ref sig .tc) (hb2 : b ≠ main_v198) :
    W27 m ρ c (Proc.devRef .tc b) = W26 m ρ c (Proc.devRef .tc b) := by
  by_cases h0 : main_v196 = b
  · subst h0; exact (W27_arr m ρ c 0).trans (((dat15 (V26 m ρ) c).arrAt_in 0 rfl _).trans (A_eq15 (V26 m ρ) c 0))
  by_cases h1 : main_v197 = b
  · subst h1; exact (W27_arr m ρ c 1).trans (((dat15 (V26 m ρ) c).arrAt_in 1 rfl _).trans (A_eq15 (V26 m ρ) c 1))
  exact W27_of_ne m ρ c b (fun w => by
    match w with
    | ⟨0, _⟩ => exact h0
    | ⟨1, _⟩ => exact h1
    | ⟨2, _⟩ => exact fun e => hb2 e.symm)

/-! ## The buffers filled before the first region that later parts read -/

/-- The edge sources, destinations and normalisation; the six hidden weight slices; the six hidden bias slices; the zero
    residual; and the arguments read after the first region. -/
def early : List (Ref sig .tc) :=
  [main_v3, main_v6, main_v31, main_v33, main_v35, main_v37, main_v39, main_v41, main_v43, main_v45, main_v47, main_v49, main_v51, main_v53, main_v55, main_v56, main_arg2, main_arg4, main_arg7, main_arg8]

/-- None of them is a region's output. -/
theorem early_ne_out : ∀ b ∈ early, b ≠ main_v57 ∧ b ≠ main_v74_0 ∧ b ≠ main_v74_1 ∧ b ≠ main_v75 ∧ b ≠ main_v92_0 ∧ b ≠ main_v92_1 ∧ b ≠ main_v93 ∧ b ≠ main_v110_0 ∧ b ≠ main_v110_1 ∧ b ≠ main_v111 ∧ b ≠ main_v128_0 ∧ b ≠ main_v128_1 ∧ b ≠ main_v129 ∧ b ≠ main_v146_0 ∧ b ≠ main_v146_1 ∧ b ≠ main_v147 ∧ b ≠ main_v164_0 ∧ b ≠ main_v164_1 ∧ b ≠ main_v165 ∧ b ≠ main_v182_0 ∧ b ≠ main_v182_1 ∧ b ≠ main_v183 ∧ b ≠ main_v198 := by
  decide

/-- The stretch of host operations before region 1 writes none of them. -/
theorem stretch1 (c : Dev nD) (b : Ref sig .tc) (hb : b ∈ early) :
    W5 m ρ c (Proc.devRef .tc b) = W4 m ρ c (Proc.devRef .tc b) := by
  refine StableHlo.after_of_forall_not_mem (b := Proc.devRef .tc b) _ _ (List.forall_iff_forall_mem.mp ?_)
  simp only [early, List.mem_cons, List.mem_nil_iff, or_false] at hb
  rcases hb with rfl | rfl | rfl | rfl | rfl | rfl | rfl | rfl | rfl | rfl | rfl | rfl | rfl | rfl | rfl | rfl | rfl | rfl | rfl | rfl
  all_goals
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- The stretch of host operations before region 3 writes none of them. -/
theorem stretch3 (c : Dev nD) (b : Ref sig .tc) (hb : b ∈ early) :
    W8 m ρ c (Proc.devRef .tc b) = W7 m ρ c (Proc.devRef .tc b) := by
  refine StableHlo.after_of_forall_not_mem (b := Proc.devRef .tc b) _ _ (List.forall_iff_forall_mem.mp ?_)
  simp only [early, List.mem_cons, List.mem_nil_iff, or_false] at hb
  rcases hb with rfl | rfl | rfl | rfl | rfl | rfl | rfl | rfl | rfl | rfl | rfl | rfl | rfl | rfl | rfl | rfl | rfl | rfl | rfl | rfl
  all_goals
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- The stretch of host operations before region 5 writes none of them. -/
theorem stretch5 (c : Dev nD) (b : Ref sig .tc) (hb : b ∈ early) :
    W11 m ρ c (Proc.devRef .tc b) = W10 m ρ c (Proc.devRef .tc b) := by
  refine StableHlo.after_of_forall_not_mem (b := Proc.devRef .tc b) _ _ (List.forall_iff_forall_mem.mp ?_)
  simp only [early, List.mem_cons, List.mem_nil_iff, or_false] at hb
  rcases hb with rfl | rfl | rfl | rfl | rfl | rfl | rfl | rfl | rfl | rfl | rfl | rfl | rfl | rfl | rfl | rfl | rfl | rfl | rfl | rfl
  all_goals
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- The stretch of host operations before region 7 writes none of them. -/
theorem stretch7 (c : Dev nD) (b : Ref sig .tc) (hb : b ∈ early) :
    W14 m ρ c (Proc.devRef .tc b) = W13 m ρ c (Proc.devRef .tc b) := by
  refine StableHlo.after_of_forall_not_mem (b := Proc.devRef .tc b) _ _ (List.forall_iff_forall_mem.mp ?_)
  simp only [early, List.mem_cons, List.mem_nil_iff, or_false] at hb
  rcases hb with rfl | rfl | rfl | rfl | rfl | rfl | rfl | rfl | rfl | rfl | rfl | rfl | rfl | rfl | rfl | rfl | rfl | rfl | rfl | rfl
  all_goals
    simp only [hostOps7, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- The stretch of host operations before region 9 writes none of them. -/
theorem stretch9 (c : Dev nD) (b : Ref sig .tc) (hb : b ∈ early) :
    W17 m ρ c (Proc.devRef .tc b) = W16 m ρ c (Proc.devRef .tc b) := by
  refine StableHlo.after_of_forall_not_mem (b := Proc.devRef .tc b) _ _ (List.forall_iff_forall_mem.mp ?_)
  simp only [early, List.mem_cons, List.mem_nil_iff, or_false] at hb
  rcases hb with rfl | rfl | rfl | rfl | rfl | rfl | rfl | rfl | rfl | rfl | rfl | rfl | rfl | rfl | rfl | rfl | rfl | rfl | rfl | rfl
  all_goals
    simp only [hostOps9, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- The stretch of host operations before region 11 writes none of them. -/
theorem stretch11 (c : Dev nD) (b : Ref sig .tc) (hb : b ∈ early) :
    W20 m ρ c (Proc.devRef .tc b) = W19 m ρ c (Proc.devRef .tc b) := by
  refine StableHlo.after_of_forall_not_mem (b := Proc.devRef .tc b) _ _ (List.forall_iff_forall_mem.mp ?_)
  simp only [early, List.mem_cons, List.mem_nil_iff, or_false] at hb
  rcases hb with rfl | rfl | rfl | rfl | rfl | rfl | rfl | rfl | rfl | rfl | rfl | rfl | rfl | rfl | rfl | rfl | rfl | rfl | rfl | rfl
  all_goals
    simp only [hostOps11, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- The stretch of host operations before region 13 writes none of them. -/
theorem stretch13 (c : Dev nD) (b : Ref sig .tc) (hb : b ∈ early) :
    W23 m ρ c (Proc.devRef .tc b) = W22 m ρ c (Proc.devRef .tc b) := by
  refine StableHlo.after_of_forall_not_mem (b := Proc.devRef .tc b) _ _ (List.forall_iff_forall_mem.mp ?_)
  simp only [early, List.mem_cons, List.mem_nil_iff, or_false] at hb
  rcases hb with rfl | rfl | rfl | rfl | rfl | rfl | rfl | rfl | rfl | rfl | rfl | rfl | rfl | rfl | rfl | rfl | rfl | rfl | rfl | rfl
  all_goals
    simp only [hostOps13, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-- The stretch of host operations before region 15 writes none of them. -/
theorem stretch15 (c : Dev nD) (b : Ref sig .tc) (hb : b ∈ early) :
    W26 m ρ c (Proc.devRef .tc b) = W25 m ρ c (Proc.devRef .tc b) := by
  refine StableHlo.after_of_forall_not_mem (b := Proc.devRef .tc b) _ _ (List.forall_iff_forall_mem.mp ?_)
  simp only [early, List.mem_cons, List.mem_nil_iff, or_false] at hb
  rcases hb with rfl | rfl | rfl | rfl | rfl | rfl | rfl | rfl | rfl | rfl | rfl | rfl | rfl | rfl | rfl | rfl | rfl | rfl | rfl | rfl
  all_goals
    simp only [hostOps15, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

/-! ## At every later boundary they hold what they held at the first region's entry -/
theorem at4 (c : Dev nD) (b : Ref sig .tc) (hb : b ∈ early) : W4 m ρ c (Proc.devRef .tc b) = W3 m ρ c (Proc.devRef .tc b) :=
  region0 m ρ c b (early_ne_out b hb).1
theorem at5 (c : Dev nD) (b : Ref sig .tc) (hb : b ∈ early) : W5 m ρ c (Proc.devRef .tc b) = W3 m ρ c (Proc.devRef .tc b) :=
  (stretch1 m ρ c b hb).trans (at4 m ρ c b hb)
theorem at6 (c : Dev nD) (b : Ref sig .tc) (hb : b ∈ early) : W6 m ρ c (Proc.devRef .tc b) = W3 m ρ c (Proc.devRef .tc b) :=
  (region1 m ρ c b (early_ne_out b hb).2.1 (early_ne_out b hb).2.2.1).trans (at5 m ρ c b hb)
theorem at7 (c : Dev nD) (b : Ref sig .tc) (hb : b ∈ early) : W7 m ρ c (Proc.devRef .tc b) = W3 m ρ c (Proc.devRef .tc b) :=
  (region2 m ρ c b (early_ne_out b hb).2.2.2.1).trans (at6 m ρ c b hb)
theorem at8 (c : Dev nD) (b : Ref sig .tc) (hb : b ∈ early) : W8 m ρ c (Proc.devRef .tc b) = W3 m ρ c (Proc.devRef .tc b) :=
  (stretch3 m ρ c b hb).trans (at7 m ρ c b hb)
theorem at9 (c : Dev nD) (b : Ref sig .tc) (hb : b ∈ early) : W9 m ρ c (Proc.devRef .tc b) = W3 m ρ c (Proc.devRef .tc b) :=
  (region3 m ρ c b (early_ne_out b hb).2.2.2.2.1 (early_ne_out b hb).2.2.2.2.2.1).trans (at8 m ρ c b hb)
theorem at10 (c : Dev nD) (b : Ref sig .tc) (hb : b ∈ early) : W10 m ρ c (Proc.devRef .tc b) = W3 m ρ c (Proc.devRef .tc b) :=
  (region4 m ρ c b (early_ne_out b hb).2.2.2.2.2.2.1).trans (at9 m ρ c b hb)
theorem at11 (c : Dev nD) (b : Ref sig .tc) (hb : b ∈ early) : W11 m ρ c (Proc.devRef .tc b) = W3 m ρ c (Proc.devRef .tc b) :=
  (stretch5 m ρ c b hb).trans (at10 m ρ c b hb)
theorem at12 (c : Dev nD) (b : Ref sig .tc) (hb : b ∈ early) : W12 m ρ c (Proc.devRef .tc b) = W3 m ρ c (Proc.devRef .tc b) :=
  (region5 m ρ c b (early_ne_out b hb).2.2.2.2.2.2.2.1 (early_ne_out b hb).2.2.2.2.2.2.2.2.1).trans (at11 m ρ c b hb)
theorem at13 (c : Dev nD) (b : Ref sig .tc) (hb : b ∈ early) : W13 m ρ c (Proc.devRef .tc b) = W3 m ρ c (Proc.devRef .tc b) :=
  (region6 m ρ c b (early_ne_out b hb).2.2.2.2.2.2.2.2.2.1).trans (at12 m ρ c b hb)
theorem at14 (c : Dev nD) (b : Ref sig .tc) (hb : b ∈ early) : W14 m ρ c (Proc.devRef .tc b) = W3 m ρ c (Proc.devRef .tc b) :=
  (stretch7 m ρ c b hb).trans (at13 m ρ c b hb)
theorem at15 (c : Dev nD) (b : Ref sig .tc) (hb : b ∈ early) : W15 m ρ c (Proc.devRef .tc b) = W3 m ρ c (Proc.devRef .tc b) :=
  (region7 m ρ c b (early_ne_out b hb).2.2.2.2.2.2.2.2.2.2.1 (early_ne_out b hb).2.2.2.2.2.2.2.2.2.2.2.1).trans (at14 m ρ c b hb)
theorem at16 (c : Dev nD) (b : Ref sig .tc) (hb : b ∈ early) : W16 m ρ c (Proc.devRef .tc b) = W3 m ρ c (Proc.devRef .tc b) :=
  (region8 m ρ c b (early_ne_out b hb).2.2.2.2.2.2.2.2.2.2.2.2.1).trans (at15 m ρ c b hb)
theorem at17 (c : Dev nD) (b : Ref sig .tc) (hb : b ∈ early) : W17 m ρ c (Proc.devRef .tc b) = W3 m ρ c (Proc.devRef .tc b) :=
  (stretch9 m ρ c b hb).trans (at16 m ρ c b hb)
theorem at18 (c : Dev nD) (b : Ref sig .tc) (hb : b ∈ early) : W18 m ρ c (Proc.devRef .tc b) = W3 m ρ c (Proc.devRef .tc b) :=
  (region9 m ρ c b (early_ne_out b hb).2.2.2.2.2.2.2.2.2.2.2.2.2.1 (early_ne_out b hb).2.2.2.2.2.2.2.2.2.2.2.2.2.2.1).trans (at17 m ρ c b hb)
theorem at19 (c : Dev nD) (b : Ref sig .tc) (hb : b ∈ early) : W19 m ρ c (Proc.devRef .tc b) = W3 m ρ c (Proc.devRef .tc b) :=
  (region10 m ρ c b (early_ne_out b hb).2.2.2.2.2.2.2.2.2.2.2.2.2.2.2.1).trans (at18 m ρ c b hb)
theorem at20 (c : Dev nD) (b : Ref sig .tc) (hb : b ∈ early) : W20 m ρ c (Proc.devRef .tc b) = W3 m ρ c (Proc.devRef .tc b) :=
  (stretch11 m ρ c b hb).trans (at19 m ρ c b hb)
theorem at21 (c : Dev nD) (b : Ref sig .tc) (hb : b ∈ early) : W21 m ρ c (Proc.devRef .tc b) = W3 m ρ c (Proc.devRef .tc b) :=
  (region11 m ρ c b (early_ne_out b hb).2.2.2.2.2.2.2.2.2.2.2.2.2.2.2.2.1 (early_ne_out b hb).2.2.2.2.2.2.2.2.2.2.2.2.2.2.2.2.2.1).trans (at20 m ρ c b hb)
theorem at22 (c : Dev nD) (b : Ref sig .tc) (hb : b ∈ early) : W22 m ρ c (Proc.devRef .tc b) = W3 m ρ c (Proc.devRef .tc b) :=
  (region12 m ρ c b (early_ne_out b hb).2.2.2.2.2.2.2.2.2.2.2.2.2.2.2.2.2.2.1).trans (at21 m ρ c b hb)
theorem at23 (c : Dev nD) (b : Ref sig .tc) (hb : b ∈ early) : W23 m ρ c (Proc.devRef .tc b) = W3 m ρ c (Proc.devRef .tc b) :=
  (stretch13 m ρ c b hb).trans (at22 m ρ c b hb)
theorem at24 (c : Dev nD) (b : Ref sig .tc) (hb : b ∈ early) : W24 m ρ c (Proc.devRef .tc b) = W3 m ρ c (Proc.devRef .tc b) :=
  (region13 m ρ c b (early_ne_out b hb).2.2.2.2.2.2.2.2.2.2.2.2.2.2.2.2.2.2.2.1 (early_ne_out b hb).2.2.2.2.2.2.2.2.2.2.2.2.2.2.2.2.2.2.2.2.1).trans (at23 m ρ c b hb)
theorem at25 (c : Dev nD) (b : Ref sig .tc) (hb : b ∈ early) : W25 m ρ c (Proc.devRef .tc b) = W3 m ρ c (Proc.devRef .tc b) :=
  (region14 m ρ c b (early_ne_out b hb).2.2.2.2.2.2.2.2.2.2.2.2.2.2.2.2.2.2.2.2.2.1).trans (at24 m ρ c b hb)
theorem at26 (c : Dev nD) (b : Ref sig .tc) (hb : b ∈ early) : W26 m ρ c (Proc.devRef .tc b) = W3 m ρ c (Proc.devRef .tc b) :=
  (stretch15 m ρ c b hb).trans (at25 m ρ c b hb)

end Cert.KernelIdeal.Keep

end
-- ==== Proof.LibPlainMatmul.lean ====
/-
  A plain M × K by K × N kernel matrix product into the zero accumulator, read at one entry, for operands of any float
  formats (a kernel rounds its operands to bf16 on the way in; at the exact values a change of format is the identity):
  entry (p, q) is the sum over k of L(p, k) · R(k, q).
-/
import proofs.«148016_j80401787781528_2_alg».proof.Proof.LibPlainDot

noncomputable section

namespace Idealize.ShloMosaic.ValueIdx

/-- A kernel's matrix product into the zero accumulator, operands of any formats, for any dimension record that is the
    plain one. -/
theorem matmul_plain_zero_apply_fmt {M K N : ℕ} {φ₁ φ₂ : FTy} (D : DotDims ⟨2, ![M, K]⟩ ⟨2, ![K, N]⟩ ⟨2, ![M, N]⟩)
    (hD : D = DotDims.plain M K N) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

end Idealize.ShloMosaic.ValueIdx

end
-- ==== Proof.MatBody.lean ====
/-
  The matrix-product bodies read at one entry, at the exact (extended-real) values.

  Each body rounds both operands to bf16 (at the exact values a change of format is the identity; the identity
  reshapes in front of it change nothing either) and multiplies them into a zero accumulator, contracting the left
  operand's second axis with the right operand's first: entry (p, q) of the result is the sum over k of
  L(p, k) · R(k, q).  When the left block's row p is row r of a tall matrix X and the right block is the whole weight
  W, that entry is entry (r, q) of the full product X · W: the form the row-block argument uses.
-/
import proofs.«148016_j80401787781528_2_alg».proof.Proof.Gen.KernelIdeal.Skeleton
import proofs.«148016_j80401787781528_2_alg».proof.Proof.LibPlainMatmul
import proofs.«148016_j80401787781528_2_alg».proof.Proof.Spec
import Idealize.ShloMosaic.Lib.Pipeline.Value

noncomputable section

namespace Cert.KernelIdeal.RegionValue

open Cert.KernelIdeal Cert.KernelIdeal.Gen Idealize.ShloMosaic Idealize.ShloMosaic.ValueIdx

/-- The zero offsets of a whole-block access, as the constant function. -/
theorem offsets_zero : (![0, 0] : Fin 2 → Nat) = fun _ => 0 := funext fun a => by fin_cases a <;> rfl

/-! ## The bodies at an entry -/

/-- The 128-wide product: a 10000 × 128 block times the 128 × 32 weight. -/
theorem pay0_apply (x0 : Vec Ideal S10000x128 .f32) (x1 : Vec Ideal S128x32 .f32) (p : Fin 10000) (q : Fin 32) :
    k0_pay1 (F := Ideal) x0 x1 (ix2 p q) = ∑ k : Fin 128, (x0 (ix2 p k) : EReal) * (x1 (ix2 k q) : EReal) := by
  unfold k0_pay1
  exact matmul_plain_zero_apply_fmt (M := 10000) (K := 128) (N := 32) dot_S10000x128_S128x32_S10000x32_1_0_0_1_n_n rfl none
    (truncf .bf16 x0 bitsLt_bf16_f32) (truncf .bf16 x1 bitsLt_bf16_f32) p q

/-- The 32-wide product: a 10000 × 32 block times a 32 × 32 weight. -/
theorem pay2_apply (x0 : Vec Ideal S10000x32 .f32) (x1 : Vec Ideal S32x32 .f32) (p : Fin 10000) (q : Fin 32) :
    k2_pay1 (F := Ideal) x0 x1 (ix2 p q) = ∑ k : Fin 32, (x0 (ix2 p k) : EReal) * (x1 (ix2 k q) : EReal) := by
  unfold k2_pay1
  rw [shapeCast_self, shapeCast_self]
  exact matmul_plain_zero_apply_fmt (M := 10000) (K := 32) (N := 32) dot_S10000x32_S32x32_S10000x32_1_0_0_1_n_n rfl none
    (truncf .bf16 x0 bitsLt_bf16_f32) (truncf .bf16 x1 bitsLt_bf16_f32) p q

/-- The output layer's product: a 10000 × 32 block times the 32 × 40 weight. -/
theorem pay14_apply (x0 : Vec Ideal S10000x32 .f32) (x1 : Vec Ideal S32x40 .f32) (p : Fin 10000) (q : Fin 40) :
    k14_pay1 (F := Ideal) x0 x1 (ix2 p q) = ∑ k : Fin 32, (x0 (ix2 p k) : EReal) * (x1 (ix2 k q) : EReal) := by
  unfold k14_pay1
  rw [shapeCast_self]
  exact matmul_plain_zero_apply_fmt (M := 10000) (K := 32) (N := 40) dot_S10000x32_S32x40_S10000x40_1_0_0_1_n_n rfl none
    (truncf .bf16 x0 bitsLt_bf16_f32) (truncf .bf16 x1 bitsLt_bf16_f32) p q

/-! ## A block's entry as an entry of the full product

X is the tall left matrix, W the weight, i an index of the full product.  If row p of the left block is row
(row i) of X and column q of the right block is column (col i) of W, entry (p, q) of the body is entry i of X · W. -/

theorem pay0_entry (X : (Cert.Spec.Mat 100000 128).Idx → EReal) (W : (Cert.Spec.Mat 128 32).Idx → EReal)
    (i : (Cert.Spec.Mat 100000 32).Idx) (x0 : Vec Ideal S10000x128 .f32) (x1 : Vec Ideal S128x32 .f32)
    (p : Fin 10000) (q : Fin 32)
    (h0 : ∀ k : Fin 128, x0 (ix2 p k) = X (ix2 (Cert.Spec.row i) k))
    (h1 : ∀ k : Fin 128, x1 (ix2 k q) = W (ix2 k (Cert.Spec.col i))) :
    k0_pay1 (F := Ideal) x0 x1 (ix2 p q) = Cert.Spec.prod 100000 128 32 X W i := by
  rw [pay0_apply]
  exact Finset.sum_congr rfl fun k _ => by rw [h0, h1]

theorem pay2_entry (X : (Cert.Spec.Mat 100000 32).Idx → EReal) (W : (Cert.Spec.Mat 32 32).Idx → EReal)
    (i : (Cert.Spec.Mat 100000 32).Idx) (x0 : Vec Ideal S10000x32 .f32) (x1 : Vec Ideal S32x32 .f32)
    (p : Fin 10000) (q : Fin 32)
    (h0 : ∀ k : Fin 32, x0 (ix2 p k) = X (ix2 (Cert.Spec.row i) k))
    (h1 : ∀ k : Fin 32, x1 (ix2 k q) = W (ix2 k (Cert.Spec.col i))) :
    k2_pay1 (F := Ideal) x0 x1 (ix2 p q) = Cert.Spec.prod 100000 32 32 X W i := by
  rw [pay2_apply]
  exact Finset.sum_congr rfl fun k _ => by rw [h0, h1]

theorem pay14_entry (X : (Cert.Spec.Mat 100000 32).Idx → EReal) (W : (Cert.Spec.Mat 32 40).Idx → EReal)
    (i : (Cert.Spec.Mat 100000 40).Idx) (x0 : Vec Ideal S10000x32 .f32) (x1 : Vec Ideal S32x40 .f32)
    (p : Fin 10000) (q : Fin 40)
    (h0 : ∀ k : Fin 32, x0 (ix2 p k) = X (ix2 (Cert.Spec.row i) k))
    (h1 : ∀ k : Fin 32, x1 (ix2 k q) = W (ix2 k (Cert.Spec.col i))) :
    k14_pay1 (F := Ideal) x0 x1 (ix2 p q) = Cert.Spec.prod 100000 32 40 X W i := by
  rw [pay14_apply]
  exact Finset.sum_congr rfl fun k _ => by rw [h0, h1]

/-! ## The five later hidden layers' bodies are the 32-wide body again (the same text) -/

theorem pay4_eq (x0 : Vec Ideal S10000x32 .f32) (x1 : Vec Ideal S32x32 .f32) : k4_pay1 (F := Ideal) x0 x1 = k2_pay1 x0 x1 := rfl
theorem pay6_eq (x0 : Vec Ideal S10000x32 .f32) (x1 : Vec Ideal S32x32 .f32) : k6_pay1 (F := Ideal) x0 x1 = k2_pay1 x0 x1 := rfl
theorem pay8_eq (x0 : Vec Ideal S10000x32 .f32) (x1 : Vec Ideal S32x32 .f32) : k8_pay1 (F := Ideal) x0 x1 = k2_pay1 x0 x1 := rfl
theorem pay10_eq (x0 : Vec Ideal S10000x32 .f32) (x1 : Vec Ideal S32x32 .f32) : k10_pay1 (F := Ideal) x0 x1 = k2_pay1 x0 x1 := rfl
theorem pay12_eq (x0 : Vec Ideal S10000x32 .f32) (x1 : Vec Ideal S32x32 .f32) : k12_pay1 (F := Ideal) x0 x1 = k2_pay1 x0 x1 := rfl

/-- So each has the 32-wide body's entry form. -/
theorem pay4_entry (X : (Cert.Spec.Mat 100000 32).Idx → EReal) (W : (Cert.Spec.Mat 32 32).Idx → EReal)
    (i : (Cert.Spec.Mat 100000 32).Idx) (x0 : Vec Ideal S10000x32 .f32) (x1 : Vec Ideal S32x32 .f32)
    (p : Fin 10000) (q : Fin 32)
    (h0 : ∀ k : Fin 32, x0 (ix2 p k) = X (ix2 (Cert.Spec.row i) k))
    (h1 : ∀ k : Fin 32, x1 (ix2 k q) = W (ix2 k (Cert.Spec.col i))) :
    k4_pay1 (F := Ideal) x0 x1 (ix2 p q) = Cert.Spec.prod 100000 32 32 X W i :=
  (congrFun (pay4_eq x0 x1) (ix2 p q)).trans (pay2_entry X W i x0 x1 p q h0 h1)

theorem pay6_entry (X : (Cert.Spec.Mat 100000 32).Idx → EReal) (W : (Cert.Spec.Mat 32 32).Idx → EReal)
    (i : (Cert.Spec.Mat 100000 32).Idx) (x0 : Vec Ideal S10000x32 .f32) (x1 : Vec Ideal S32x32 .f32)
    (p : Fin 10000) (q : Fin 32)
    (h0 : ∀ k : Fin 32, x0 (ix2 p k) = X (ix2 (Cert.Spec.row i) k))
    (h1 : ∀ k : Fin 32, x1 (ix2 k q) = W (ix2 k (Cert.Spec.col i))) :
    k6_pay1 (F := Ideal) x0 x1 (ix2 p q) = Cert.Spec.prod 100000 32 32 X W i :=
  (congrFun (pay6_eq x0 x1) (ix2 p q)).trans (pay2_entry X W i x0 x1 p q h0 h1)

theorem pay8_entry (X : (Cert.Spec.Mat 100000 32).Idx → EReal) (W : (Cert.Spec.Mat 32 32).Idx → EReal)
    (i : (Cert.Spec.Mat 100000 32).Idx) (x0 : Vec Ideal S10000x32 .f32) (x1 : Vec Ideal S32x32 .f32)
    (p : Fin 10000) (q : Fin 32)
    (h0 : ∀ k : Fin 32, x0 (ix2 p k) = X (ix2 (Cert.Spec.row i) k))
    (h1 : ∀ k : Fin 32, x1 (ix2 k q) = W (ix2 k (Cert.Spec.col i))) :
    k8_pay1 (F := Ideal) x0 x1 (ix2 p q) = Cert.Spec.prod 100000 32 32 X W i :=
  (congrFun (pay8_eq x0 x1) (ix2 p q)).trans (pay2_entry X W i x0 x1 p q h0 h1)

theorem pay10_entry (X : (Cert.Spec.Mat 100000 32).Idx → EReal) (W : (Cert.Spec.Mat 32 32).Idx → EReal)
    (i : (Cert.Spec.Mat 100000 32).Idx) (x0 : Vec Ideal S10000x32 .f32) (x1 : Vec Ideal S32x32 .f32)
    (p : Fin 10000) (q : Fin 32)
    (h0 : ∀ k : Fin 32, x0 (ix2 p k) = X (ix2 (Cert.Spec.row i) k))
    (h1 : ∀ k : Fin 32, x1 (ix2 k q) = W (ix2 k (Cert.Spec.col i))) :
    k10_pay1 (F := Ideal) x0 x1 (ix2 p q) = Cert.Spec.prod 100000 32 32 X W i :=
  (congrFun (pay10_eq x0 x1) (ix2 p q)).trans (pay2_entry X W i x0 x1 p q h0 h1)

theorem pay12_entry (X : (Cert.Spec.Mat 100000 32).Idx → EReal) (W : (Cert.Spec.Mat 32 32).Idx → EReal)
    (i : (Cert.Spec.Mat 100000 32).Idx) (x0 : Vec Ideal S10000x32 .f32) (x1 : Vec Ideal S32x32 .f32)
    (p : Fin 10000) (q : Fin 32)
    (h0 : ∀ k : Fin 32, x0 (ix2 p k) = X (ix2 (Cert.Spec.row i) k))
    (h1 : ∀ k : Fin 32, x1 (ix2 k q) = W (ix2 k (Cert.Spec.col i))) :
    k12_pay1 (F := Ideal) x0 x1 (ix2 p q) = Cert.Spec.prod 100000 32 32 X W i :=
  (congrFun (pay12_eq x0 x1) (ix2 p q)).trans (pay2_entry X W i x0 x1 p q h0 h1)

end Cert.KernelIdeal.RegionValue

end
-- ==== Proof.RegionMat0.lean ====
/-
  The first layer's feature product as one function of the arrays its region finds.

  The region runs the 128-wide matrix-product body at 10 grid points.  At point t the left operand's block is rows
  10000 t … 10000 t + 9999 of the feature matrix X, the weight W is fetched whole, and the output's block is the same
  rows of the result.  So what point t writes back is the block of rows 10000 t … of the full product X · W, every
  row r is in the block of point r / 10000, and after the last point the output array holds X · W.
-/
import proofs.«148016_j80401787781528_2_alg».proof.Proof.MatBody
import proofs.«148016_j80401787781528_2_alg».proof.Proof.Spec
import proofs.«148016_j80401787781528_2_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten grid points: the left operand's and the output's row block is the point
    itself, their column block is 0, and the weight's block is (0, 0) at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row 10000 t + p of the feature matrix. -/
theorem read0_left (c : Dev nD) (t : Fin cfg0.N) (p : Fin 10000) (k : Fin 128) (r : Fin 100000)
    (hr : r.val = t.val * 10000 + p.val) :
    iblk0 V c 0 t (ix2 p k) = V c main_arg0 (ix2 r k) := by
  obtain ⟨e0, e1, -⟩ := idx0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The weight's block at every point is the weight. -/
theorem read0_right (c : Dev nD) (t : Fin cfg0.N) (k : Fin 128) (q q' : Fin 32) (hq : q'.val = q.val) :
    iblk0 V c 1 t (ix2 k q) = V c main_arg3 (ix2 k q') := by
  obtain ⟨-, -, e2, e3, -⟩ := idx0 t
  show V c main_arg3 (((cfg0.win 1).blk t).view.emb (ix2 k q)) = V c main_arg3 (ix2 k q')
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 32 + 1 * q.val = q'.val; omega

/-- What point t writes back is its block of the full product. -/
theorem flushed0 (c : Dev nD) (t : Fin cfg0.N) :
    (dat0 (F := Ideal) V c).flushed 2 t
      = ((cfg0.win 2).blk t).view.read (Elt Ideal) (Cert.Spec.prod 100000 128 32 (V c main_arg0) (V c main_arg3)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x32) offsets_zero]
  obtain ⟨-, -, -, -, e4, e5⟩ := idx0 t
  funext j
  have hj0 : (j 0).val < 10000 := (j 0).isLt
  have hj1 : (j 1).val < 32 := (j 1).isLt
  have hx : (cfg0.win 2).xinj (grid0.coords t) j = ix2 (⟨(j 0).val, hj0⟩ : Fin 10000) (⟨(j 1).val, hj1⟩ : Fin 32) :=
    funext fun a => by
      match a with
      | ⟨0, _⟩ => rfl
      | ⟨1, _⟩ => rfl
  show k0_pay1 (iblk0 V c 0 t) (iblk0 V c 1 t) ((cfg0.win 2).xinj (grid0.coords t) j)
    = Cert.Spec.prod 100000 128 32 (V c main_arg0) (V c main_arg3) (((cfg0.win 2).blk t).view.emb j)
  rw [hx]
  refine pay0_entry _ _ _ _ _ _ _ (fun k => ?_) (fun k => ?_)
  · refine read0_left V c t _ k _ ?_
    show win0_2.index t (0 : Fin 2) * 10000 + 1 * (j 0).val = t.val * 10000 + (j 0).val
    omega
  · refine read0_right V c t k _ _ ?_
    show win0_2.index t (1 : Fin 2) * 32 + 1 * (j 1).val = (j 1).val
    omega

/-- An index of the output array is in point t's block iff each coordinate is in the block's range on its axis. -/
theorem mem_blk0 (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v57).slice (win0_2.rect t)).set ↔ _
  rw [View.set_slice_whole, Rect.mem_set_unit]
  exact Iff.rfl

/-- Every index of the output array is in the block of the point its row falls in. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ : ∃ t : Fin cfg0.N, t.val = (i 0).val / 10000 :=
    ⟨⟨(i 0).val / 10000, by show (i 0).val / 10000 < 10; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 32 ≤ (i 1).val ∧ (i 1).val < win0_2.index t (1 : Fin 2) * 32 + 32
    omega

/-- After the region the output array holds the product of the feature matrix and the weight. -/
theorem prod0 (c : Dev nD) :
    (dat0 (F := Ideal) V c).arrAt 2 cfg0.N = Cert.Spec.prod 100000 128 32 (V c main_arg0) (V c main_arg3) :=
  (dat0 V c).arrAt_eq_of_cover 2 _ (fun t _ => flushed0 V c t) cover0

end Cert.KernelIdeal.RegionValue

end
-- ==== Proof.ElemBody.lean ====
/-
  The element-wise bodies read at one element.

  A hidden layer's body computes, on a block of 2000 rows, max(agg + b, 0) + old (the bias b one row, repeated down the
  block) and that value times the dropout factor (2 where the draw exceeds 1/2, else 0); the output layer's body computes
  agg + b. Read at the element (p, q) of the block, each is the specification's function at whichever element of the
  whole array the block's element (p, q) is, provided the block's operands are the arrays' values there.
-/
import proofs.«148016_j80401787781528_2_alg».proof.Proof.Gen.KernelIdeal.Skeleton
import proofs.«148016_j80401787781528_2_alg».proof.Proof.Spec
import Idealize.ShloMosaic.Lib.ValueLayout

noncomputable section

namespace Cert.KernelIdeal.ElemBody

open Cert.KernelIdeal Cert.KernelIdeal.Gen Idealize.ShloMosaic Idealize.ShloMosaic.ValueIdx

/-! ## The payloads at an element of the block -/

/-- max(agg + b, 0) + old at (p, q): the casts are identities, the bias row is read at column q. -/
theorem pay1_apply (v0 : Vec Ideal S2000x32 .f32) (v2 : Vec Ideal S1x32 .f32) (v8 : Vec Ideal S2000x32 .f32)
    (p : Fin 2000) (q : Fin 32) :
    k1_pay1 v0 v2 v8 (ix2 p q) = FloatOps.addf (FloatOps.maximumf (FloatOps.addf (v0 (ix2 p q)) (v2 (ix2 (0 : Fin 1) q)))
      (FloatOps.ofBits .f32 0x00000000#32)) (v8 (ix2 p q)) := by
  rw [← broadcastTo_1b_ab_apply (a := 2000) v2 broadcasts_S1x32_S2000x32 p q]
  unfold k1_pay1
  simp only [shapeCast_self]
  rfl

/-- That value times the dropout factor at (p, q). -/
theorem pay2_apply (v0 : Vec Ideal S2000x32 .f32) (v2 : Vec Ideal S1x32 .f32) (v8 v11 : Vec Ideal S2000x32 .f32)
    (p : Fin 2000) (q : Fin 32) :
    k1_pay2 v0 v2 v8 v11 (ix2 p q) = FloatOps.mulf (k1_pay1 v0 v2 v8 (ix2 p q))
      (Scalar.select (FloatOps.cmpf (F := Ideal) .ogt (v11 (ix2 p q)) (FloatOps.ofBits .f32 0x3F000000#32))
        (FloatOps.ofBits .f32 0x40000000#32) (FloatOps.ofBits .f32 0x00000000#32)) := by
  unfold k1_pay2
  simp only [shapeCast_self]
  rfl

/-- agg + b at (p, q) of the output layer's block. -/
theorem pay15_apply (v0 : Vec Ideal S2000x40 .f32) (v2 : Vec Ideal S1x40 .f32) (p : Fin 2000) (q : Fin 40) :
    k15_pay1 v0 v2 (ix2 p q) = FloatOps.addf (v0 (ix2 p q)) (v2 (ix2 (0 : Fin 1) q)) := by
  rw [← broadcastTo_1b_ab_apply (a := 2000) v2 broadcasts_S1x40_S2000x40 p q]
  unfold k15_pay1
  simp only [shapeCast_self]
  rfl

/-! ## The seven hidden layers' bodies are one text -/

/-- Every block is stored and loaded whole: through the rectangle at offsets (0, 0). -/
theorem off_zero : (![0, 0] : Fin 2 → Nat) = fun _ => 0 := funext fun a => by fin_cases a <;> rfl

theorem pay1_3 : @k3_pay1 Ideal _ = k1_pay1 := rfl
theorem pay2_3 : @k3_pay2 Ideal _ = k1_pay2 := rfl
theorem pay1_5 : @k5_pay1 Ideal _ = k1_pay1 := rfl
theorem pay2_5 : @k5_pay2 Ideal _ = k1_pay2 := rfl
theorem pay1_7 : @k7_pay1 Ideal _ = k1_pay1 := rfl
theorem pay2_7 : @k7_pay2 Ideal _ = k1_pay2 := rfl
theorem pay1_9 : @k9_pay1 Ideal _ = k1_pay1 := rfl
theorem pay2_9 : @k9_pay2 Ideal _ = k1_pay2 := rfl
theorem pay1_11 : @k11_pay1 Ideal _ = k1_pay1 := rfl
theorem pay2_11 : @k11_pay2 Ideal _ = k1_pay2 := rfl
theorem pay1_13 : @k13_pay1 Ideal _ = k1_pay1 := rfl
theorem pay2_13 : @k13_pay2 Ideal _ = k1_pay2 := rfl

/-! ## The payloads against the specification

The element i of the whole array lies under the block's element (p, q): its column is q, the block operands at (p, q)
are the arrays at i, and the bias block is the bias row. -/

/-- The residual activation. -/
theorem resid_of_blocks (x0 x1 : Vec Ideal S2000x32 .f32) (x3 : Vec Ideal S1x32 .f32)
    (agg old : (Cert.Spec.Mat 100000 32).Idx → Ideal .f32) (b : (Cert.Spec.Mat 1 32).Idx → Ideal .f32)
    (p : Fin 2000) (q : Fin 32) (i : (Cert.Spec.Mat 100000 32).Idx) (hcol : Cert.Spec.col i = q)
    (h0 : x0 (ix2 p q) = agg i) (h1 : x1 (ix2 p q) = old i) (h3 : x3 (ix2 (0 : Fin 1) q) = b (ix2 (0 : Fin 1) q)) :
    k1_pay1 x0 x3 x1 (ix2 p q) = Cert.Spec.resid 100000 32 agg b old i := by
  rw [pay1_apply, h0, h1, h3]
  subst hcol
  rfl

/-- The masked activation. -/
theorem masked_of_blocks (x0 x1 x2 : Vec Ideal S2000x32 .f32) (x3 : Vec Ideal S1x32 .f32)
    (agg old drop : (Cert.Spec.Mat 100000 32).Idx → Ideal .f32) (b : (Cert.Spec.Mat 1 32).Idx → Ideal .f32)
    (p : Fin 2000) (q : Fin 32) (i : (Cert.Spec.Mat 100000 32).Idx) (hcol : Cert.Spec.col i = q)
    (h0 : x0 (ix2 p q) = agg i) (h1 : x1 (ix2 p q) = old i) (h2 : x2 (ix2 p q) = drop i)
    (h3 : x3 (ix2 (0 : Fin 1) q) = b (ix2 (0 : Fin 1) q)) :
    k1_pay2 x0 x3 x1 x2 (ix2 p q) = Cert.Spec.masked 100000 32 agg b old drop i := by
  rw [pay2_apply, resid_of_blocks x0 x1 x3 agg old b p q i hcol h0 h1 h3, h2]
  rfl

/-- The output layer. -/
theorem biased_of_blocks (x0 : Vec Ideal S2000x40 .f32) (x1 : Vec Ideal S1x40 .f32)
    (agg : (Cert.Spec.Mat 100000 40).Idx → Ideal .f32) (b : (Cert.Spec.Mat 1 40).Idx → Ideal .f32)
    (p : Fin 2000) (q : Fin 40) (i : (Cert.Spec.Mat 100000 40).Idx) (hcol : Cert.Spec.col i = q)
    (h0 : x0 (ix2 p q) = agg i) (h1 : x1 (ix2 (0 : Fin 1) q) = b (ix2 (0 : Fin 1) q)) :
    k15_pay1 x0 x1 (ix2 p q) = Cert.Spec.biased 100000 40 agg b i := by
  rw [pay15_apply, h0, h1]
  subst hcol
  rfl

end Cert.KernelIdeal.ElemBody

end
-- ==== Proof.RegionElem1.lean ====
/-
  Hidden layer, region 1: the two output arrays after all 50 row blocks, each as one function of the arrays the
  region finds.

  The grid is 50 points; point t handles rows 2000 t … 2000 t + 1999 of every [100000, 32] array and the whole bias
  row. At point t the body leaves in each output block the specification's function of the input blocks, which are the
  arrays' rows at the same offsets; the 50 blocks cover all 100000 rows, row r lying in the block of point r / 2000.
-/
import proofs.«148016_j80401787781528_2_alg».proof.Proof.Gen.KernelIdeal.Frame
import proofs.«148016_j80401787781528_2_alg».proof.Proof.ElemBody
import proofs.«148016_j80401787781528_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices over the grid: the five row-blocked windows are at block (t, 0), the bias row at (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The masked activation (output window 4) -/

/-- What point t writes back is block t of the masked activation of the arrays the region finds. -/
theorem flushed1_4 (c : Dev nD) (t : Fin cfg1.N) :
    (dat1 (F := Ideal) V c).flushed 4 t = ((cfg1.win 4).blk t).view.read (Elt Ideal)
      (Cert.Spec.masked 100000 32 (V c main_v70) (V c main_v73) (V c main_v56) (V c main_v72)) := by
  show (cfg1.win 4).cut (grid1.coords t) ((dat1 (F := Ideal) V c).after 4 t) = _
  rw [after1_4]
  unfold out1_4
  rw [View.canon_unit_zero ElemBody.off_zero]
  simp only [View.ld_unit_zero (S := S2000x32) ElemBody.off_zero, View.ld_unit_zero (S := S1x32) ElemBody.off_zero]
  obtain ⟨e00, e01, e10, e11, e20, e21, e30, e31, e40, e41, e50, e51⟩ := idx1 t
  funext j
  obtain ⟨p, q, rfl⟩ : ∃ (p : Fin 2000) (q : Fin 32), j = ix2 p q := ⟨j 0, j 1, eq_ix2 j⟩
  refine ElemBody.masked_of_blocks _ _ _ _ _ _ _ _ p q _ ?_ ?_ ?_ ?_ ?_
  · apply Fin.ext
    show win1_4.index t (1 : Fin 2) * 32 + 1 * q.val = q.val
    omega
  · show V c main_v70 (((cfg1.win 0).blk t).view.emb (ix2 p q)) = V c main_v70 (((cfg1.win 4).blk t).view.emb (ix2 p q))
    refine congrArg _ (funext fun a => Fin.ext ?_)
    match a with
    | ⟨0, _⟩ => show win1_0.index t (0 : Fin 2) * 2000 + 1 * p.val = win1_4.index t (0 : Fin 2) * 2000 + 1 * p.val; omega
    | ⟨1, _⟩ => show win1_0.index t (1 : Fin 2) * 32 + 1 * q.val = win1_4.index t (1 : Fin 2) * 32 + 1 * q.val; omega
  · show V c main_v56 (((cfg1.win 1).blk t).view.emb (ix2 p q)) = V c main_v56 (((cfg1.win 4).blk t).view.emb (ix2 p q))
    refine congrArg _ (funext fun a => Fin.ext ?_)
    match a with
    | ⟨0, _⟩ => show win1_1.index t (0 : Fin 2) * 2000 + 1 * p.val = win1_4.index t (0 : Fin 2) * 2000 + 1 * p.val; omega
    | ⟨1, _⟩ => show win1_1.index t (1 : Fin 2) * 32 + 1 * q.val = win1_4.index t (1 : Fin 2) * 32 + 1 * q.val; omega
  · show V c main_v72 (((cfg1.win 2).blk t).view.emb (ix2 p q)) = V c main_v72 (((cfg1.win 4).blk t).view.emb (ix2 p q))
    refine congrArg _ (funext fun a => Fin.ext ?_)
    match a with
    | ⟨0, _⟩ => show win1_2.index t (0 : Fin 2) * 2000 + 1 * p.val = win1_4.index t (0 : Fin 2) * 2000 + 1 * p.val; omega
    | ⟨1, _⟩ => show win1_2.index t (1 : Fin 2) * 32 + 1 * q.val = win1_4.index t (1 : Fin 2) * 32 + 1 * q.val; omega
  · show V c main_v73 (((cfg1.win 3).blk t).view.emb (ix2 (0 : Fin 1) q)) = V c main_v73 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 32 + 1 * q.val = q.val; omega

/-- An index of the array is in point t's block iff each coordinate is in the block's range on its axis. -/
theorem mem_blk1_4 (t : Fin cfg1.N) (i : S100000x32.Idx) :
    i ∈ ((cfg1.win 4).blk t).view.set ↔ ∀ a : Fin 2, win1_4.index t a * S2000x32.size a ≤ (i a).val
      ∧ (i a).val < win1_4.index t a * S2000x32.size a + S2000x32.size a := by
  show i ∈ ((View.whole main_v74_0).slice (win1_4.rect t)).set ↔ _
  rw [View.set_slice_whole, Rect.mem_set_unit]
  exact Iff.rfl

/-- Row r is in the block of point r / 2000. -/
theorem covered1_4 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨-, -, -, -, -, -, -, -, e40, e41, -, -⟩ := idx1 t
  refine ⟨t, flush1_4 t, ?_⟩
  rw [mem_blk1_4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 32 ≤ (i 1).val ∧ (i 1).val < win1_4.index t (1 : Fin 2) * 32 + 32; omega

/-- The masked activation's array after the region. -/
theorem masked1 (c : Dev nD) :
    (dat1 (F := Ideal) V c).arrAt 4 cfg1.N = Cert.Spec.masked 100000 32 (V c main_v70) (V c main_v73) (V c main_v56) (V c main_v72) :=
  (dat1 (F := Ideal) V c).arrAt_eq_of_cover 4 _ (fun t _ => flushed1_4 V c t) covered1_4

/-! ## The residual activation (output window 5) -/

/-- What point t writes back is block t of the residual activation of the arrays the region finds. -/
theorem flushed1_5 (c : Dev nD) (t : Fin cfg1.N) :
    (dat1 (F := Ideal) V c).flushed 5 t = ((cfg1.win 5).blk t).view.read (Elt Ideal)
      (Cert.Spec.resid 100000 32 (V c main_v70) (V c main_v73) (V c main_v56)) := by
  show (cfg1.win 5).cut (grid1.coords t) ((dat1 (F := Ideal) V c).after 5 t) = _
  rw [after1_5]
  unfold out1_5
  rw [View.canon_unit_zero ElemBody.off_zero]
  simp only [View.ld_unit_zero (S := S2000x32) ElemBody.off_zero, View.ld_unit_zero (S := S1x32) ElemBody.off_zero]
  obtain ⟨e00, e01, e10, e11, e20, e21, e30, e31, e40, e41, e50, e51⟩ := idx1 t
  funext j
  obtain ⟨p, q, rfl⟩ : ∃ (p : Fin 2000) (q : Fin 32), j = ix2 p q := ⟨j 0, j 1, eq_ix2 j⟩
  refine ElemBody.resid_of_blocks _ _ _ _ _ _ p q _ ?_ ?_ ?_ ?_
  · apply Fin.ext
    show win1_5.index t (1 : Fin 2) * 32 + 1 * q.val = q.val
    omega
  · show V c main_v70 (((cfg1.win 0).blk t).view.emb (ix2 p q)) = V c main_v70 (((cfg1.win 5).blk t).view.emb (ix2 p q))
    refine congrArg _ (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 32 + 1 * q.val = win1_5.index t (1 : Fin 2) * 32 + 1 * q.val; omega
  · show V c main_v56 (((cfg1.win 1).blk t).view.emb (ix2 p q)) = V c main_v56 (((cfg1.win 5).blk t).view.emb (ix2 p q))
    refine congrArg _ (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 32 + 1 * q.val = win1_5.index t (1 : Fin 2) * 32 + 1 * q.val; omega
  · show V c main_v73 (((cfg1.win 3).blk t).view.emb (ix2 (0 : Fin 1) q)) = V c main_v73 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 32 + 1 * q.val = q.val; omega

/-- An index of the array is in point t's block iff each coordinate is in the block's range on its axis. -/
theorem mem_blk1_5 (t : Fin cfg1.N) (i : S100000x32.Idx) :
    i ∈ ((cfg1.win 5).blk t).view.set ↔ ∀ a : Fin 2, win1_5.index t a * S2000x32.size a ≤ (i a).val
      ∧ (i a).val < win1_5.index t a * S2000x32.size a + S2000x32.size a := by
  show i ∈ ((View.whole main_v74_1).slice (win1_5.rect t)).set ↔ _
  rw [View.set_slice_whole, Rect.mem_set_unit]
  exact Iff.rfl

/-- Row r is in the block of point r / 2000. -/
theorem covered1_5 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨-, -, -, -, -, -, -, -, -, -, e50, e51⟩ := idx1 t
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 32 ≤ (i 1).val ∧ (i 1).val < win1_5.index t (1 : Fin 2) * 32 + 32; omega

/-- The residual activation's array after the region. -/
theorem resid1 (c : Dev nD) :
    (dat1 (F := Ideal) V c).arrAt 5 cfg1.N = Cert.Spec.resid 100000 32 (V c main_v70) (V c main_v73) (V c main_v56) :=
  (dat1 (F := Ideal) V c).arrAt_eq_of_cover 5 _ (fun t _ => flushed1_5 V c t) covered1_5

end Cert.KernelIdeal.RegionValue

end
-- ==== Proof.Layer0.lean ====
/-
  Layer 0 of the idealized kernel program: its product region, the shared aggregation, its elementwise region.
  From what the layer finds, its two outputs are the reference's masked and residual activations of the same layer.
-/
import proofs.«148016_j80401787781528_2_alg».proof.Proof.Glue
import proofs.«148016_j80401787781528_2_alg».proof.Proof.Prefix
import proofs.«148016_j80401787781528_2_alg».proof.Proof.Keep
import proofs.«148016_j80401787781528_2_alg».proof.Proof.RegionMat0
import proofs.«148016_j80401787781528_2_alg».proof.Proof.RegionElem1

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The product region: its output array is the reference's product of the same layer. -/
theorem prod0 (c : Dev nD) :
    W4 m ρ c (Proc.devRef .tc main_v57) = Cert.ReferenceIdeal.Read.val_main_v56 (F := Ideal) (m ((c : Thread nD τ).loc main_arg0)) (m ((c : Thread nD τ).loc main_arg3)) := by
  refine (W4_arr m ρ c 2).trans ((RegionValue.prod0 (V3 m ρ) c).trans ?_)
  show Cert.Spec.prod 100000 128 32 (W3 m ρ c (Proc.devRef .tc main_arg0)) (W3 m ρ c (Proc.devRef .tc main_arg3)) = _
  rw [Prefix.arg0 m ρ c, Prefix.arg3 m ρ c]
  exact (Cert.Glue.ref_prod0 _ _).symm

set_option maxHeartbeats 16000000 in
/-- The stretch between the two regions: the shared aggregation of the product, the layer's dropout draws, its bias as a
    row; the residual carried in is untouched. -/
theorem stretch0 (c : Dev nD) :
    W5 m ρ c (Proc.devRef .tc main_v70) = Cert.Glue.agg32 (W4 m ρ c (Proc.devRef .tc main_v3)) (W4 m ρ c (Proc.devRef .tc main_v6)) (W4 m ρ c (Proc.devRef .tc main_v31)) (W4 m ρ c (Proc.devRef .tc main_v57))
    ∧ W5 m ρ c (Proc.devRef .tc main_v72) = Cert.ReferenceIdeal.Read.val_main_v77 (F := Ideal) (W4 m ρ c (Proc.devRef .tc main_arg2))
    ∧ W5 m ρ c (Proc.devRef .tc main_v73) = Cert.Glue.row32 (W4 m ρ c (Proc.devRef .tc main_arg4))
    ∧ W5 m ρ c (Proc.devRef .tc main_v56) = W4 m ρ c (Proc.devRef .tc main_v56) := by
  refine ⟨?_, ?_, ?_, ?_⟩
  · dsimp only [W5, hostOps1]; after_results_simp; rfl
  · dsimp only [W5, hostOps1]; after_results_simp; rfl
  · dsimp only [W5, hostOps1]; after_results_simp; exact Cert.Glue.rowcast32 _ _
  · dsimp only [W5, hostOps1]; after_results_simp

/-- The layer: the elementwise region's two outputs are the reference's masked and residual activations. -/
theorem layer0 (c : Dev nD) :
    W6 m ρ c (Proc.devRef .tc main_v74_0) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ W6 m ρ c (Proc.devRef .tc main_v74_1) = Cert.ReferenceIdeal.Read.val_main_v75 (F := Ideal) (m ((c : Thread nD τ).loc main_arg0)) (m ((c : Thread nD τ).loc main_arg1)) (m ((c : Thread nD τ).loc main_arg3)) (m ((c : Thread nD τ).loc main_arg4)) := by
  obtain ⟨hAgg, hDrop, hRow, hOld⟩ := stretch0 m ρ c
  have hH := prod0 m ρ c
  have e3 : W4 m ρ c (Proc.devRef .tc main_v3) = Cert.ReferenceIdeal.Read.val_main_v3 (F := Ideal) (m ((c : Thread nD τ).loc main_arg1)) := (Keep.at4 m ρ c main_v3 (by decide)).trans (Prefix.v3 m ρ c)
  have e6 : W4 m ρ c (Proc.devRef .tc main_v6) = Cert.ReferenceIdeal.Read.val_main_v6 (F := Ideal) (m ((c : Thread nD τ).loc main_arg1)) := (Keep.at4 m ρ c main_v6 (by decide)).trans (Prefix.v6 m ρ c)
  have e31 : W4 m ρ c (Proc.devRef .tc main_v31) = Cert.ReferenceIdeal.Read.val_main_v31 (F := Ideal) (m ((c : Thread nD τ).loc main_arg1)) := (Keep.at4 m ρ c main_v31 (by decide)).trans (Prefix.v31 m ρ c)
  have e2 : W4 m ρ c (Proc.devRef .tc main_arg2) = (m ((c : Thread nD τ).loc main_arg2)) := (Keep.at4 m ρ c main_arg2 (by decide)).trans (Prefix.arg2 m ρ c)
  have eb : W4 m ρ c (Proc.devRef .tc main_arg4) = (m ((c : Thread nD τ).loc main_arg4)) := (Keep.at4 m ρ c main_arg4 (by decide)).trans (Prefix.arg4 m ρ c)
  have eo : W5 m ρ c (Proc.devRef .tc main_v56) = Cert.ReferenceIdeal.Read.val_main_v74 (F := Ideal) := (Keep.at5 m ρ c main_v56 (by decide)).trans (Prefix.v56 m ρ c)
  rw [e3, e6, e31, hH] at hAgg
  rw [e2] at hDrop
  rw [eb] at hRow
  have hM : W6 m ρ c (Proc.devRef .tc main_v74_0) = Cert.Spec.masked 100000 32 (W5 m ρ c (Proc.devRef .tc main_v70)) (W5 m ρ c (Proc.devRef .tc main_v73)) (W5 m ρ c (Proc.devRef .tc main_v56)) (W5 m ρ c (Proc.devRef .tc main_v72)) :=
    (W6_arr m ρ c 4).trans (RegionValue.masked1 (V5 m ρ) c)
  have hR : W6 m ρ c (Proc.devRef .tc main_v74_1) = Cert.Spec.resid 100000 32 (W5 m ρ c (Proc.devRef .tc main_v70)) (W5 m ρ c (Proc.devRef .tc main_v73)) (W5 m ρ c (Proc.devRef .tc main_v56)) :=
    (W6_arr m ρ c 5).trans (RegionValue.resid1 (V5 m ρ) c)
  rw [hAgg, hRow, eo, hDrop] at hM
  rw [hAgg, hRow, eo] at hR
  constructor
  · rw [hM, Cert.Glue.ref_cur0, Cert.Glue.ref_agg0]
  · rw [hR, Cert.Glue.ref_old0, Cert.Glue.ref_agg0]

end Cert.KernelIdeal.Layers

end
-- ==== Proof.RegionMat2.lean ====
/-
  A hidden layer's feature product (the first 32-wide one) as one function of the arrays its region finds.

  The region runs the 32-wide matrix-product body at 10 grid points.  At point t the left operand's block is rows
  10000 t … 10000 t + 9999 of the layer's input X, the 32 × 32 weight W is fetched whole, and the output's block is the
  same rows of the result.  So what point t writes back is the block of rows 10000 t … of the full product X · W, every
  row r is in the block of point r / 10000, and after the last point the output array holds X · W.
-/
import proofs.«148016_j80401787781528_2_alg».proof.Proof.MatBody
import proofs.«148016_j80401787781528_2_alg».proof.Proof.Spec
import proofs.«148016_j80401787781528_2_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten grid points: the left operand's and the output's row block is the point
    itself, their column block is 0, and the weight's block is (0, 0) at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the left operand's block at point t is row 10000 t + p of the left matrix. -/
theorem read2_left (c : Dev nD) (t : Fin cfg2.N) (p : Fin 10000) (k : Fin 32) (r : Fin 100000)
    (hr : r.val = t.val * 10000 + p.val) :
    iblk2 V c 0 t (ix2 p k) = V c main_v74_0 (ix2 r k) := by
  obtain ⟨e0, e1, -⟩ := idx2 t
  show V c main_v74_0 (((cfg2.win 0).blk t).view.emb (ix2 p k)) = V c main_v74_0 (ix2 r k)
  refine congrArg (V c main_v74_0) (funext fun a => Fin.ext ?_)
  match a with
  | ⟨0, _⟩ => show win2_0.index t (0 : Fin 2) * 10000 + 1 * p.val = r.val; omega
  | ⟨1, _⟩ => show win2_0.index t (1 : Fin 2) * 32 + 1 * k.val = k.val; omega

/-- The weight's block at every point is the weight. -/
theorem read2_right (c : Dev nD) (t : Fin cfg2.N) (k : Fin 32) (q q' : Fin 32) (hq : q'.val = q.val) :
    iblk2 V c 1 t (ix2 k q) = V c main_v33 (ix2 k q') := by
  obtain ⟨-, -, e2, e3, -⟩ := idx2 t
  show V c main_v33 (((cfg2.win 1).blk t).view.emb (ix2 k q)) = V c main_v33 (ix2 k q')
  refine congrArg (V c main_v33) (funext fun a => Fin.ext ?_)
  match a with
  | ⟨0, _⟩ => show win2_1.index t (0 : Fin 2) * 32 + 1 * k.val = k.val; omega
  | ⟨1, _⟩ => show win2_1.index t (1 : Fin 2) * 32 + 1 * q.val = q'.val; omega

/-- What point t writes back is its block of the full product. -/
theorem flushed2 (c : Dev nD) (t : Fin cfg2.N) :
    (dat2 (F := Ideal) V c).flushed 2 t
      = ((cfg2.win 2).blk t).view.read (Elt Ideal) (Cert.Spec.prod 100000 32 32 (V c main_v74_0) (V c main_v33)) := by
  show (cfg2.win 2).cut (grid2.coords t) ((dat2 V c).after 2 t) = _
  rw [after2_2]
  unfold out2_2
  rw [View.canon_unit_zero offsets_zero]
  simp only [View.ld_unit_zero (S := S10000x32) offsets_zero, View.ld_unit_zero (S := S32x32) offsets_zero]
  obtain ⟨-, -, -, -, e4, e5⟩ := idx2 t
  funext j
  have hj0 : (j 0).val < 10000 := (j 0).isLt
  have hj1 : (j 1).val < 32 := (j 1).isLt
  have hx : (cfg2.win 2).xinj (grid2.coords t) j = ix2 (⟨(j 0).val, hj0⟩ : Fin 10000) (⟨(j 1).val, hj1⟩ : Fin 32) :=
    funext fun a => by
      match a with
      | ⟨0, _⟩ => rfl
      | ⟨1, _⟩ => rfl
  show k2_pay1 (iblk2 V c 0 t) (iblk2 V c 1 t) ((cfg2.win 2).xinj (grid2.coords t) j)
    = Cert.Spec.prod 100000 32 32 (V c main_v74_0) (V c main_v33) (((cfg2.win 2).blk t).view.emb j)
  rw [hx]
  refine pay2_entry _ _ _ _ _ _ _ (fun k => ?_) (fun k => ?_)
  · refine read2_left V c t _ k _ ?_
    show win2_2.index t (0 : Fin 2) * 10000 + 1 * (j 0).val = t.val * 10000 + (j 0).val
    omega
  · refine read2_right V c t k _ _ ?_
    show win2_2.index t (1 : Fin 2) * 32 + 1 * (j 1).val = (j 1).val
    omega

/-- An index of the output array is in point t's block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v75).slice (win2_2.rect t)).set ↔ _
  rw [View.set_slice_whole, Rect.mem_set_unit]
  exact Iff.rfl

/-- Every index of the output array is in the block of the point its row falls in. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ : ∃ t : Fin cfg2.N, t.val = (i 0).val / 10000 :=
    ⟨⟨(i 0).val / 10000, by show (i 0).val / 10000 < 10; omega⟩, rfl⟩
  obtain ⟨-, -, -, -, e4, e5⟩ := idx2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 32 ≤ (i 1).val ∧ (i 1).val < win2_2.index t (1 : Fin 2) * 32 + 32
    omega

/-- After the region the output array holds the product of the left matrix and the weight. -/
theorem prod2 (c : Dev nD) :
    (dat2 (F := Ideal) V c).arrAt 2 cfg2.N = Cert.Spec.prod 100000 32 32 (V c main_v74_0) (V c main_v33) :=
  (dat2 V c).arrAt_eq_of_cover 2 _ (fun t _ => flushed2 V c t) cover2

end Cert.KernelIdeal.RegionValue

end
-- ==== Proof.RegionElem3.lean ====
/-
  Hidden layer, region 3: the two output arrays after all 50 row blocks, each as one function of the arrays the
  region finds.

  The grid is 50 points; point t handles rows 2000 t … 2000 t + 1999 of every [100000, 32] array and the whole bias
  row. At point t the body leaves in each output block the specification's function of the input blocks, which are the
  arrays' rows at the same offsets; the 50 blocks cover all 100000 rows, row r lying in the block of point r / 2000.
-/
import proofs.«148016_j80401787781528_2_alg».proof.Proof.Gen.KernelIdeal.Frame
import proofs.«148016_j80401787781528_2_alg».proof.Proof.ElemBody
import proofs.«148016_j80401787781528_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices over the grid: the five row-blocked windows are at block (t, 0), the bias row at (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-! ## The masked activation (output window 4) -/

/-- What point t writes back is block t of the masked activation of the arrays the region finds. -/
theorem flushed3_4 (c : Dev nD) (t : Fin cfg3.N) :
    (dat3 (F := Ideal) V c).flushed 4 t = ((cfg3.win 4).blk t).view.read (Elt Ideal)
      (Cert.Spec.masked 100000 32 (V c main_v88) (V c main_v91) (V c main_v74_1) (V c main_v90)) := by
  show (cfg3.win 4).cut (grid3.coords t) ((dat3 (F := Ideal) V c).after 4 t) = _
  rw [after3_4]
  unfold out3_4
  rw [View.canon_unit_zero ElemBody.off_zero]
  simp only [View.ld_unit_zero (S := S2000x32) ElemBody.off_zero, View.ld_unit_zero (S := S1x32) ElemBody.off_zero]
  rw [ElemBody.pay2_3]
  obtain ⟨e00, e01, e10, e11, e20, e21, e30, e31, e40, e41, e50, e51⟩ := idx3 t
  funext j
  obtain ⟨p, q, rfl⟩ : ∃ (p : Fin 2000) (q : Fin 32), j = ix2 p q := ⟨j 0, j 1, eq_ix2 j⟩
  refine ElemBody.masked_of_blocks _ _ _ _ _ _ _ _ p q _ ?_ ?_ ?_ ?_ ?_
  · apply Fin.ext
    show win3_4.index t (1 : Fin 2) * 32 + 1 * q.val = q.val
    omega
  · show V c main_v88 (((cfg3.win 0).blk t).view.emb (ix2 p q)) = V c main_v88 (((cfg3.win 4).blk t).view.emb (ix2 p q))
    refine congrArg _ (funext fun a => Fin.ext ?_)
    match a with
    | ⟨0, _⟩ => show win3_0.index t (0 : Fin 2) * 2000 + 1 * p.val = win3_4.index t (0 : Fin 2) * 2000 + 1 * p.val; omega
    | ⟨1, _⟩ => show win3_0.index t (1 : Fin 2) * 32 + 1 * q.val = win3_4.index t (1 : Fin 2) * 32 + 1 * q.val; omega
  · show V c main_v74_1 (((cfg3.win 1).blk t).view.emb (ix2 p q)) = V c main_v74_1 (((cfg3.win 4).blk t).view.emb (ix2 p q))
    refine congrArg _ (funext fun a => Fin.ext ?_)
    match a with
    | ⟨0, _⟩ => show win3_1.index t (0 : Fin 2) * 2000 + 1 * p.val = win3_4.index t (0 : Fin 2) * 2000 + 1 * p.val; omega
    | ⟨1, _⟩ => show win3_1.index t (1 : Fin 2) * 32 + 1 * q.val = win3_4.index t (1 : Fin 2) * 32 + 1 * q.val; omega
  · show V c main_v90 (((cfg3.win 2).blk t).view.emb (ix2 p q)) = V c main_v90 (((cfg3.win 4).blk t).view.emb (ix2 p q))
    refine congrArg _ (funext fun a => Fin.ext ?_)
    match a with
    | ⟨0, _⟩ => show win3_2.index t (0 : Fin 2) * 2000 + 1 * p.val = win3_4.index t (0 : Fin 2) * 2000 + 1 * p.val; omega
    | ⟨1, _⟩ => show win3_2.index t (1 : Fin 2) * 32 + 1 * q.val = win3_4.index t (1 : Fin 2) * 32 + 1 * q.val; omega
  · show V c main_v91 (((cfg3.win 3).blk t).view.emb (ix2 (0 : Fin 1) q)) = V c main_v91 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 32 + 1 * q.val = q.val; omega

/-- An index of the array is in point t's block iff each coordinate is in the block's range on its axis. -/
theorem mem_blk3_4 (t : Fin cfg3.N) (i : S100000x32.Idx) :
    i ∈ ((cfg3.win 4).blk t).view.set ↔ ∀ a : Fin 2, win3_4.index t a * S2000x32.size a ≤ (i a).val
      ∧ (i a).val < win3_4.index t a * S2000x32.size a + S2000x32.size a := by
  show i ∈ ((View.whole main_v92_0).slice (win3_4.rect t)).set ↔ _
  rw [View.set_slice_whole, Rect.mem_set_unit]
  exact Iff.rfl

/-- Row r is in the block of point r / 2000. -/
theorem covered3_4 (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  obtain ⟨t, ht⟩ : ∃ t : Fin cfg3.N, t.val = (i 0).val / 2000 :=
    ⟨⟨(i 0).val / 2000, by show (i 0).val / 2000 < grid3.N; rw [N_3]; omega⟩, rfl⟩
  obtain ⟨-, -, -, -, -, -, -, -, e40, e41, -, -⟩ := idx3 t
  refine ⟨t, flush3_4 t, ?_⟩
  rw [mem_blk3_4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 32 ≤ (i 1).val ∧ (i 1).val < win3_4.index t (1 : Fin 2) * 32 + 32; omega

/-- The masked activation's array after the region. -/
theorem masked3 (c : Dev nD) :
    (dat3 (F := Ideal) V c).arrAt 4 cfg3.N = Cert.Spec.masked 100000 32 (V c main_v88) (V c main_v91) (V c main_v74_1) (V c main_v90) :=
  (dat3 (F := Ideal) V c).arrAt_eq_of_cover 4 _ (fun t _ => flushed3_4 V c t) covered3_4

/-! ## The residual activation (output window 5) -/

/-- What point t writes back is block t of the residual activation of the arrays the region finds. -/
theorem flushed3_5 (c : Dev nD) (t : Fin cfg3.N) :
    (dat3 (F := Ideal) V c).flushed 5 t = ((cfg3.win 5).blk t).view.read (Elt Ideal)
      (Cert.Spec.resid 100000 32 (V c main_v88) (V c main_v91) (V c main_v74_1)) := by
  show (cfg3.win 5).cut (grid3.coords t) ((dat3 (F := Ideal) V c).after 5 t) = _
  rw [after3_5]
  unfold out3_5
  rw [View.canon_unit_zero ElemBody.off_zero]
  simp only [View.ld_unit_zero (S := S2000x32) ElemBody.off_zero, View.ld_unit_zero (S := S1x32) ElemBody.off_zero]
  rw [ElemBody.pay1_3]
  obtain ⟨e00, e01, e10, e11, e20, e21, e30, e31, e40, e41, e50, e51⟩ := idx3 t
  funext j
  obtain ⟨p, q, rfl⟩ : ∃ (p : Fin 2000) (q : Fin 32), j = ix2 p q := ⟨j 0, j 1, eq_ix2 j⟩
  refine ElemBody.resid_of_blocks _ _ _ _ _ _ p q _ ?_ ?_ ?_ ?_
  · apply Fin.ext
    show win3_5.index t (1 : Fin 2) * 32 + 1 * q.val = q.val
    omega
  · show V c main_v88 (((cfg3.win 0).blk t).view.emb (ix2 p q)) = V c main_v88 (((cfg3.win 5).blk t).view.emb (ix2 p q))
    refine congrArg _ (funext fun a => Fin.ext ?_)
    match a with
    | ⟨0, _⟩ => show win3_0.index t (0 : Fin 2) * 2000 + 1 * p.val = win3_5.index t (0 : Fin 2) * 2000 + 1 * p.val; omega
    | ⟨1, _⟩ => show win3_0.index t (1 : Fin 2) * 32 + 1 * q.val = win3_5.index t (1 : Fin 2) * 32 + 1 * q.val; omega
  · show V c main_v74_1 (((cfg3.win 1).blk t).view.emb (ix2 p q)) = V c main_v74_1 (((cfg3.win 5).blk t).view.emb (ix2 p q))
    refine congrArg _ (funext fun a => Fin.ext ?_)
    match a with
    | ⟨0, _⟩ => show win3_1.index t (0 : Fin 2) * 2000 + 1 * p.val = win3_5.index t (0 : Fin 2) * 2000 + 1 * p.val; omega
    | ⟨1, _⟩ => show win3_1.index t (1 : Fin 2) * 32 + 1 * q.val = win3_5.index t (1 : Fin 2) * 32 + 1 * q.val; omega
  · show V c main_v91 (((cfg3.win 3).blk t).view.emb (ix2 (0 : Fin 1) q)) = V c main_v91 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 32 + 1 * q.val = q.val; omega

/-- An index of the array is in point t's block iff each coordinate is in the block's range on its axis. -/
theorem mem_blk3_5 (t : Fin cfg3.N) (i : S100000x32.Idx) :
    i ∈ ((cfg3.win 5).blk t).view.set ↔ ∀ a : Fin 2, win3_5.index t a * S2000x32.size a ≤ (i a).val
      ∧ (i a).val < win3_5.index t a * S2000x32.size a + S2000x32.size a := by
  show i ∈ ((View.whole main_v92_1).slice (win3_5.rect t)).set ↔ _
  rw [View.set_slice_whole, Rect.mem_set_unit]
  exact Iff.rfl

/-- Row r is in the block of point r / 2000. -/
theorem covered3_5 (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  obtain ⟨t, ht⟩ : ∃ t : Fin cfg3.N, t.val = (i 0).val / 2000 :=
    ⟨⟨(i 0).val / 2000, by show (i 0).val / 2000 < grid3.N; rw [N_3]; omega⟩, rfl⟩
  obtain ⟨-, -, -, -, -, -, -, -, -, -, e50, e51⟩ := idx3 t
  refine ⟨t, flush3_5 t, ?_⟩
  rw [mem_blk3_5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 32 ≤ (i 1).val ∧ (i 1).val < win3_5.index t (1 : Fin 2) * 32 + 32; omega

/-- The residual activation's array after the region. -/
theorem resid3 (c : Dev nD) :
    (dat3 (F := Ideal) V c).arrAt 5 cfg3.N = Cert.Spec.resid 100000 32 (V c main_v88) (V c main_v91) (V c main_v74_1) :=
  (dat3 (F := Ideal) V c).arrAt_eq_of_cover 5 _ (fun t _ => flushed3_5 V c t) covered3_5

end Cert.KernelIdeal.RegionValue

end
-- ==== Proof.Layer1.lean ====
/-
  Layer 1 of the idealized kernel program: its product region, the shared aggregation, its elementwise region.
  From what the layer finds, its two outputs are the reference's masked and residual activations of the same layer.
-/
import proofs.«148016_j80401787781528_2_alg».proof.Proof.Glue
import proofs.«148016_j80401787781528_2_alg».proof.Proof.Prefix
import proofs.«148016_j80401787781528_2_alg».proof.Proof.Keep
import proofs.«148016_j80401787781528_2_alg».proof.Proof.RegionMat2
import proofs.«148016_j80401787781528_2_alg».proof.Proof.RegionElem3

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The product region: its output array is the reference's product of the same layer. -/
theorem prod1 (c : Dev nD)
    (hcur : W6 m ρ c (Proc.devRef .tc main_v74_0) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W7 m ρ c (Proc.devRef .tc main_v75) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((RegionValue.prod2 (V6 m ρ) c).trans ?_)
  show Cert.Spec.prod 100000 32 32 (W6 m ρ c (Proc.devRef .tc main_v74_0)) (W6 m ρ c (Proc.devRef .tc main_v33)) = _
  rw [hcur, Keep.at6 m ρ c main_v33 (by decide), Prefix.v33 m ρ c]
  exact (Cert.Glue.ref_prod1 _ _ _ _ _ _).symm

set_option maxHeartbeats 16000000 in
/-- The stretch between the two regions: the shared aggregation of the product, the layer's dropout draws, its bias as a
    row; the residual carried in is untouched. -/
theorem stretch1 (c : Dev nD) :
    W8 m ρ c (Proc.devRef .tc main_v88) = Cert.Glue.agg32 (W7 m ρ c (Proc.devRef .tc main_v3)) (W7 m ρ c (Proc.devRef .tc main_v6)) (W7 m ρ c (Proc.devRef .tc main_v31)) (W7 m ρ c (Proc.devRef .tc main_v75))
    ∧ W8 m ρ c (Proc.devRef .tc main_v90) = Cert.ReferenceIdeal.Read.val_main_v102 (F := Ideal) (W7 m ρ c (Proc.devRef .tc main_arg2))
    ∧ W8 m ρ c (Proc.devRef .tc main_v91) = Cert.Glue.row32 (W7 m ρ c (Proc.devRef .tc main_v45))
    ∧ W8 m ρ c (Proc.devRef .tc main_v74_1) = W7 m ρ c (Proc.devRef .tc main_v74_1) := by
  refine ⟨?_, ?_, ?_, ?_⟩
  · dsimp only [W8, hostOps3]; after_results_simp; rfl
  · dsimp only [W8, hostOps3]; after_results_simp; rfl
  · dsimp only [W8, hostOps3]; after_results_simp; exact Cert.Glue.rowcast32 _ _
  · dsimp only [W8, hostOps3]; after_results_simp

/-- The layer: the elementwise region's two outputs are the reference's masked and residual activations. -/
theorem layer1 (c : Dev nD)
    (hcur : W6 m ρ c (Proc.devRef .tc main_v74_0) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (hold : W6 m ρ c (Proc.devRef .tc main_v74_1) = Cert.ReferenceIdeal.Read.val_main_v75 (F := Ideal) (m ((c : Thread nD τ).loc main_arg0)) (m ((c : Thread nD τ).loc main_arg1)) (m ((c : Thread nD τ).loc main_arg3)) (m ((c : Thread nD τ).loc main_arg4))) :
    W9 m ρ c (Proc.devRef .tc main_v92_0) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ W9 m ρ c (Proc.devRef .tc main_v92_1) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨hAgg, hDrop, hRow, hOld⟩ := stretch1 m ρ c
  have hH := prod1 m ρ c hcur
  have e3 : W7 m ρ c (Proc.devRef .tc main_v3) = Cert.ReferenceIdeal.Read.val_main_v3 (F := Ideal) (m ((c : Thread nD τ).loc main_arg1)) := (Keep.at7 m ρ c main_v3 (by decide)).trans (Prefix.v3 m ρ c)
  have e6 : W7 m ρ c (Proc.devRef .tc main_v6) = Cert.ReferenceIdeal.Read.val_main_v6 (F := Ideal) (m ((c : Thread nD τ).loc main_arg1)) := (Keep.at7 m ρ c main_v6 (by decide)).trans (Prefix.v6 m ρ c)
  have e31 : W7 m ρ c (Proc.devRef .tc main_v31) = Cert.ReferenceIdeal.Read.val_main_v31 (F := Ideal) (m ((c : Thread nD τ).loc main_arg1)) := (Keep.at7 m ρ c main_v31 (by decide)).trans (Prefix.v31 m ρ c)
  have e2 : W7 m ρ c (Proc.devRef .tc main_arg2) = (m ((c : Thread nD τ).loc main_arg2)) := (Keep.at7 m ρ c main_arg2 (by decide)).trans (Prefix.arg2 m ρ c)
  have eb : W7 m ρ c (Proc.devRef .tc main_v45) = Cert.ReferenceIdeal.Read.val_main_v45 (F := Ideal) (m ((c : Thread nD τ).loc main_arg6)) := (Keep.at7 m ρ c main_v45 (by decide)).trans (Prefix.v45 m ρ c)
  have eo : W8 m ρ c (Proc.devRef .tc main_v74_1) = Cert.ReferenceIdeal.Read.val_main_v75 (F := Ideal) (m ((c : Thread nD τ).loc main_arg0)) (m ((c : Thread nD τ).loc main_arg1)) (m ((c : Thread nD τ).loc main_arg3)) (m ((c : Thread nD τ).loc main_arg4)) := hOld.trans ((Keep.region2 m ρ c main_v74_1 (by decide)).trans hold)
  rw [e3, e6, e31, hH] at hAgg
  rw [e2] at hDrop
  rw [eb] at hRow
  have hM : W9 m ρ c (Proc.devRef .tc main_v92_0) = Cert.Spec.masked 100000 32 (W8 m ρ c (Proc.devRef .tc main_v88)) (W8 m ρ c (Proc.devRef .tc main_v91)) (W8 m ρ c (Proc.devRef .tc main_v74_1)) (W8 m ρ c (Proc.devRef .tc main_v90)) :=
    (W9_arr m ρ c 4).trans (RegionValue.masked3 (V8 m ρ) c)
  have hR : W9 m ρ c (Proc.devRef .tc main_v92_1) = Cert.Spec.resid 100000 32 (W8 m ρ c (Proc.devRef .tc main_v88)) (W8 m ρ c (Proc.devRef .tc main_v91)) (W8 m ρ c (Proc.devRef .tc main_v74_1)) :=
    (W9_arr m ρ c 5).trans (RegionValue.resid3 (V8 m ρ) c)
  rw [hAgg, hRow, eo, hDrop] at hM
  rw [hAgg, hRow, eo] at hR
  constructor
  · rw [hM, Cert.Glue.ref_cur1, Cert.Glue.ref_agg1]
  · rw [hR, Cert.Glue.ref_old1, Cert.Glue.ref_agg1]

end Cert.KernelIdeal.Layers

end
-- ==== Proof.RegionMat4.lean ====
/-
  A hidden layer's feature product (the second 32-wide one) as one function of the arrays its region finds.

  The region runs the 32-wide matrix-product body at 10 grid points.  At point t the left operand's block is rows
  10000 t … 10000 t + 9999 of the layer's input X, the 32 × 32 weight W is fetched whole, and the output's block is the
  same rows of the result.  So what point t writes back is the block of rows 10000 t … of the full product X · W, every
  row r is in the block of point r / 10000, and after the last point the output array holds X · W.
-/
import proofs.«148016_j80401787781528_2_alg».proof.Proof.MatBody
import proofs.«148016_j80401787781528_2_alg».proof.Proof.Spec
import proofs.«148016_j80401787781528_2_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten grid points: the left operand's and the output's row block is the point
    itself, their column block is 0, and the weight's block is (0, 0) at every point. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of the left operand's block at point t is row 10000 t + p of the left matrix. -/
theorem read4_left (c : Dev nD) (t : Fin cfg4.N) (p : Fin 10000) (k : Fin 32) (r : Fin 100000)
    (hr : r.val = t.val * 10000 + p.val) :
    iblk4 V c 0 t (ix2 p k) = V c main_v92_0 (ix2 r k) := by
  obtain ⟨e0, e1, -⟩ := idx4 t
  show V c main_v92_0 (((cfg4.win 0).blk t).view.emb (ix2 p k)) = V c main_v92_0 (ix2 r k)
  refine congrArg (V c main_v92_0) (funext fun a => Fin.ext ?_)
  match a with
  | ⟨0, _⟩ => show win4_0.index t (0 : Fin 2) * 10000 + 1 * p.val = r.val; omega
  | ⟨1, _⟩ => show win4_0.index t (1 : Fin 2) * 32 + 1 * k.val = k.val; omega

/-- The weight's block at every point is the weight. -/
theorem read4_right (c : Dev nD) (t : Fin cfg4.N) (k : Fin 32) (q q' : Fin 32) (hq : q'.val = q.val) :
    iblk4 V c 1 t (ix2 k q) = V c main_v35 (ix2 k q') := by
  obtain ⟨-, -, e2, e3, -⟩ := idx4 t
  show V c main_v35 (((cfg4.win 1).blk t).view.emb (ix2 k q)) = V c main_v35 (ix2 k q')
  refine congrArg (V c main_v35) (funext fun a => Fin.ext ?_)
  match a with
  | ⟨0, _⟩ => show win4_1.index t (0 : Fin 2) * 32 + 1 * k.val = k.val; omega
  | ⟨1, _⟩ => show win4_1.index t (1 : Fin 2) * 32 + 1 * q.val = q'.val; omega

/-- What point t writes back is its block of the full product. -/
theorem flushed4 (c : Dev nD) (t : Fin cfg4.N) :
    (dat4 (F := Ideal) V c).flushed 2 t
      = ((cfg4.win 2).blk t).view.read (Elt Ideal) (Cert.Spec.prod 100000 32 32 (V c main_v92_0) (V c main_v35)) := by
  show (cfg4.win 2).cut (grid4.coords t) ((dat4 V c).after 2 t) = _
  rw [after4_2]
  unfold out4_2
  rw [View.canon_unit_zero offsets_zero]
  simp only [View.ld_unit_zero (S := S10000x32) offsets_zero, View.ld_unit_zero (S := S32x32) offsets_zero]
  obtain ⟨-, -, -, -, e4, e5⟩ := idx4 t
  funext j
  have hj0 : (j 0).val < 10000 := (j 0).isLt
  have hj1 : (j 1).val < 32 := (j 1).isLt
  have hx : (cfg4.win 2).xinj (grid4.coords t) j = ix2 (⟨(j 0).val, hj0⟩ : Fin 10000) (⟨(j 1).val, hj1⟩ : Fin 32) :=
    funext fun a => by
      match a with
      | ⟨0, _⟩ => rfl
      | ⟨1, _⟩ => rfl
  show k4_pay1 (iblk4 V c 0 t) (iblk4 V c 1 t) ((cfg4.win 2).xinj (grid4.coords t) j)
    = Cert.Spec.prod 100000 32 32 (V c main_v92_0) (V c main_v35) (((cfg4.win 2).blk t).view.emb j)
  rw [hx]
  refine pay4_entry _ _ _ _ _ _ _ (fun k => ?_) (fun k => ?_)
  · refine read4_left V c t _ k _ ?_
    show win4_2.index t (0 : Fin 2) * 10000 + 1 * (j 0).val = t.val * 10000 + (j 0).val
    omega
  · refine read4_right V c t k _ _ ?_
    show win4_2.index t (1 : Fin 2) * 32 + 1 * (j 1).val = (j 1).val
    omega

/-- An index of the output array is in point t's block iff each coordinate is in the block's range on its axis. -/
theorem mem_blk4 (t : Fin cfg4.N) (i : S100000x32.Idx) :
    i ∈ ((cfg4.win 2).blk t).view.set ↔ ∀ a : Fin 2, win4_2.index t a * S10000x32.size a ≤ (i a).val
      ∧ (i a).val < win4_2.index t a * S10000x32.size a + S10000x32.size a := by
  show i ∈ ((View.whole main_v93).slice (win4_2.rect t)).set ↔ _
  rw [View.set_slice_whole, Rect.mem_set_unit]
  exact Iff.rfl

/-- Every index of the output array is in the block of the point its row falls in. -/
theorem cover4 (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  obtain ⟨t, ht⟩ : ∃ t : Fin cfg4.N, t.val = (i 0).val / 10000 :=
    ⟨⟨(i 0).val / 10000, by show (i 0).val / 10000 < 10; omega⟩, rfl⟩
  obtain ⟨-, -, -, -, e4, e5⟩ := idx4 t
  refine ⟨t, flush4_2 t, ?_⟩
  rw [mem_blk4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 32 ≤ (i 1).val ∧ (i 1).val < win4_2.index t (1 : Fin 2) * 32 + 32
    omega

/-- After the region the output array holds the product of the left matrix and the weight. -/
theorem prod4 (c : Dev nD) :
    (dat4 (F := Ideal) V c).arrAt 2 cfg4.N = Cert.Spec.prod 100000 32 32 (V c main_v92_0) (V c main_v35) :=
  (dat4 V c).arrAt_eq_of_cover 2 _ (fun t _ => flushed4 V c t) cover4

end Cert.KernelIdeal.RegionValue

end
-- ==== Proof.RegionElem5.lean ====
/-
  Hidden layer, region 5: the two output arrays after all 50 row blocks, each as one function of the arrays the
  region finds.

  The grid is 50 points; point t handles rows 2000 t … 2000 t + 1999 of every [100000, 32] array and the whole bias
  row. At point t the body leaves in each output block the specification's function of the input blocks, which are the
  arrays' rows at the same offsets; the 50 blocks cover all 100000 rows, row r lying in the block of point r / 2000.
-/
import proofs.«148016_j80401787781528_2_alg».proof.Proof.Gen.KernelIdeal.Frame
import proofs.«148016_j80401787781528_2_alg».proof.Proof.ElemBody
import proofs.«148016_j80401787781528_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices over the grid: the five row-blocked windows are at block (t, 0), the bias row at (0, 0). -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-! ## The masked activation (output window 4) -/

/-- What point t writes back is block t of the masked activation of the arrays the region finds. -/
theorem flushed5_4 (c : Dev nD) (t : Fin cfg5.N) :
    (dat5 (F := Ideal) V c).flushed 4 t = ((cfg5.win 4).blk t).view.read (Elt Ideal)
      (Cert.Spec.masked 100000 32 (V c main_v106) (V c main_v109) (V c main_v92_1) (V c main_v108)) := by
  show (cfg5.win 4).cut (grid5.coords t) ((dat5 (F := Ideal) V c).after 4 t) = _
  rw [after5_4]
  unfold out5_4
  rw [View.canon_unit_zero ElemBody.off_zero]
  simp only [View.ld_unit_zero (S := S2000x32) ElemBody.off_zero, View.ld_unit_zero (S := S1x32) ElemBody.off_zero]
  rw [ElemBody.pay2_5]
  obtain ⟨e00, e01, e10, e11, e20, e21, e30, e31, e40, e41, e50, e51⟩ := idx5 t
  funext j
  obtain ⟨p, q, rfl⟩ : ∃ (p : Fin 2000) (q : Fin 32), j = ix2 p q := ⟨j 0, j 1, eq_ix2 j⟩
  refine ElemBody.masked_of_blocks _ _ _ _ _ _ _ _ p q _ ?_ ?_ ?_ ?_ ?_
  · apply Fin.ext
    show win5_4.index t (1 : Fin 2) * 32 + 1 * q.val = q.val
    omega
  · show V c main_v106 (((cfg5.win 0).blk t).view.emb (ix2 p q)) = V c main_v106 (((cfg5.win 4).blk t).view.emb (ix2 p q))
    refine congrArg _ (funext fun a => Fin.ext ?_)
    match a with
    | ⟨0, _⟩ => show win5_0.index t (0 : Fin 2) * 2000 + 1 * p.val = win5_4.index t (0 : Fin 2) * 2000 + 1 * p.val; omega
    | ⟨1, _⟩ => show win5_0.index t (1 : Fin 2) * 32 + 1 * q.val = win5_4.index t (1 : Fin 2) * 32 + 1 * q.val; omega
  · show V c main_v92_1 (((cfg5.win 1).blk t).view.emb (ix2 p q)) = V c main_v92_1 (((cfg5.win 4).blk t).view.emb (ix2 p q))
    refine congrArg _ (funext fun a => Fin.ext ?_)
    match a with
    | ⟨0, _⟩ => show win5_1.index t (0 : Fin 2) * 2000 + 1 * p.val = win5_4.index t (0 : Fin 2) * 2000 + 1 * p.val; omega
    | ⟨1, _⟩ => show win5_1.index t (1 : Fin 2) * 32 + 1 * q.val = win5_4.index t (1 : Fin 2) * 32 + 1 * q.val; omega
  · show V c main_v108 (((cfg5.win 2).blk t).view.emb (ix2 p q)) = V c main_v108 (((cfg5.win 4).blk t).view.emb (ix2 p q))
    refine congrArg _ (funext fun a => Fin.ext ?_)
    match a with
    | ⟨0, _⟩ => show win5_2.index t (0 : Fin 2) * 2000 + 1 * p.val = win5_4.index t (0 : Fin 2) * 2000 + 1 * p.val; omega
    | ⟨1, _⟩ => show win5_2.index t (1 : Fin 2) * 32 + 1 * q.val = win5_4.index t (1 : Fin 2) * 32 + 1 * q.val; omega
  · show V c main_v109 (((cfg5.win 3).blk t).view.emb (ix2 (0 : Fin 1) q)) = V c main_v109 (ix2 (0 : Fin 1) q)
    refine congrArg _ (funext fun a => Fin.ext ?_)
    match a with
    | ⟨0, _⟩ => show win5_3.index t (0 : Fin 2) * 1 + 1 * 0 = 0; omega
    | ⟨1, _⟩ => show win5_3.index t (1 : Fin 2) * 32 + 1 * q.val = q.val; omega

/-- An index of the array is in point t's block iff each coordinate is in the block's range on its axis. -/
theorem mem_blk5_4 (t : Fin cfg5.N) (i : S100000x32.Idx) :
    i ∈ ((cfg5.win 4).blk t).view.set ↔ ∀ a : Fin 2, win5_4.index t a * S2000x32.size a ≤ (i a).val
      ∧ (i a).val < win5_4.index t a * S2000x32.size a + S2000x32.size a := by
  show i ∈ ((View.whole main_v110_0).slice (win5_4.rect t)).set ↔ _
  rw [View.set_slice_whole, Rect.mem_set_unit]
  exact Iff.rfl

/-- Row r is in the block of point r / 2000. -/
theorem covered5_4 (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  obtain ⟨t, ht⟩ : ∃ t : Fin cfg5.N, t.val = (i 0).val / 2000 :=
    ⟨⟨(i 0).val / 2000, by show (i 0).val / 2000 < grid5.N; rw [N_5]; omega⟩, rfl⟩
  obtain ⟨-, -, -, -, -, -, -, -, e40, e41, -, -⟩ := idx5 t
  refine ⟨t, flush5_4 t, ?_⟩
  rw [mem_blk5_4]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 32 ≤ (i 1).val ∧ (i 1).val < win5_4.index t (1 : Fin 2) * 32 + 32; omega

/-- The masked activation's array after the region. -/
theorem masked5 (c : Dev nD) :
    (dat5 (F := Ideal) V c).arrAt 4 cfg5.N = Cert.Spec.masked 100000 32 (V c main_v106) (V c main_v109) (V c main_v92_1) (V c main_v108) :=
  (dat5 (F := Ideal) V c).arrAt_eq_of_cover 4 _ (fun t _ => flushed5_4 V c t) covered5_4

/-! ## The residual activation (output window 5) -/

/-- What point t writes back is block t of the residual activation of the arrays the region finds. -/
theorem flushed5_5 (c : Dev nD) (t : Fin cfg5.N) :
    (dat5 (F := Ideal) V c).flushed 5 t = ((cfg5.win 5).blk t).view.read (Elt Ideal)
      (Cert.Spec.resid 100000 32 (V c main_v106) (V c main_v109) (V c main_v92_1)) := by
  show (cfg5.win 5).cut (grid5.coords t) ((dat5 (F := Ideal) V c).after 5 t) = _
  rw [after5_5]
  unfold out5_5
  rw [View.canon_unit_zero ElemBody.off_zero]
  simp only [View.ld_unit_zero (S := S2000x32) ElemBody.off_zero, View.ld_unit_zero (S := S1x32) ElemBody.off_zero]
  rw [ElemBody.pay1_5]
  obtain ⟨e00, e01, e10, e11, e20, e21, e30, e31, e40, e41, e50, e51⟩ := idx5 t
  funext j
  obtain ⟨p, q, rfl⟩ : ∃ (p : Fin 2000) (q : Fin 32), j = ix2 p q := ⟨j 0, j 1, eq_ix2 j⟩
  refine ElemBody.resid_of_blocks _ _ _ _ _ _ p q _ ?_ ?_ ?_ ?_
  · apply Fin.ext
    show win5_5.index t (1 : Fin 2) * 32 + 1 * q.val = q.val
    omega
  · show V c main_v106 (((cfg5.win 0).blk t).view.emb (ix2 p q)) = V c main_v106 (((cfg5.win 5).blk t).view.emb (ix2 p q))
    refine congrArg _ (funext fun a => Fin.ext ?_)
    match a with
    | ⟨0, _⟩ => show win5_0.index t (0 : Fin 2) * 2000 + 1 * p.val = win5_5.index t (0 : Fin 2) * 2000 + 1 * p.val; omega
    | ⟨1, _⟩ => show win5_0.index t (1 : Fin 2) * 32 + 1 * q.val = win5_5.index t (1 : Fin 2) * 32 + 1 * q.val; omega
  · show V c main_v92_1 (((cfg5.win 1).blk t).view.emb (ix2 p q)) = V c main_v92_1 (((cfg5.win 5).blk t).view.emb (ix2 p q))
    refine congrArg _ (funext fun a => Fin.ext ?_)
    match a with
    | ⟨0, _⟩ => show win5_1.index t (0 : Fin 2) * 2000 + 1 * p.val = win5_5.index t (0 : Fin 2) * 2000 + 1 * p.val; omega
    | ⟨1, _⟩ => show win5_1.index t (1 : Fin 2) * 32 + 1 * q.val = win5_5.index t (1 : Fin 2) * 32 + 1 * q.val; omega
  · show V c main_v109 (((cfg5.win 3).blk t).view.emb (ix2 (0 : Fin 1) q)) = V c main_v109 (ix2 (0 : Fin 1) q)
    refine congrArg _ (funext fun a => Fin.ext ?_)
    match a with
    | ⟨0, _⟩ => show win5_3.index t (0 : Fin 2) * 1 + 1 * 0 = 0; omega
    | ⟨1, _⟩ => show win5_3.index t (1 : Fin 2) * 32 + 1 * q.val = q.val; omega

/-- An index of the array is in point t's block iff each coordinate is in the block's range on its axis. -/
theorem mem_blk5_5 (t : Fin cfg5.N) (i : S100000x32.Idx) :
    i ∈ ((cfg5.win 5).blk t).view.set ↔ ∀ a : Fin 2, win5_5.index t a * S2000x32.size a ≤ (i a).val
      ∧ (i a).val < win5_5.index t a * S2000x32.size a + S2000x32.size a := by
  show i ∈ ((View.whole main_v110_1).slice (win5_5.rect t)).set ↔ _
  rw [View.set_slice_whole, Rect.mem_set_unit]
  exact Iff.rfl

/-- Row r is in the block of point r / 2000. -/
theorem covered5_5 (i : S100000x32.Idx) :
    ∃ t : Fin cfg5.N, (cfg5.win 5).flush t = true ∧ i ∈ ((cfg5.win 5).blk t).view.set := by
  have hi0 : (i 0).val < 100000 := (i 0).isLt
  have hi1 : (i 1).val < 32 := (i 1).isLt
  obtain ⟨t, ht⟩ : ∃ t : Fin cfg5.N, t.val = (i 0).val / 2000 :=
    ⟨⟨(i 0).val / 2000, by show (i 0).val / 2000 < grid5.N; rw [N_5]; omega⟩, rfl⟩
  obtain ⟨-, -, -, -, -, -, -, -, -, -, e50, e51⟩ := idx5 t
  refine ⟨t, flush5_5 t, ?_⟩
  rw [mem_blk5_5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 32 ≤ (i 1).val ∧ (i 1).val < win5_5.index t (1 : Fin 2) * 32 + 32; omega

/-- The residual activation's array after the region. -/
theorem resid5 (c : Dev nD) :
    (dat5 (F := Ideal) V c).arrAt 5 cfg5.N = Cert.Spec.resid 100000 32 (V c main_v106) (V c main_v109) (V c main_v92_1) :=
  (dat5 (F := Ideal) V c).arrAt_eq_of_cover 5 _ (fun t _ => flushed5_5 V c t) covered5_5

end Cert.KernelIdeal.RegionValue

end
-- ==== Proof.Layer2.lean ====
/-
  Layer 2 of the idealized kernel program: its product region, the shared aggregation, its elementwise region.
  From what the layer finds, its two outputs are the reference's masked and residual activations of the same layer.
-/
import proofs.«148016_j80401787781528_2_alg».proof.Proof.Glue
import proofs.«148016_j80401787781528_2_alg».proof.Proof.Prefix
import proofs.«148016_j80401787781528_2_alg».proof.Proof.Keep
import proofs.«148016_j80401787781528_2_alg».proof.Proof.RegionMat4
import proofs.«148016_j80401787781528_2_alg».proof.Proof.RegionElem5

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The product region: its output array is the reference's product of the same layer. -/
theorem prod2 (c : Dev nD)
    (hcur : W9 m ρ c (Proc.devRef .tc main_v92_0) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W10 m ρ c (Proc.devRef .tc main_v93) = Cert.ReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((RegionValue.prod4 (V9 m ρ) c).trans ?_)
  show Cert.Spec.prod 100000 32 32 (W9 m ρ c (Proc.devRef .tc main_v92_0)) (W9 m ρ c (Proc.devRef .tc main_v35)) = _
  rw [hcur, Keep.at9 m ρ c main_v35 (by decide), Prefix.v35 m ρ c]
  exact (Cert.Glue.ref_prod2 _ _ _ _ _ _ _).symm

set_option maxHeartbeats 16000000 in
/-- The stretch between the two regions: the shared aggregation of the product, the layer's dropout draws, its bias as a
    row; the residual carried in is untouched. -/
theorem stretch2 (c : Dev nD) :
    W11 m ρ c (Proc.devRef .tc main_v106) = Cert.Glue.agg32 (W10 m ρ c (Proc.devRef .tc main_v3)) (W10 m ρ c (Proc.devRef .tc main_v6)) (W10 m ρ c (Proc.devRef .tc main_v31)) (W10 m ρ c (Proc.devRef .tc main_v93))
    ∧ W11 m ρ c (Proc.devRef .tc main_v108) = Cert.ReferenceIdeal.Read.val_main_v127 (F := Ideal) (W10 m ρ c (Proc.devRef .tc main_arg2))
    ∧ W11 m ρ c (Proc.devRef .tc main_v109) = Cert.Glue.row32 (W10 m ρ c (Proc.devRef .tc main_v47))
    ∧ W11 m ρ c (Proc.devRef .tc main_v92_1) = W10 m ρ c (Proc.devRef .tc main_v92_1) := by
  refine ⟨?_, ?_, ?_, ?_⟩
  · dsimp only [W11, hostOps5]; after_results_simp; rfl
  · dsimp only [W11, hostOps5]; after_results_simp; rfl
  · dsimp only [W11, hostOps5]; after_results_simp; exact Cert.Glue.rowcast32 _ _
  · dsimp only [W11, hostOps5]; after_results_simp

/-- The layer: the elementwise region's two outputs are the reference's masked and residual activations. -/
theorem layer2 (c : Dev nD)
    (hcur : W9 m ρ c (Proc.devRef .tc main_v92_0) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hold : W9 m ρ c (Proc.devRef .tc main_v92_1) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W12 m ρ c (Proc.devRef .tc main_v110_0) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ W12 m ρ c (Proc.devRef .tc main_v110_1) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨hAgg, hDrop, hRow, hOld⟩ := stretch2 m ρ c
  have hH := prod2 m ρ c hcur
  have e3 : W10 m ρ c (Proc.devRef .tc main_v3) = Cert.ReferenceIdeal.Read.val_main_v3 (F := Ideal) (m ((c : Thread nD τ).loc main_arg1)) := (Keep.at10 m ρ c main_v3 (by decide)).trans (Prefix.v3 m ρ c)
  have e6 : W10 m ρ c (Proc.devRef .tc main_v6) = Cert.ReferenceIdeal.Read.val_main_v6 (F := Ideal) (m ((c : Thread nD τ).loc main_arg1)) := (Keep.at10 m ρ c main_v6 (by decide)).trans (Prefix.v6 m ρ c)
  have e31 : W10 m ρ c (Proc.devRef .tc main_v31) = Cert.ReferenceIdeal.Read.val_main_v31 (F := Ideal) (m ((c : Thread nD τ).loc main_arg1)) := (Keep.at10 m ρ c main_v31 (by decide)).trans (Prefix.v31 m ρ c)
  have e2 : W10 m ρ c (Proc.devRef .tc main_arg2) = (m ((c : Thread nD τ).loc main_arg2)) := (Keep.at10 m ρ c main_arg2 (by decide)).trans (Prefix.arg2 m ρ c)
  have eb : W10 m ρ c (Proc.devRef .tc main_v47) = Cert.ReferenceIdeal.Read.val_main_v47 (F := Ideal) (m ((c : Thread nD τ).loc main_arg6)) := (Keep.at10 m ρ c main_v47 (by decide)).trans (Prefix.v47 m ρ c)
  have eo : W11 m ρ c (Proc.devRef .tc main_v92_1) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := hOld.trans ((Keep.region4 m ρ c main_v92_1 (by decide)).trans hold)
  rw [e3, e6, e31, hH] at hAgg
  rw [e2] at hDrop
  rw [eb] at hRow
  have hM : W12 m ρ c (Proc.devRef .tc main_v110_0) = Cert.Spec.masked 100000 32 (W11 m ρ c (Proc.devRef .tc main_v106)) (W11 m ρ c (Proc.devRef .tc main_v109)) (W11 m ρ c (Proc.devRef .tc main_v92_1)) (W11 m ρ c (Proc.devRef .tc main_v108)) :=
    (W12_arr m ρ c 4).trans (RegionValue.masked5 (V11 m ρ) c)
  have hR : W12 m ρ c (Proc.devRef .tc main_v110_1) = Cert.Spec.resid 100000 32 (W11 m ρ c (Proc.devRef .tc main_v106)) (W11 m ρ c (Proc.devRef .tc main_v109)) (W11 m ρ c (Proc.devRef .tc main_v92_1)) :=
    (W12_arr m ρ c 5).trans (RegionValue.resid5 (V11 m ρ) c)
  rw [hAgg, hRow, eo, hDrop] at hM
  rw [hAgg, hRow, eo] at hR
  constructor
  · rw [hM, Cert.Glue.ref_cur2, Cert.Glue.ref_agg2]
  · rw [hR, Cert.Glue.ref_old2, Cert.Glue.ref_agg2]

end Cert.KernelIdeal.Layers

end
-- ==== Proof.RegionMat6.lean ====
/-
  A hidden layer's feature product (the third 32-wide one) as one function of the arrays its region finds.

  The region runs the 32-wide matrix-product body at 10 grid points.  At point t the left operand's block is rows
  10000 t … 10000 t + 9999 of the layer's input X, the 32 × 32 weight W is fetched whole, and the output's block is the
  same rows of the result.  So what point t writes back is the block of rows 10000 t … of the full product X · W, every
  row r is in the block of point r / 10000, and after the last point the output array holds X · W.
-/
import proofs.«148016_j80401787781528_2_alg».proof.Proof.MatBody
import proofs.«148016_j80401787781528_2_alg».proof.Proof.Spec
import proofs.«148016_j80401787781528_2_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten grid points: the left operand's and the output's row block is the point
    itself, their column block is 0, and the weight's block is (0, 0) at every point. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row p of the left operand's block at point t is row 10000 t + p of the left matrix. -/
theorem read6_left (c : Dev nD) (t : Fin cfg6.N) (p : Fin 10000) (k : Fin 32) (r : Fin 100000)
    (hr : r.val = t.val * 10000 + p.val) :
    iblk6 V c 0 t (ix2 p k) = V c main_v110_0 (ix2 r k) := by
  obtain ⟨e0, e1, -⟩ := idx6 t
  show V c main_v110_0 (((cfg6.win 0).blk t).view.emb (ix2 p k)) = V c main_v110_0 (ix2 r k)
  refine congrArg (V c main_v110_0) (funext fun a => Fin.ext ?_)
  match a with
  | ⟨0, _⟩ => show win6_0.index t (0 : Fin 2) * 10000 + 1 * p.val = r.val; omega
  | ⟨1, _⟩ => show win6_0.index t (1 : Fin 2) * 32 + 1 * k.val = k.val; omega

/-- The weight's block at every point is the weight. -/
theorem read6_right (c : Dev nD) (t : Fin cfg6.N) (k : Fin 32) (q q' : Fin 32) (hq : q'.val = q.val) :
    iblk6 V c 1 t (ix2 k q) = V c main_v37 (ix2 k q') := by
  obtain ⟨-, -, e2, e3, -⟩ := idx6 t
  show V c main_v37 (((cfg6.win 1).blk t).view.emb (ix2 k q)) = V c main_v37 (ix2 k q')
  refine congrArg (V c main_v37) (funext fun a => Fin.ext ?_)
  match a with
  | ⟨0, _⟩ => show win6_1.index t (0 : Fin 2) * 32 + 1 * k.val = k.val; omega
  | ⟨1, _⟩ => show win6_1.index t (1 : Fin 2) * 32 + 1 * q.val = q'.val; omega

/-- What point t writes back is its block of the full product. -/
theorem flushed6 (c : Dev nD) (t : Fin cfg6.N) :
    (dat6 (F := Ideal) V c).flushed 2 t
      = ((cfg6.win 2).blk t).view.read (Elt Ideal) (Cert.Spec.prod 100000 32 32 (V c main_v110_0) (V c main_v37)) := by
  show (cfg6.win 2).cut (grid6.coords t) ((dat6 V c).after 2 t) = _
  rw [after6_2]
  unfold out6_2
  rw [View.canon_unit_zero offsets_zero]
  simp only [View.ld_unit_zero (S := S10000x32) offsets_zero, View.ld_unit_zero (S := S32x32) offsets_zero]
  obtain ⟨-, -, -, -, e4, e5⟩ := idx6 t
  funext j
  have hj0 : (j 0).val < 10000 := (j 0).isLt
  have hj1 : (j 1).val < 32 := (j 1).isLt
  have hx : (cfg6.win 2).xinj (grid6.coords t) j = ix2 (⟨(j 0).val, hj0⟩ : Fin 10000) (⟨(j 1).val, hj1⟩ : Fin 32) :=
    funext fun a => by
      match a with
      | ⟨0, _⟩ => rfl
      | ⟨1, _⟩ => rfl
  show k6_pay1 (iblk6 V c 0 t) (iblk6 V c 1 t) ((cfg6.win 2).xinj (grid6.coords t) j)
    = Cert.Spec.prod 100000 32 32 (V c main_v110_0) (V c main_v37) (((cfg6.win 2).blk t).view.emb j)
  rw [hx]
  refine pay6_entry _ _ _ _ _ _ _ (fun k => ?_) (fun k => ?_)
  · refine read6_left V c t _ k _ ?_
    show win6_2.index t (0 : Fin 2) * 10000 + 1 * (j 0).val = t.val * 10000 + (j 0).val
    omega
  · refine read6_right V c t k _ _ ?_
    show win6_2.index t (1 : Fin 2) * 32 + 1 * (j 1).val = (j 1).val
    omega

/-- An index of the output array is in point t's block iff each coordinate is in the block's range on its axis. -/
theorem mem_blk6 (t : Fin cfg6.N) (i : S100000x32.Idx) :
    i ∈ ((cfg6.win 2).blk t).view.set ↔ ∀ a : Fin 2, win6_2.index t a * S10000x32.size a ≤ (i a).val
      ∧ (i a).val < win6_2.index t a * S10000x32.size a + S10000x32.size a := by
  show i ∈ ((View.whole main_v111).slice (win6_2.rect t)).set ↔ _
  rw [View.set_slice_whole, Rect.mem_set_unit]
  exact Iff.rfl

/-- Every index of the output array is in the block of the point its row falls in. -/
theorem cover6 (i : S100000x32.Idx) :
    ∃ t : Fin cfg6.N, (cfg6.win 2).flush t = true ∧ i ∈ ((cfg6.win 2).blk t).view.set := by
  have hi0 : (i 0).val < 100000 := (i 0).isLt
  have hi1 : (i 1).val < 32 := (i 1).isLt
  obtain ⟨t, ht⟩ : ∃ t : Fin cfg6.N, t.val = (i 0).val / 10000 :=
    ⟨⟨(i 0).val / 10000, by show (i 0).val / 10000 < 10; omega⟩, rfl⟩
  obtain ⟨-, -, -, -, e4, e5⟩ := idx6 t
  refine ⟨t, flush6_2 t, ?_⟩
  rw [mem_blk6]
  intro a
  match a with
  | ⟨0, _⟩ =>
    show win6_2.index t (0 : Fin 2) * 10000 ≤ (i 0).val ∧ (i 0).val < win6_2.index t (0 : Fin 2) * 10000 + 10000
    omega
  | ⟨1, _⟩ =>
    show win6_2.index t (1 : Fin 2) * 32 ≤ (i 1).val ∧ (i 1).val < win6_2.index t (1 : Fin 2) * 32 + 32
    omega

/-- After the region the output array holds the product of the left matrix and the weight. -/
theorem prod6 (c : Dev nD) :
    (dat6 (F := Ideal) V c).arrAt 2 cfg6.N = Cert.Spec.prod 100000 32 32 (V c main_v110_0) (V c main_v37) :=
  (dat6 V c).arrAt_eq_of_cover 2 _ (fun t _ => flushed6 V c t) cover6

end Cert.KernelIdeal.RegionValue

end
-- ==== Proof.RegionElem7.lean ====
/-
  Hidden layer, region 7: the two output arrays after all 50 row blocks, each as one function of the arrays the
  region finds.

  The grid is 50 points; point t handles rows 2000 t … 2000 t + 1999 of every [100000, 32] array and the whole bias
  row. At point t the body leaves in each output block the specification's function of the input blocks, which are the
  arrays' rows at the same offsets; the 50 blocks cover all 100000 rows, row r lying in the block of point r / 2000.
-/
import proofs.«148016_j80401787781528_2_alg».proof.Proof.Gen.KernelIdeal.Frame
import proofs.«148016_j80401787781528_2_alg».proof.Proof.ElemBody
import proofs.«148016_j80401787781528_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices over the grid: the five row-blocked windows are at block (t, 0), the bias row at (0, 0). -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

/-! ## The masked activation (output window 4) -/

/-- What point t writes back is block t of the masked activation of the arrays the region finds. -/
theorem flushed7_4 (c : Dev nD) (t : Fin cfg7.N) :
    (dat7 (F := Ideal) V c).flushed 4 t = ((cfg7.win 4).blk t).view.read (Elt Ideal)
      (Cert.Spec.masked 100000 32 (V c main_v124) (V c main_v127) (V c main_v110_1) (V c main_v126)) := by
  show (cfg7.win 4).cut (grid7.coords t) ((dat7 (F := Ideal) V c).after 4 t) = _
  rw [after7_4]
  unfold out7_4
  rw [View.canon_unit_zero ElemBody.off_zero]
  simp only [View.ld_unit_zero (S := S2000x32) ElemBody.off_zero, View.ld_unit_zero (S := S1x32) ElemBody.off_zero]
  rw [ElemBody.pay2_7]
  obtain ⟨e00, e01, e10, e11, e20, e21, e30, e31, e40, e41, e50, e51⟩ := idx7 t
  funext j
  obtain ⟨p, q, rfl⟩ : ∃ (p : Fin 2000) (q : Fin 32), j = ix2 p q := ⟨j 0, j 1, eq_ix2 j⟩
  refine ElemBody.masked_of_blocks _ _ _ _ _ _ _ _ p q _ ?_ ?_ ?_ ?_ ?_
  · apply Fin.ext
    show win7_4.index t (1 : Fin 2) * 32 + 1 * q.val = q.val
    omega
  · show V c main_v124 (((cfg7.win 0).blk t).view.emb (ix2 p q)) = V c main_v124 (((cfg7.win 4).blk t).view.emb (ix2 p q))
    refine congrArg _ (funext fun a => Fin.ext ?_)
    match a with
    | ⟨0, _⟩ => show win7_0.index t (0 : Fin 2) * 2000 + 1 * p.val = win7_4.index t (0 : Fin 2) * 2000 + 1 * p.val; omega
    | ⟨1, _⟩ => show win7_0.index t (1 : Fin 2) * 32 + 1 * q.val = win7_4.index t (1 : Fin 2) * 32 + 1 * q.val; omega
  · show V c main_v110_1 (((cfg7.win 1).blk t).view.emb (ix2 p q)) = V c main_v110_1 (((cfg7.win 4).blk t).view.emb (ix2 p q))
    refine congrArg _ (funext fun a => Fin.ext ?_)
    match a with
    | ⟨0, _⟩ => show win7_1.index t (0 : Fin 2) * 2000 + 1 * p.val = win7_4.index t (0 : Fin 2) * 2000 + 1 * p.val; omega
    | ⟨1, _⟩ => show win7_1.index t (1 : Fin 2) * 32 + 1 * q.val = win7_4.index t (1 : Fin 2) * 32 + 1 * q.val; omega
  · show V c main_v126 (((cfg7.win 2).blk t).view.emb (ix2 p q)) = V c main_v126 (((cfg7.win 4).blk t).view.emb (ix2 p q))
    refine congrArg _ (funext fun a => Fin.ext ?_)
    match a with
    | ⟨0, _⟩ => show win7_2.index t (0 : Fin 2) * 2000 + 1 * p.val = win7_4.index t (0 : Fin 2) * 2000 + 1 * p.val; omega
    | ⟨1, _⟩ => show win7_2.index t (1 : Fin 2) * 32 + 1 * q.val = win7_4.index t (1 : Fin 2) * 32 + 1 * q.val; omega
  · show V c main_v127 (((cfg7.win 3).blk t).view.emb (ix2 (0 : Fin 1) q)) = V c main_v127 (ix2 (0 : Fin 1) q)
    refine congrArg _ (funext fun a => Fin.ext ?_)
    match a with
    | ⟨0, _⟩ => show win7_3.index t (0 : Fin 2) * 1 + 1 * 0 = 0; omega
    | ⟨1, _⟩ => show win7_3.index t (1 : Fin 2) * 32 + 1 * q.val = q.val; omega

/-- An index of the array is in point t's block iff each coordinate is in the block's range on its axis. -/
theorem mem_blk7_4 (t : Fin cfg7.N) (i : S100000x32.Idx) :
    i ∈ ((cfg7.win 4).blk t).view.set ↔ ∀ a : Fin 2, win7_4.index t a * S2000x32.size a ≤ (i a).val
      ∧ (i a).val < win7_4.index t a * S2000x32.size a + S2000x32.size a := by
  show i ∈ ((View.whole main_v128_0).slice (win7_4.rect t)).set ↔ _
  rw [View.set_slice_whole, Rect.mem_set_unit]
  exact Iff.rfl

/-- Row r is in the block of point r / 2000. -/
theorem covered7_4 (i : S100000x32.Idx) :
    ∃ t : Fin cfg7.N, (cfg7.win 4).flush t = true ∧ i ∈ ((cfg7.win 4).blk t).view.set := by
  have hi0 : (i 0).val < 100000 := (i 0).isLt
  have hi1 : (i 1).val < 32 := (i 1).isLt
  obtain ⟨t, ht⟩ : ∃ t : Fin cfg7.N, t.val = (i 0).val / 2000 :=
    ⟨⟨(i 0).val / 2000, by show (i 0).val / 2000 < grid7.N; rw [N_7]; omega⟩, rfl⟩
  obtain ⟨-, -, -, -, -, -, -, -, e40, e41, -, -⟩ := idx7 t
  refine ⟨t, flush7_4 t, ?_⟩
  rw [mem_blk7_4]
  intro a
  match a with
  | ⟨0, _⟩ => show win7_4.index t (0 : Fin 2) * 2000 ≤ (i 0).val ∧ (i 0).val < win7_4.index t (0 : Fin 2) * 2000 + 2000; omega
  | ⟨1, _⟩ => show win7_4.index t (1 : Fin 2) * 32 ≤ (i 1).val ∧ (i 1).val < win7_4.index t (1 : Fin 2) * 32 + 32; omega

/-- The masked activation's array after the region. -/
theorem masked7 (c : Dev nD) :
    (dat7 (F := Ideal) V c).arrAt 4 cfg7.N = Cert.Spec.masked 100000 32 (V c main_v124) (V c main_v127) (V c main_v110_1) (V c main_v126) :=
  (dat7 (F := Ideal) V c).arrAt_eq_of_cover 4 _ (fun t _ => flushed7_4 V c t) covered7_4

/-! ## The residual activation (output window 5) -/

/-- What point t writes back is block t of the residual activation of the arrays the region finds. -/
theorem flushed7_5 (c : Dev nD) (t : Fin cfg7.N) :
    (dat7 (F := Ideal) V c).flushed 5 t = ((cfg7.win 5).blk t).view.read (Elt Ideal)
      (Cert.Spec.resid 100000 32 (V c main_v124) (V c main_v127) (V c main_v110_1)) := by
  show (cfg7.win 5).cut (grid7.coords t) ((dat7 (F := Ideal) V c).after 5 t) = _
  rw [after7_5]
  unfold out7_5
  rw [View.canon_unit_zero ElemBody.off_zero]
  simp only [View.ld_unit_zero (S := S2000x32) ElemBody.off_zero, View.ld_unit_zero (S := S1x32) ElemBody.off_zero]
  rw [ElemBody.pay1_7]
  obtain ⟨e00, e01, e10, e11, e20, e21, e30, e31, e40, e41, e50, e51⟩ := idx7 t
  funext j
  obtain ⟨p, q, rfl⟩ : ∃ (p : Fin 2000) (q : Fin 32), j = ix2 p q := ⟨j 0, j 1, eq_ix2 j⟩
  refine ElemBody.resid_of_blocks _ _ _ _ _ _ p q _ ?_ ?_ ?_ ?_
  · apply Fin.ext
    show win7_5.index t (1 : Fin 2) * 32 + 1 * q.val = q.val
    omega
  · show V c main_v124 (((cfg7.win 0).blk t).view.emb (ix2 p q)) = V c main_v124 (((cfg7.win 5).blk t).view.emb (ix2 p q))
    refine congrArg _ (funext fun a => Fin.ext ?_)
    match a with
    | ⟨0, _⟩ => show win7_0.index t (0 : Fin 2) * 2000 + 1 * p.val = win7_5.index t (0 : Fin 2) * 2000 + 1 * p.val; omega
    | ⟨1, _⟩ => show win7_0.index t (1 : Fin 2) * 32 + 1 * q.val = win7_5.index t (1 : Fin 2) * 32 + 1 * q.val; omega
  · show V c main_v110_1 (((cfg7.win 1).blk t).view.emb (ix2 p q)) = V c main_v110_1 (((cfg7.win 5).blk t).view.emb (ix2 p q))
    refine congrArg _ (funext fun a => Fin.ext ?_)
    match a with
    | ⟨0, _⟩ => show win7_1.index t (0 : Fin 2) * 2000 + 1 * p.val = win7_5.index t (0 : Fin 2) * 2000 + 1 * p.val; omega
    | ⟨1, _⟩ => show win7_1.index t (1 : Fin 2) * 32 + 1 * q.val = win7_5.index t (1 : Fin 2) * 32 + 1 * q.val; omega
  · show V c main_v127 (((cfg7.win 3).blk t).view.emb (ix2 (0 : Fin 1) q)) = V c main_v127 (ix2 (0 : Fin 1) q)
    refine congrArg _ (funext fun a => Fin.ext ?_)
    match a with
    | ⟨0, _⟩ => show win7_3.index t (0 : Fin 2) * 1 + 1 * 0 = 0; omega
    | ⟨1, _⟩ => show win7_3.index t (1 : Fin 2) * 32 + 1 * q.val = q.val; omega

/-- An index of the array is in point t's block iff each coordinate is in the block's range on its axis. -/
theorem mem_blk7_5 (t : Fin cfg7.N) (i : S100000x32.Idx) :
    i ∈ ((cfg7.win 5).blk t).view.set ↔ ∀ a : Fin 2, win7_5.index t a * S2000x32.size a ≤ (i a).val
      ∧ (i a).val < win7_5.index t a * S2000x32.size a + S2000x32.size a := by
  show i ∈ ((View.whole main_v128_1).slice (win7_5.rect t)).set ↔ _
  rw [View.set_slice_whole, Rect.mem_set_unit]
  exact Iff.rfl

/-- Row r is in the block of point r / 2000. -/
theorem covered7_5 (i : S100000x32.Idx) :
    ∃ t : Fin cfg7.N, (cfg7.win 5).flush t = true ∧ i ∈ ((cfg7.win 5).blk t).view.set := by
  have hi0 : (i 0).val < 100000 := (i 0).isLt
  have hi1 : (i 1).val < 32 := (i 1).isLt
  obtain ⟨t, ht⟩ : ∃ t : Fin cfg7.N, t.val = (i 0).val / 2000 :=
    ⟨⟨(i 0).val / 2000, by show (i 0).val / 2000 < grid7.N; rw [N_7]; omega⟩, rfl⟩
  obtain ⟨-, -, -, -, -, -, -, -, -, -, e50, e51⟩ := idx7 t
  refine ⟨t, flush7_5 t, ?_⟩
  rw [mem_blk7_5]
  intro a
  match a with
  | ⟨0, _⟩ => show win7_5.index t (0 : Fin 2) * 2000 ≤ (i 0).val ∧ (i 0).val < win7_5.index t (0 : Fin 2) * 2000 + 2000; omega
  | ⟨1, _⟩ => show win7_5.index t (1 : Fin 2) * 32 ≤ (i 1).val ∧ (i 1).val < win7_5.index t (1 : Fin 2) * 32 + 32; omega

/-- The residual activation's array after the region. -/
theorem resid7 (c : Dev nD) :
    (dat7 (F := Ideal) V c).arrAt 5 cfg7.N = Cert.Spec.resid 100000 32 (V c main_v124) (V c main_v127) (V c main_v110_1) :=
  (dat7 (F := Ideal) V c).arrAt_eq_of_cover 5 _ (fun t _ => flushed7_5 V c t) covered7_5

end Cert.KernelIdeal.RegionValue

end
-- ==== Proof.Layer3.lean ====
/-
  Layer 3 of the idealized kernel program: its product region, the shared aggregation, its elementwise region.
  From what the layer finds, its two outputs are the reference's masked and residual activations of the same layer.
-/
import proofs.«148016_j80401787781528_2_alg».proof.Proof.Glue
import proofs.«148016_j80401787781528_2_alg».proof.Proof.Prefix
import proofs.«148016_j80401787781528_2_alg».proof.Proof.Keep
import proofs.«148016_j80401787781528_2_alg».proof.Proof.RegionMat6
import proofs.«148016_j80401787781528_2_alg».proof.Proof.RegionElem7

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The product region: its output array is the reference's product of the same layer. -/
theorem prod3 (c : Dev nD)
    (hcur : W12 m ρ c (Proc.devRef .tc main_v110_0) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W13 m ρ c (Proc.devRef .tc main_v111) = Cert.ReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W13_arr m ρ c 2).trans ((RegionValue.prod6 (V12 m ρ) c).trans ?_)
  show Cert.Spec.prod 100000 32 32 (W12 m ρ c (Proc.devRef .tc main_v110_0)) (W12 m ρ c (Proc.devRef .tc main_v37)) = _
  rw [hcur, Keep.at12 m ρ c main_v37 (by decide), Prefix.v37 m ρ c]
  exact (Cert.Glue.ref_prod3 _ _ _ _ _ _ _).symm

set_option maxHeartbeats 16000000 in
/-- The stretch between the two regions: the shared aggregation of the product, the layer's dropout draws, its bias as a
    row; the residual carried in is untouched. -/
theorem stretch3 (c : Dev nD) :
    W14 m ρ c (Proc.devRef .tc main_v124) = Cert.Glue.agg32 (W13 m ρ c (Proc.devRef .tc main_v3)) (W13 m ρ c (Proc.devRef .tc main_v6)) (W13 m ρ c (Proc.devRef .tc main_v31)) (W13 m ρ c (Proc.devRef .tc main_v111))
    ∧ W14 m ρ c (Proc.devRef .tc main_v126) = Cert.ReferenceIdeal.Read.val_main_v152 (F := Ideal) (W13 m ρ c (Proc.devRef .tc main_arg2))
    ∧ W14 m ρ c (Proc.devRef .tc main_v127) = Cert.Glue.row32 (W13 m ρ c (Proc.devRef .tc main_v49))
    ∧ W14 m ρ c (Proc.devRef .tc main_v110_1) = W13 m ρ c (Proc.devRef .tc main_v110_1) := by
  refine ⟨?_, ?_, ?_, ?_⟩
  · dsimp only [W14, hostOps7]; after_results_simp; rfl
  · dsimp only [W14, hostOps7]; after_results_simp; rfl
  · dsimp only [W14, hostOps7]; after_results_simp; exact Cert.Glue.rowcast32 _ _
  · dsimp only [W14, hostOps7]; after_results_simp

/-- The layer: the elementwise region's two outputs are the reference's masked and residual activations. -/
theorem layer3 (c : Dev nD)
    (hcur : W12 m ρ c (Proc.devRef .tc main_v110_0) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hold : W12 m ρ c (Proc.devRef .tc main_v110_1) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W15 m ρ c (Proc.devRef .tc main_v128_0) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ W15 m ρ c (Proc.devRef .tc main_v128_1) = Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨hAgg, hDrop, hRow, hOld⟩ := stretch3 m ρ c
  have hH := prod3 m ρ c hcur
  have e3 : W13 m ρ c (Proc.devRef .tc main_v3) = Cert.ReferenceIdeal.Read.val_main_v3 (F := Ideal) (m ((c : Thread nD τ).loc main_arg1)) := (Keep.at13 m ρ c main_v3 (by decide)).trans (Prefix.v3 m ρ c)
  have e6 : W13 m ρ c (Proc.devRef .tc main_v6) = Cert.ReferenceIdeal.Read.val_main_v6 (F := Ideal) (m ((c : Thread nD τ).loc main_arg1)) := (Keep.at13 m ρ c main_v6 (by decide)).trans (Prefix.v6 m ρ c)
  have e31 : W13 m ρ c (Proc.devRef .tc main_v31) = Cert.ReferenceIdeal.Read.val_main_v31 (F := Ideal) (m ((c : Thread nD τ).loc main_arg1)) := (Keep.at13 m ρ c main_v31 (by decide)).trans (Prefix.v31 m ρ c)
  have e2 : W13 m ρ c (Proc.devRef .tc main_arg2) = (m ((c : Thread nD τ).loc main_arg2)) := (Keep.at13 m ρ c main_arg2 (by decide)).trans (Prefix.arg2 m ρ c)
  have eb : W13 m ρ c (Proc.devRef .tc main_v49) = Cert.ReferenceIdeal.Read.val_main_v49 (F := Ideal) (m ((c : Thread nD τ).loc main_arg6)) := (Keep.at13 m ρ c main_v49 (by decide)).trans (Prefix.v49 m ρ c)
  have eo : W14 m ρ c (Proc.devRef .tc main_v110_1) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := hOld.trans ((Keep.region6 m ρ c main_v110_1 (by decide)).trans hold)
  rw [e3, e6, e31, hH] at hAgg
  rw [e2] at hDrop
  rw [eb] at hRow
  have hM : W15 m ρ c (Proc.devRef .tc main_v128_0) = Cert.Spec.masked 100000 32 (W14 m ρ c (Proc.devRef .tc main_v124)) (W14 m ρ c (Proc.devRef .tc main_v127)) (W14 m ρ c (Proc.devRef .tc main_v110_1)) (W14 m ρ c (Proc.devRef .tc main_v126)) :=
    (W15_arr m ρ c 4).trans (RegionValue.masked7 (V14 m ρ) c)
  have hR : W15 m ρ c (Proc.devRef .tc main_v128_1) = Cert.Spec.resid 100000 32 (W14 m ρ c (Proc.devRef .tc main_v124)) (W14 m ρ c (Proc.devRef .tc main_v127)) (W14 m ρ c (Proc.devRef .tc main_v110_1)) :=
    (W15_arr m ρ c 5).trans (RegionValue.resid7 (V14 m ρ) c)
  rw [hAgg, hRow, eo, hDrop] at hM
  rw [hAgg, hRow, eo] at hR
  constructor
  · rw [hM, Cert.Glue.ref_cur3, Cert.Glue.ref_agg3]
  · rw [hR, Cert.Glue.ref_old3, Cert.Glue.ref_agg3]

end Cert.KernelIdeal.Layers

end
-- ==== Proof.RegionMat8.lean ====
/-
  A hidden layer's feature product (the fourth 32-wide one) as one function of the arrays its region finds.

  The region runs the 32-wide matrix-product body at 10 grid points.  At point t the left operand's block is rows
  10000 t … 10000 t + 9999 of the layer's input X, the 32 × 32 weight W is fetched whole, and the output's block is the
  same rows of the result.  So what point t writes back is the block of rows 10000 t … of the full product X · W, every
  row r is in the block of point r / 10000, and after the last point the output array holds X · W.
-/
import proofs.«148016_j80401787781528_2_alg».proof.Proof.MatBody
import proofs.«148016_j80401787781528_2_alg».proof.Proof.Spec
import proofs.«148016_j80401787781528_2_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten grid points: the left operand's and the output's row block is the point
    itself, their column block is 0, and the weight's block is (0, 0) at every point. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Row p of the left operand's block at point t is row 10000 t + p of the left matrix. -/
theorem read8_left (c : Dev nD) (t : Fin cfg8.N) (p : Fin 10000) (k : Fin 32) (r : Fin 100000)
    (hr : r.val = t.val * 10000 + p.val) :
    iblk8 V c 0 t (ix2 p k) = V c main_v128_0 (ix2 r k) := by
  obtain ⟨e0, e1, -⟩ := idx8 t
  show V c main_v128_0 (((cfg8.win 0).blk t).view.emb (ix2 p k)) = V c main_v128_0 (ix2 r k)
  refine congrArg (V c main_v128_0) (funext fun a => Fin.ext ?_)
  match a with
  | ⟨0, _⟩ => show win8_0.index t (0 : Fin 2) * 10000 + 1 * p.val = r.val; omega
  | ⟨1, _⟩ => show win8_0.index t (1 : Fin 2) * 32 + 1 * k.val = k.val; omega

/-- The weight's block at every point is the weight. -/
theorem read8_right (c : Dev nD) (t : Fin cfg8.N) (k : Fin 32) (q q' : Fin 32) (hq : q'.val = q.val) :
    iblk8 V c 1 t (ix2 k q) = V c main_v39 (ix2 k q') := by
  obtain ⟨-, -, e2, e3, -⟩ := idx8 t
  show V c main_v39 (((cfg8.win 1).blk t).view.emb (ix2 k q)) = V c main_v39 (ix2 k q')
  refine congrArg (V c main_v39) (funext fun a => Fin.ext ?_)
  match a with
  | ⟨0, _⟩ => show win8_1.index t (0 : Fin 2) * 32 + 1 * k.val = k.val; omega
  | ⟨1, _⟩ => show win8_1.index t (1 : Fin 2) * 32 + 1 * q.val = q'.val; omega

/-- What point t writes back is its block of the full product. -/
theorem flushed8 (c : Dev nD) (t : Fin cfg8.N) :
    (dat8 (F := Ideal) V c).flushed 2 t
      = ((cfg8.win 2).blk t).view.read (Elt Ideal) (Cert.Spec.prod 100000 32 32 (V c main_v128_0) (V c main_v39)) := by
  show (cfg8.win 2).cut (grid8.coords t) ((dat8 V c).after 2 t) = _
  rw [after8_2]
  unfold out8_2
  rw [View.canon_unit_zero offsets_zero]
  simp only [View.ld_unit_zero (S := S10000x32) offsets_zero, View.ld_unit_zero (S := S32x32) offsets_zero]
  obtain ⟨-, -, -, -, e4, e5⟩ := idx8 t
  funext j
  have hj0 : (j 0).val < 10000 := (j 0).isLt
  have hj1 : (j 1).val < 32 := (j 1).isLt
  have hx : (cfg8.win 2).xinj (grid8.coords t) j = ix2 (⟨(j 0).val, hj0⟩ : Fin 10000) (⟨(j 1).val, hj1⟩ : Fin 32) :=
    funext fun a => by
      match a with
      | ⟨0, _⟩ => rfl
      | ⟨1, _⟩ => rfl
  show k8_pay1 (iblk8 V c 0 t) (iblk8 V c 1 t) ((cfg8.win 2).xinj (grid8.coords t) j)
    = Cert.Spec.prod 100000 32 32 (V c main_v128_0) (V c main_v39) (((cfg8.win 2).blk t).view.emb j)
  rw [hx]
  refine pay8_entry _ _ _ _ _ _ _ (fun k => ?_) (fun k => ?_)
  · refine read8_left V c t _ k _ ?_
    show win8_2.index t (0 : Fin 2) * 10000 + 1 * (j 0).val = t.val * 10000 + (j 0).val
    omega
  · refine read8_right V c t k _ _ ?_
    show win8_2.index t (1 : Fin 2) * 32 + 1 * (j 1).val = (j 1).val
    omega

/-- An index of the output array is in point t's block iff each coordinate is in the block's range on its axis. -/
theorem mem_blk8 (t : Fin cfg8.N) (i : S100000x32.Idx) :
    i ∈ ((cfg8.win 2).blk t).view.set ↔ ∀ a : Fin 2, win8_2.index t a * S10000x32.size a ≤ (i a).val
      ∧ (i a).val < win8_2.index t a * S10000x32.size a + S10000x32.size a := by
  show i ∈ ((View.whole main_v129).slice (win8_2.rect t)).set ↔ _
  rw [View.set_slice_whole, Rect.mem_set_unit]
  exact Iff.rfl

/-- Every index of the output array is in the block of the point its row falls in. -/
theorem cover8 (i : S100000x32.Idx) :
    ∃ t : Fin cfg8.N, (cfg8.win 2).flush t = true ∧ i ∈ ((cfg8.win 2).blk t).view.set := by
  have hi0 : (i 0).val < 100000 := (i 0).isLt
  have hi1 : (i 1).val < 32 := (i 1).isLt
  obtain ⟨t, ht⟩ : ∃ t : Fin cfg8.N, t.val = (i 0).val / 10000 :=
    ⟨⟨(i 0).val / 10000, by show (i 0).val / 10000 < 10; omega⟩, rfl⟩
  obtain ⟨-, -, -, -, e4, e5⟩ := idx8 t
  refine ⟨t, flush8_2 t, ?_⟩
  rw [mem_blk8]
  intro a
  match a with
  | ⟨0, _⟩ =>
    show win8_2.index t (0 : Fin 2) * 10000 ≤ (i 0).val ∧ (i 0).val < win8_2.index t (0 : Fin 2) * 10000 + 10000
    omega
  | ⟨1, _⟩ =>
    show win8_2.index t (1 : Fin 2) * 32 ≤ (i 1).val ∧ (i 1).val < win8_2.index t (1 : Fin 2) * 32 + 32
    omega

/-- After the region the output array holds the product of the left matrix and the weight. -/
theorem prod8 (c : Dev nD) :
    (dat8 (F := Ideal) V c).arrAt 2 cfg8.N = Cert.Spec.prod 100000 32 32 (V c main_v128_0) (V c main_v39) :=
  (dat8 V c).arrAt_eq_of_cover 2 _ (fun t _ => flushed8 V c t) cover8

end Cert.KernelIdeal.RegionValue

end
-- ==== Proof.RegionElem9.lean ====
/-
  Hidden layer, region 9: the two output arrays after all 50 row blocks, each as one function of the arrays the
  region finds.

  The grid is 50 points; point t handles rows 2000 t … 2000 t + 1999 of every [100000, 32] array and the whole bias
  row. At point t the body leaves in each output block the specification's function of the input blocks, which are the
  arrays' rows at the same offsets; the 50 blocks cover all 100000 rows, row r lying in the block of point r / 2000.
-/
import proofs.«148016_j80401787781528_2_alg».proof.Proof.Gen.KernelIdeal.Frame
import proofs.«148016_j80401787781528_2_alg».proof.Proof.ElemBody
import proofs.«148016_j80401787781528_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices over the grid: the five row-blocked windows are at block (t, 0), the bias row at (0, 0). -/
theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0 :=
  (by decide +kernel : ∀ t : Fin grid9.N, _)

/-! ## The masked activation (output window 4) -/

/-- What point t writes back is block t of the masked activation of the arrays the region finds. -/
theorem flushed9_4 (c : Dev nD) (t : Fin cfg9.N) :
    (dat9 (F := Ideal) V c).flushed 4 t = ((cfg9.win 4).blk t).view.read (Elt Ideal)
      (Cert.Spec.masked 100000 32 (V c main_v142) (V c main_v145) (V c main_v128_1) (V c main_v144)) := by
  show (cfg9.win 4).cut (grid9.coords t) ((dat9 (F := Ideal) V c).after 4 t) = _
  rw [after9_4]
  unfold out9_4
  rw [View.canon_unit_zero ElemBody.off_zero]
  simp only [View.ld_unit_zero (S := S2000x32) ElemBody.off_zero, View.ld_unit_zero (S := S1x32) ElemBody.off_zero]
  rw [ElemBody.pay2_9]
  obtain ⟨e00, e01, e10, e11, e20, e21, e30, e31, e40, e41, e50, e51⟩ := idx9 t
  funext j
  obtain ⟨p, q, rfl⟩ : ∃ (p : Fin 2000) (q : Fin 32), j = ix2 p q := ⟨j 0, j 1, eq_ix2 j⟩
  refine ElemBody.masked_of_blocks _ _ _ _ _ _ _ _ p q _ ?_ ?_ ?_ ?_ ?_
  · apply Fin.ext
    show win9_4.index t (1 : Fin 2) * 32 + 1 * q.val = q.val
    omega
  · show V c main_v142 (((cfg9.win 0).blk t).view.emb (ix2 p q)) = V c main_v142 (((cfg9.win 4).blk t).view.emb (ix2 p q))
    refine congrArg _ (funext fun a => Fin.ext ?_)
    match a with
    | ⟨0, _⟩ => show win9_0.index t (0 : Fin 2) * 2000 + 1 * p.val = win9_4.index t (0 : Fin 2) * 2000 + 1 * p.val; omega
    | ⟨1, _⟩ => show win9_0.index t (1 : Fin 2) * 32 + 1 * q.val = win9_4.index t (1 : Fin 2) * 32 + 1 * q.val; omega
  · show V c main_v128_1 (((cfg9.win 1).blk t).view.emb (ix2 p q)) = V c main_v128_1 (((cfg9.win 4).blk t).view.emb (ix2 p q))
    refine congrArg _ (funext fun a => Fin.ext ?_)
    match a with
    | ⟨0, _⟩ => show win9_1.index t (0 : Fin 2) * 2000 + 1 * p.val = win9_4.index t (0 : Fin 2) * 2000 + 1 * p.val; omega
    | ⟨1, _⟩ => show win9_1.index t (1 : Fin 2) * 32 + 1 * q.val = win9_4.index t (1 : Fin 2) * 32 + 1 * q.val; omega
  · show V c main_v144 (((cfg9.win 2).blk t).view.emb (ix2 p q)) = V c main_v144 (((cfg9.win 4).blk t).view.emb (ix2 p q))
    refine congrArg _ (funext fun a => Fin.ext ?_)
    match a with
    | ⟨0, _⟩ => show win9_2.index t (0 : Fin 2) * 2000 + 1 * p.val = win9_4.index t (0 : Fin 2) * 2000 + 1 * p.val; omega
    | ⟨1, _⟩ => show win9_2.index t (1 : Fin 2) * 32 + 1 * q.val = win9_4.index t (1 : Fin 2) * 32 + 1 * q.val; omega
  · show V c main_v145 (((cfg9.win 3).blk t).view.emb (ix2 (0 : Fin 1) q)) = V c main_v145 (ix2 (0 : Fin 1) q)
    refine congrArg _ (funext fun a => Fin.ext ?_)
    match a with
    | ⟨0, _⟩ => show win9_3.index t (0 : Fin 2) * 1 + 1 * 0 = 0; omega
    | ⟨1, _⟩ => show win9_3.index t (1 : Fin 2) * 32 + 1 * q.val = q.val; omega

/-- An index of the array is in point t's block iff each coordinate is in the block's range on its axis. -/
theorem mem_blk9_4 (t : Fin cfg9.N) (i : S100000x32.Idx) :
    i ∈ ((cfg9.win 4).blk t).view.set ↔ ∀ a : Fin 2, win9_4.index t a * S2000x32.size a ≤ (i a).val
      ∧ (i a).val < win9_4.index t a * S2000x32.size a + S2000x32.size a := by
  show i ∈ ((View.whole main_v146_0).slice (win9_4.rect t)).set ↔ _
  rw [View.set_slice_whole, Rect.mem_set_unit]
  exact Iff.rfl

/-- Row r is in the block of point r / 2000. -/
theorem covered9_4 (i : S100000x32.Idx) :
    ∃ t : Fin cfg9.N, (cfg9.win 4).flush t = true ∧ i ∈ ((cfg9.win 4).blk t).view.set := by
  have hi0 : (i 0).val < 100000 := (i 0).isLt
  have hi1 : (i 1).val < 32 := (i 1).isLt
  obtain ⟨t, ht⟩ : ∃ t : Fin cfg9.N, t.val = (i 0).val / 2000 :=
    ⟨⟨(i 0).val / 2000, by show (i 0).val / 2000 < grid9.N; rw [N_9]; omega⟩, rfl⟩
  obtain ⟨-, -, -, -, -, -, -, -, e40, e41, -, -⟩ := idx9 t
  refine ⟨t, flush9_4 t, ?_⟩
  rw [mem_blk9_4]
  intro a
  match a with
  | ⟨0, _⟩ => show win9_4.index t (0 : Fin 2) * 2000 ≤ (i 0).val ∧ (i 0).val < win9_4.index t (0 : Fin 2) * 2000 + 2000; omega
  | ⟨1, _⟩ => show win9_4.index t (1 : Fin 2) * 32 ≤ (i 1).val ∧ (i 1).val < win9_4.index t (1 : Fin 2) * 32 + 32; omega

/-- The masked activation's array after the region. -/
theorem masked9 (c : Dev nD) :
    (dat9 (F := Ideal) V c).arrAt 4 cfg9.N = Cert.Spec.masked 100000 32 (V c main_v142) (V c main_v145) (V c main_v128_1) (V c main_v144) :=
  (dat9 (F := Ideal) V c).arrAt_eq_of_cover 4 _ (fun t _ => flushed9_4 V c t) covered9_4

/-! ## The residual activation (output window 5) -/

/-- What point t writes back is block t of the residual activation of the arrays the region finds. -/
theorem flushed9_5 (c : Dev nD) (t : Fin cfg9.N) :
    (dat9 (F := Ideal) V c).flushed 5 t = ((cfg9.win 5).blk t).view.read (Elt Ideal)
      (Cert.Spec.resid 100000 32 (V c main_v142) (V c main_v145) (V c main_v128_1)) := by
  show (cfg9.win 5).cut (grid9.coords t) ((dat9 (F := Ideal) V c).after 5 t) = _
  rw [after9_5]
  unfold out9_5
  rw [View.canon_unit_zero ElemBody.off_zero]
  simp only [View.ld_unit_zero (S := S2000x32) ElemBody.off_zero, View.ld_unit_zero (S := S1x32) ElemBody.off_zero]
  rw [ElemBody.pay1_9]
  obtain ⟨e00, e01, e10, e11, e20, e21, e30, e31, e40, e41, e50, e51⟩ := idx9 t
  funext j
  obtain ⟨p, q, rfl⟩ : ∃ (p : Fin 2000) (q : Fin 32), j = ix2 p q := ⟨j 0, j 1, eq_ix2 j⟩
  refine ElemBody.resid_of_blocks _ _ _ _ _ _ p q _ ?_ ?_ ?_ ?_
  · apply Fin.ext
    show win9_5.index t (1 : Fin 2) * 32 + 1 * q.val = q.val
    omega
  · show V c main_v142 (((cfg9.win 0).blk t).view.emb (ix2 p q)) = V c main_v142 (((cfg9.win 5).blk t).view.emb (ix2 p q))
    refine congrArg _ (funext fun a => Fin.ext ?_)
    match a with
    | ⟨0, _⟩ => show win9_0.index t (0 : Fin 2) * 2000 + 1 * p.val = win9_5.index t (0 : Fin 2) * 2000 + 1 * p.val; omega
    | ⟨1, _⟩ => show win9_0.index t (1 : Fin 2) * 32 + 1 * q.val = win9_5.index t (1 : Fin 2) * 32 + 1 * q.val; omega
  · show V c main_v128_1 (((cfg9.win 1).blk t).view.emb (ix2 p q)) = V c main_v128_1 (((cfg9.win 5).blk t).view.emb (ix2 p q))
    refine congrArg _ (funext fun a => Fin.ext ?_)
    match a with
    | ⟨0, _⟩ => show win9_1.index t (0 : Fin 2) * 2000 + 1 * p.val = win9_5.index t (0 : Fin 2) * 2000 + 1 * p.val; omega
    | ⟨1, _⟩ => show win9_1.index t (1 : Fin 2) * 32 + 1 * q.val = win9_5.index t (1 : Fin 2) * 32 + 1 * q.val; omega
  · show V c main_v145 (((cfg9.win 3).blk t).view.emb (ix2 (0 : Fin 1) q)) = V c main_v145 (ix2 (0 : Fin 1) q)
    refine congrArg _ (funext fun a => Fin.ext ?_)
    match a with
    | ⟨0, _⟩ => show win9_3.index t (0 : Fin 2) * 1 + 1 * 0 = 0; omega
    | ⟨1, _⟩ => show win9_3.index t (1 : Fin 2) * 32 + 1 * q.val = q.val; omega

/-- An index of the array is in point t's block iff each coordinate is in the block's range on its axis. -/
theorem mem_blk9_5 (t : Fin cfg9.N) (i : S100000x32.Idx) :
    i ∈ ((cfg9.win 5).blk t).view.set ↔ ∀ a : Fin 2, win9_5.index t a * S2000x32.size a ≤ (i a).val
      ∧ (i a).val < win9_5.index t a * S2000x32.size a + S2000x32.size a := by
  show i ∈ ((View.whole main_v146_1).slice (win9_5.rect t)).set ↔ _
  rw [View.set_slice_whole, Rect.mem_set_unit]
  exact Iff.rfl

/-- Row r is in the block of point r / 2000. -/
theorem covered9_5 (i : S100000x32.Idx) :
    ∃ t : Fin cfg9.N, (cfg9.win 5).flush t = true ∧ i ∈ ((cfg9.win 5).blk t).view.set := by
  have hi0 : (i 0).val < 100000 := (i 0).isLt
  have hi1 : (i 1).val < 32 := (i 1).isLt
  obtain ⟨t, ht⟩ : ∃ t : Fin cfg9.N, t.val = (i 0).val / 2000 :=
    ⟨⟨(i 0).val / 2000, by show (i 0).val / 2000 < grid9.N; rw [N_9]; omega⟩, rfl⟩
  obtain ⟨-, -, -, -, -, -, -, -, -, -, e50, e51⟩ := idx9 t
  refine ⟨t, flush9_5 t, ?_⟩
  rw [mem_blk9_5]
  intro a
  match a with
  | ⟨0, _⟩ => show win9_5.index t (0 : Fin 2) * 2000 ≤ (i 0).val ∧ (i 0).val < win9_5.index t (0 : Fin 2) * 2000 + 2000; omega
  | ⟨1, _⟩ => show win9_5.index t (1 : Fin 2) * 32 ≤ (i 1).val ∧ (i 1).val < win9_5.index t (1 : Fin 2) * 32 + 32; omega

/-- The residual activation's array after the region. -/
theorem resid9 (c : Dev nD) :
    (dat9 (F := Ideal) V c).arrAt 5 cfg9.N = Cert.Spec.resid 100000 32 (V c main_v142) (V c main_v145) (V c main_v128_1) :=
  (dat9 (F := Ideal) V c).arrAt_eq_of_cover 5 _ (fun t _ => flushed9_5 V c t) covered9_5

end Cert.KernelIdeal.RegionValue

end
-- ==== Proof.Layer4.lean ====
/-
  Layer 4 of the idealized kernel program: its product region, the shared aggregation, its elementwise region.
  From what the layer finds, its two outputs are the reference's masked and residual activations of the same layer.
-/
import proofs.«148016_j80401787781528_2_alg».proof.Proof.Glue
import proofs.«148016_j80401787781528_2_alg».proof.Proof.Prefix
import proofs.«148016_j80401787781528_2_alg».proof.Proof.Keep
import proofs.«148016_j80401787781528_2_alg».proof.Proof.RegionMat8
import proofs.«148016_j80401787781528_2_alg».proof.Proof.RegionElem9

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The product region: its output array is the reference's product of the same layer. -/
theorem prod4 (c : Dev nD)
    (hcur : W15 m ρ c (Proc.devRef .tc main_v128_0) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W16 m ρ c (Proc.devRef .tc main_v129) = Cert.ReferenceIdeal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W16_arr m ρ c 2).trans ((RegionValue.prod8 (V15 m ρ) c).trans ?_)
  show Cert.Spec.prod 100000 32 32 (W15 m ρ c (Proc.devRef .tc main_v128_0)) (W15 m ρ c (Proc.devRef .tc main_v39)) = _
  rw [hcur, Keep.at15 m ρ c main_v39 (by decide), Prefix.v39 m ρ c]
  exact (Cert.Glue.ref_prod4 _ _ _ _ _ _ _).symm

set_option maxHeartbeats 16000000 in
/-- The stretch between the two regions: the shared aggregation of the product, the layer's dropout draws, its bias as a
    row; the residual carried in is untouched. -/
theorem stretch4 (c : Dev nD) :
    W17 m ρ c (Proc.devRef .tc main_v142) = Cert.Glue.agg32 (W16 m ρ c (Proc.devRef .tc main_v3)) (W16 m ρ c (Proc.devRef .tc main_v6)) (W16 m ρ c (Proc.devRef .tc main_v31)) (W16 m ρ c (Proc.devRef .tc main_v129))
    ∧ W17 m ρ c (Proc.devRef .tc main_v144) = Cert.ReferenceIdeal.Read.val_main_v177 (F := Ideal) (W16 m ρ c (Proc.devRef .tc main_arg2))
    ∧ W17 m ρ c (Proc.devRef .tc main_v145) = Cert.Glue.row32 (W16 m ρ c (Proc.devRef .tc main_v51))
    ∧ W17 m ρ c (Proc.devRef .tc main_v128_1) = W16 m ρ c (Proc.devRef .tc main_v128_1) := by
  refine ⟨?_, ?_, ?_, ?_⟩
  · dsimp only [W17, hostOps9]; after_results_simp; rfl
  · dsimp only [W17, hostOps9]; after_results_simp; rfl
  · dsimp only [W17, hostOps9]; after_results_simp; exact Cert.Glue.rowcast32 _ _
  · dsimp only [W17, hostOps9]; after_results_simp

/-- The layer: the elementwise region's two outputs are the reference's masked and residual activations. -/
theorem layer4 (c : Dev nD)
    (hcur : W15 m ρ c (Proc.devRef .tc main_v128_0) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hold : W15 m ρ c (Proc.devRef .tc main_v128_1) = Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W18 m ρ c (Proc.devRef .tc main_v146_0) = Cert.ReferenceIdeal.Read.val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ W18 m ρ c (Proc.devRef .tc main_v146_1) = Cert.ReferenceIdeal.Read.val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨hAgg, hDrop, hRow, hOld⟩ := stretch4 m ρ c
  have hH := prod4 m ρ c hcur
  have e3 : W16 m ρ c (Proc.devRef .tc main_v3) = Cert.ReferenceIdeal.Read.val_main_v3 (F := Ideal) (m ((c : Thread nD τ).loc main_arg1)) := (Keep.at16 m ρ c main_v3 (by decide)).trans (Prefix.v3 m ρ c)
  have e6 : W16 m ρ c (Proc.devRef .tc main_v6) = Cert.ReferenceIdeal.Read.val_main_v6 (F := Ideal) (m ((c : Thread nD τ).loc main_arg1)) := (Keep.at16 m ρ c main_v6 (by decide)).trans (Prefix.v6 m ρ c)
  have e31 : W16 m ρ c (Proc.devRef .tc main_v31) = Cert.ReferenceIdeal.Read.val_main_v31 (F := Ideal) (m ((c : Thread nD τ).loc main_arg1)) := (Keep.at16 m ρ c main_v31 (by decide)).trans (Prefix.v31 m ρ c)
  have e2 : W16 m ρ c (Proc.devRef .tc main_arg2) = (m ((c : Thread nD τ).loc main_arg2)) := (Keep.at16 m ρ c main_arg2 (by decide)).trans (Prefix.arg2 m ρ c)
  have eb : W16 m ρ c (Proc.devRef .tc main_v51) = Cert.ReferenceIdeal.Read.val_main_v51 (F := Ideal) (m ((c : Thread nD τ).loc main_arg6)) := (Keep.at16 m ρ c main_v51 (by decide)).trans (Prefix.v51 m ρ c)
  have eo : W17 m ρ c (Proc.devRef .tc main_v128_1) = Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := hOld.trans ((Keep.region8 m ρ c main_v128_1 (by decide)).trans hold)
  rw [e3, e6, e31, hH] at hAgg
  rw [e2] at hDrop
  rw [eb] at hRow
  have hM : W18 m ρ c (Proc.devRef .tc main_v146_0) = Cert.Spec.masked 100000 32 (W17 m ρ c (Proc.devRef .tc main_v142)) (W17 m ρ c (Proc.devRef .tc main_v145)) (W17 m ρ c (Proc.devRef .tc main_v128_1)) (W17 m ρ c (Proc.devRef .tc main_v144)) :=
    (W18_arr m ρ c 4).trans (RegionValue.masked9 (V17 m ρ) c)
  have hR : W18 m ρ c (Proc.devRef .tc main_v146_1) = Cert.Spec.resid 100000 32 (W17 m ρ c (Proc.devRef .tc main_v142)) (W17 m ρ c (Proc.devRef .tc main_v145)) (W17 m ρ c (Proc.devRef .tc main_v128_1)) :=
    (W18_arr m ρ c 5).trans (RegionValue.resid9 (V17 m ρ) c)
  rw [hAgg, hRow, eo, hDrop] at hM
  rw [hAgg, hRow, eo] at hR
  constructor
  · rw [hM, Cert.Glue.ref_cur4, Cert.Glue.ref_agg4]
  · rw [hR, Cert.Glue.ref_old4, Cert.Glue.ref_agg4]

end Cert.KernelIdeal.Layers

end
-- ==== Proof.RegionMat10.lean ====
/-
  A hidden layer's feature product (the fifth 32-wide one) as one function of the arrays its region finds.

  The region runs the 32-wide matrix-product body at 10 grid points.  At point t the left operand's block is rows
  10000 t … 10000 t + 9999 of the layer's input X, the 32 × 32 weight W is fetched whole, and the output's block is the
  same rows of the result.  So what point t writes back is the block of rows 10000 t … of the full product X · W, every
  row r is in the block of point r / 10000, and after the last point the output array holds X · W.
-/
import proofs.«148016_j80401787781528_2_alg».proof.Proof.MatBody
import proofs.«148016_j80401787781528_2_alg».proof.Proof.Spec
import proofs.«148016_j80401787781528_2_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten grid points: the left operand's and the output's row block is the point
    itself, their column block is 0, and the weight's block is (0, 0) at every point. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- Row p of the left operand's block at point t is row 10000 t + p of the left matrix. -/
theorem read10_left (c : Dev nD) (t : Fin cfg10.N) (p : Fin 10000) (k : Fin 32) (r : Fin 100000)
    (hr : r.val = t.val * 10000 + p.val) :
    iblk10 V c 0 t (ix2 p k) = V c main_v146_0 (ix2 r k) := by
  obtain ⟨e0, e1, -⟩ := idx10 t
  show V c main_v146_0 (((cfg10.win 0).blk t).view.emb (ix2 p k)) = V c main_v146_0 (ix2 r k)
  refine congrArg (V c main_v146_0) (funext fun a => Fin.ext ?_)
  match a with
  | ⟨0, _⟩ => show win10_0.index t (0 : Fin 2) * 10000 + 1 * p.val = r.val; omega
  | ⟨1, _⟩ => show win10_0.index t (1 : Fin 2) * 32 + 1 * k.val = k.val; omega

/-- The weight's block at every point is the weight. -/
theorem read10_right (c : Dev nD) (t : Fin cfg10.N) (k : Fin 32) (q q' : Fin 32) (hq : q'.val = q.val) :
    iblk10 V c 1 t (ix2 k q) = V c main_v41 (ix2 k q') := by
  obtain ⟨-, -, e2, e3, -⟩ := idx10 t
  show V c main_v41 (((cfg10.win 1).blk t).view.emb (ix2 k q)) = V c main_v41 (ix2 k q')
  refine congrArg (V c main_v41) (funext fun a => Fin.ext ?_)
  match a with
  | ⟨0, _⟩ => show win10_1.index t (0 : Fin 2) * 32 + 1 * k.val = k.val; omega
  | ⟨1, _⟩ => show win10_1.index t (1 : Fin 2) * 32 + 1 * q.val = q'.val; omega

/-- What point t writes back is its block of the full product. -/
theorem flushed10 (c : Dev nD) (t : Fin cfg10.N) :
    (dat10 (F := Ideal) V c).flushed 2 t
      = ((cfg10.win 2).blk t).view.read (Elt Ideal) (Cert.Spec.prod 100000 32 32 (V c main_v146_0) (V c main_v41)) := by
  show (cfg10.win 2).cut (grid10.coords t) ((dat10 V c).after 2 t) = _
  rw [after10_2]
  unfold out10_2
  rw [View.canon_unit_zero offsets_zero]
  simp only [View.ld_unit_zero (S := S10000x32) offsets_zero, View.ld_unit_zero (S := S32x32) offsets_zero]
  obtain ⟨-, -, -, -, e4, e5⟩ := idx10 t
  funext j
  have hj0 : (j 0).val < 10000 := (j 0).isLt
  have hj1 : (j 1).val < 32 := (j 1).isLt
  have hx : (cfg10.win 2).xinj (grid10.coords t) j = ix2 (⟨(j 0).val, hj0⟩ : Fin 10000) (⟨(j 1).val, hj1⟩ : Fin 32) :=
    funext fun a => by
      match a with
      | ⟨0, _⟩ => rfl
      | ⟨1, _⟩ => rfl
  show k10_pay1 (iblk10 V c 0 t) (iblk10 V c 1 t) ((cfg10.win 2).xinj (grid10.coords t) j)
    = Cert.Spec.prod 100000 32 32 (V c main_v146_0) (V c main_v41) (((cfg10.win 2).blk t).view.emb j)
  rw [hx]
  refine pay10_entry _ _ _ _ _ _ _ (fun k => ?_) (fun k => ?_)
  · refine read10_left V c t _ k _ ?_
    show win10_2.index t (0 : Fin 2) * 10000 + 1 * (j 0).val = t.val * 10000 + (j 0).val
    omega
  · refine read10_right V c t k _ _ ?_
    show win10_2.index t (1 : Fin 2) * 32 + 1 * (j 1).val = (j 1).val
    omega

/-- An index of the output array is in point t's block iff each coordinate is in the block's range on its axis. -/
theorem mem_blk10 (t : Fin cfg10.N) (i : S100000x32.Idx) :
    i ∈ ((cfg10.win 2).blk t).view.set ↔ ∀ a : Fin 2, win10_2.index t a * S10000x32.size a ≤ (i a).val
      ∧ (i a).val < win10_2.index t a * S10000x32.size a + S10000x32.size a := by
  show i ∈ ((View.whole main_v147).slice (win10_2.rect t)).set ↔ _
  rw [View.set_slice_whole, Rect.mem_set_unit]
  exact Iff.rfl

/-- Every index of the output array is in the block of the point its row falls in. -/
theorem cover10 (i : S100000x32.Idx) :
    ∃ t : Fin cfg10.N, (cfg10.win 2).flush t = true ∧ i ∈ ((cfg10.win 2).blk t).view.set := by
  have hi0 : (i 0).val < 100000 := (i 0).isLt
  have hi1 : (i 1).val < 32 := (i 1).isLt
  obtain ⟨t, ht⟩ : ∃ t : Fin cfg10.N, t.val = (i 0).val / 10000 :=
    ⟨⟨(i 0).val / 10000, by show (i 0).val / 10000 < 10; omega⟩, rfl⟩
  obtain ⟨-, -, -, -, e4, e5⟩ := idx10 t
  refine ⟨t, flush10_2 t, ?_⟩
  rw [mem_blk10]
  intro a
  match a with
  | ⟨0, _⟩ =>
    show win10_2.index t (0 : Fin 2) * 10000 ≤ (i 0).val ∧ (i 0).val < win10_2.index t (0 : Fin 2) * 10000 + 10000
    omega
  | ⟨1, _⟩ =>
    show win10_2.index t (1 : Fin 2) * 32 ≤ (i 1).val ∧ (i 1).val < win10_2.index t (1 : Fin 2) * 32 + 32
    omega

/-- After the region the output array holds the product of the left matrix and the weight. -/
theorem prod10 (c : Dev nD) :
    (dat10 (F := Ideal) V c).arrAt 2 cfg10.N = Cert.Spec.prod 100000 32 32 (V c main_v146_0) (V c main_v41) :=
  (dat10 V c).arrAt_eq_of_cover 2 _ (fun t _ => flushed10 V c t) cover10

end Cert.KernelIdeal.RegionValue

end
-- ==== Proof.RegionElem11.lean ====
/-
  Hidden layer, region 11: the two output arrays after all 50 row blocks, each as one function of the arrays the
  region finds.

  The grid is 50 points; point t handles rows 2000 t … 2000 t + 1999 of every [100000, 32] array and the whole bias
  row. At point t the body leaves in each output block the specification's function of the input blocks, which are the
  arrays' rows at the same offsets; the 50 blocks cover all 100000 rows, row r lying in the block of point r / 2000.
-/
import proofs.«148016_j80401787781528_2_alg».proof.Proof.Gen.KernelIdeal.Frame
import proofs.«148016_j80401787781528_2_alg».proof.Proof.ElemBody
import proofs.«148016_j80401787781528_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices over the grid: the five row-blocked windows are at block (t, 0), the bias row at (0, 0). -/
theorem idx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0
    ∧ win11_5.index t (0 : Fin 2) = t.val ∧ win11_5.index t (1 : Fin 2) = 0 :=
  (by decide +kernel : ∀ t : Fin grid11.N, _)

/-! ## The masked activation (output window 4) -/

/-- What point t writes back is block t of the masked activation of the arrays the region finds. -/
theorem flushed11_4 (c : Dev nD) (t : Fin cfg11.N) :
    (dat11 (F := Ideal) V c).flushed 4 t = ((cfg11.win 4).blk t).view.read (Elt Ideal)
      (Cert.Spec.masked 100000 32 (V c main_v160) (V c main_v163) (V c main_v146_1) (V c main_v162)) := by
  show (cfg11.win 4).cut (grid11.coords t) ((dat11 (F := Ideal) V c).after 4 t) = _
  rw [after11_4]
  unfold out11_4
  rw [View.canon_unit_zero ElemBody.off_zero]
  simp only [View.ld_unit_zero (S := S2000x32) ElemBody.off_zero, View.ld_unit_zero (S := S1x32) ElemBody.off_zero]
  rw [ElemBody.pay2_11]
  obtain ⟨e00, e01, e10, e11, e20, e21, e30, e31, e40, e41, e50, e51⟩ := idx11 t
  funext j
  obtain ⟨p, q, rfl⟩ : ∃ (p : Fin 2000) (q : Fin 32), j = ix2 p q := ⟨j 0, j 1, eq_ix2 j⟩
  refine ElemBody.masked_of_blocks _ _ _ _ _ _ _ _ p q _ ?_ ?_ ?_ ?_ ?_
  · apply Fin.ext
    show win11_4.index t (1 : Fin 2) * 32 + 1 * q.val = q.val
    omega
  · show V c main_v160 (((cfg11.win 0).blk t).view.emb (ix2 p q)) = V c main_v160 (((cfg11.win 4).blk t).view.emb (ix2 p q))
    refine congrArg _ (funext fun a => Fin.ext ?_)
    match a with
    | ⟨0, _⟩ => show win11_0.index t (0 : Fin 2) * 2000 + 1 * p.val = win11_4.index t (0 : Fin 2) * 2000 + 1 * p.val; omega
    | ⟨1, _⟩ => show win11_0.index t (1 : Fin 2) * 32 + 1 * q.val = win11_4.index t (1 : Fin 2) * 32 + 1 * q.val; omega
  · show V c main_v146_1 (((cfg11.win 1).blk t).view.emb (ix2 p q)) = V c main_v146_1 (((cfg11.win 4).blk t).view.emb (ix2 p q))
    refine congrArg _ (funext fun a => Fin.ext ?_)
    match a with
    | ⟨0, _⟩ => show win11_1.index t (0 : Fin 2) * 2000 + 1 * p.val = win11_4.index t (0 : Fin 2) * 2000 + 1 * p.val; omega
    | ⟨1, _⟩ => show win11_1.index t (1 : Fin 2) * 32 + 1 * q.val = win11_4.index t (1 : Fin 2) * 32 + 1 * q.val; omega
  · show V c main_v162 (((cfg11.win 2).blk t).view.emb (ix2 p q)) = V c main_v162 (((cfg11.win 4).blk t).view.emb (ix2 p q))
    refine congrArg _ (funext fun a => Fin.ext ?_)
    match a with
    | ⟨0, _⟩ => show win11_2.index t (0 : Fin 2) * 2000 + 1 * p.val = win11_4.index t (0 : Fin 2) * 2000 + 1 * p.val; omega
    | ⟨1, _⟩ => show win11_2.index t (1 : Fin 2) * 32 + 1 * q.val = win11_4.index t (1 : Fin 2) * 32 + 1 * q.val; omega
  · show V c main_v163 (((cfg11.win 3).blk t).view.emb (ix2 (0 : Fin 1) q)) = V c main_v163 (ix2 (0 : Fin 1) q)
    refine congrArg _ (funext fun a => Fin.ext ?_)
    match a with
    | ⟨0, _⟩ => show win11_3.index t (0 : Fin 2) * 1 + 1 * 0 = 0; omega
    | ⟨1, _⟩ => show win11_3.index t (1 : Fin 2) * 32 + 1 * q.val = q.val; omega

/-- An index of the array is in point t's block iff each coordinate is in the block's range on its axis. -/
theorem mem_blk11_4 (t : Fin cfg11.N) (i : S100000x32.Idx) :
    i ∈ ((cfg11.win 4).blk t).view.set ↔ ∀ a : Fin 2, win11_4.index t a * S2000x32.size a ≤ (i a).val
      ∧ (i a).val < win11_4.index t a * S2000x32.size a + S2000x32.size a := by
  show i ∈ ((View.whole main_v164_0).slice (win11_4.rect t)).set ↔ _
  rw [View.set_slice_whole, Rect.mem_set_unit]
  exact Iff.rfl

/-- Row r is in the block of point r / 2000. -/
theorem covered11_4 (i : S100000x32.Idx) :
    ∃ t : Fin cfg11.N, (cfg11.win 4).flush t = true ∧ i ∈ ((cfg11.win 4).blk t).view.set := by
  have hi0 : (i 0).val < 100000 := (i 0).isLt
  have hi1 : (i 1).val < 32 := (i 1).isLt
  obtain ⟨t, ht⟩ : ∃ t : Fin cfg11.N, t.val = (i 0).val / 2000 :=
    ⟨⟨(i 0).val / 2000, by show (i 0).val / 2000 < grid11.N; rw [N_11]; omega⟩, rfl⟩
  obtain ⟨-, -, -, -, -, -, -, -, e40, e41, -, -⟩ := idx11 t
  refine ⟨t, flush11_4 t, ?_⟩
  rw [mem_blk11_4]
  intro a
  match a with
  | ⟨0, _⟩ => show win11_4.index t (0 : Fin 2) * 2000 ≤ (i 0).val ∧ (i 0).val < win11_4.index t (0 : Fin 2) * 2000 + 2000; omega
  | ⟨1, _⟩ => show win11_4.index t (1 : Fin 2) * 32 ≤ (i 1).val ∧ (i 1).val < win11_4.index t (1 : Fin 2) * 32 + 32; omega

/-- The masked activation's array after the region. -/
theorem masked11 (c : Dev nD) :
    (dat11 (F := Ideal) V c).arrAt 4 cfg11.N = Cert.Spec.masked 100000 32 (V c main_v160) (V c main_v163) (V c main_v146_1) (V c main_v162) :=
  (dat11 (F := Ideal) V c).arrAt_eq_of_cover 4 _ (fun t _ => flushed11_4 V c t) covered11_4

/-! ## The residual activation (output window 5) -/

/-- What point t writes back is block t of the residual activation of the arrays the region finds. -/
theorem flushed11_5 (c : Dev nD) (t : Fin cfg11.N) :
    (dat11 (F := Ideal) V c).flushed 5 t = ((cfg11.win 5).blk t).view.read (Elt Ideal)
      (Cert.Spec.resid 100000 32 (V c main_v160) (V c main_v163) (V c main_v146_1)) := by
  show (cfg11.win 5).cut (grid11.coords t) ((dat11 (F := Ideal) V c).after 5 t) = _
  rw [after11_5]
  unfold out11_5
  rw [View.canon_unit_zero ElemBody.off_zero]
  simp only [View.ld_unit_zero (S := S2000x32) ElemBody.off_zero, View.ld_unit_zero (S := S1x32) ElemBody.off_zero]
  rw [ElemBody.pay1_11]
  obtain ⟨e00, e01, e10, e11, e20, e21, e30, e31, e40, e41, e50, e51⟩ := idx11 t
  funext j
  obtain ⟨p, q, rfl⟩ : ∃ (p : Fin 2000) (q : Fin 32), j = ix2 p q := ⟨j 0, j 1, eq_ix2 j⟩
  refine ElemBody.resid_of_blocks _ _ _ _ _ _ p q _ ?_ ?_ ?_ ?_
  · apply Fin.ext
    show win11_5.index t (1 : Fin 2) * 32 + 1 * q.val = q.val
    omega
  · show V c main_v160 (((cfg11.win 0).blk t).view.emb (ix2 p q)) = V c main_v160 (((cfg11.win 5).blk t).view.emb (ix2 p q))
    refine congrArg _ (funext fun a => Fin.ext ?_)
    match a with
    | ⟨0, _⟩ => show win11_0.index t (0 : Fin 2) * 2000 + 1 * p.val = win11_5.index t (0 : Fin 2) * 2000 + 1 * p.val; omega
    | ⟨1, _⟩ => show win11_0.index t (1 : Fin 2) * 32 + 1 * q.val = win11_5.index t (1 : Fin 2) * 32 + 1 * q.val; omega
  · show V c main_v146_1 (((cfg11.win 1).blk t).view.emb (ix2 p q)) = V c main_v146_1 (((cfg11.win 5).blk t).view.emb (ix2 p q))
    refine congrArg _ (funext fun a => Fin.ext ?_)
    match a with
    | ⟨0, _⟩ => show win11_1.index t (0 : Fin 2) * 2000 + 1 * p.val = win11_5.index t (0 : Fin 2) * 2000 + 1 * p.val; omega
    | ⟨1, _⟩ => show win11_1.index t (1 : Fin 2) * 32 + 1 * q.val = win11_5.index t (1 : Fin 2) * 32 + 1 * q.val; omega
  · show V c main_v163 (((cfg11.win 3).blk t).view.emb (ix2 (0 : Fin 1) q)) = V c main_v163 (ix2 (0 : Fin 1) q)
    refine congrArg _ (funext fun a => Fin.ext ?_)
    match a with
    | ⟨0, _⟩ => show win11_3.index t (0 : Fin 2) * 1 + 1 * 0 = 0; omega
    | ⟨1, _⟩ => show win11_3.index t (1 : Fin 2) * 32 + 1 * q.val = q.val; omega

/-- An index of the array is in point t's block iff each coordinate is in the block's range on its axis. -/
theorem mem_blk11_5 (t : Fin cfg11.N) (i : S100000x32.Idx) :
    i ∈ ((cfg11.win 5).blk t).view.set ↔ ∀ a : Fin 2, win11_5.index t a * S2000x32.size a ≤ (i a).val
      ∧ (i a).val < win11_5.index t a * S2000x32.size a + S2000x32.size a := by
  show i ∈ ((View.whole main_v164_1).slice (win11_5.rect t)).set ↔ _
  rw [View.set_slice_whole, Rect.mem_set_unit]
  exact Iff.rfl

/-- Row r is in the block of point r / 2000. -/
theorem covered11_5 (i : S100000x32.Idx) :
    ∃ t : Fin cfg11.N, (cfg11.win 5).flush t = true ∧ i ∈ ((cfg11.win 5).blk t).view.set := by
  have hi0 : (i 0).val < 100000 := (i 0).isLt
  have hi1 : (i 1).val < 32 := (i 1).isLt
  obtain ⟨t, ht⟩ : ∃ t : Fin cfg11.N, t.val = (i 0).val / 2000 :=
    ⟨⟨(i 0).val / 2000, by show (i 0).val / 2000 < grid11.N; rw [N_11]; omega⟩, rfl⟩
  obtain ⟨-, -, -, -, -, -, -, -, -, -, e50, e51⟩ := idx11 t
  refine ⟨t, flush11_5 t, ?_⟩
  rw [mem_blk11_5]
  intro a
  match a with
  | ⟨0, _⟩ => show win11_5.index t (0 : Fin 2) * 2000 ≤ (i 0).val ∧ (i 0).val < win11_5.index t (0 : Fin 2) * 2000 + 2000; omega
  | ⟨1, _⟩ => show win11_5.index t (1 : Fin 2) * 32 ≤ (i 1).val ∧ (i 1).val < win11_5.index t (1 : Fin 2) * 32 + 32; omega

/-- The residual activation's array after the region. -/
theorem resid11 (c : Dev nD) :
    (dat11 (F := Ideal) V c).arrAt 5 cfg11.N = Cert.Spec.resid 100000 32 (V c main_v160) (V c main_v163) (V c main_v146_1) :=
  (dat11 (F := Ideal) V c).arrAt_eq_of_cover 5 _ (fun t _ => flushed11_5 V c t) covered11_5

end Cert.KernelIdeal.RegionValue

end
-- ==== Proof.Layer5.lean ====
/-
  Layer 5 of the idealized kernel program: its product region, the shared aggregation, its elementwise region.
  From what the layer finds, its two outputs are the reference's masked and residual activations of the same layer.
-/
import proofs.«148016_j80401787781528_2_alg».proof.Proof.Glue
import proofs.«148016_j80401787781528_2_alg».proof.Proof.Prefix
import proofs.«148016_j80401787781528_2_alg».proof.Proof.Keep
import proofs.«148016_j80401787781528_2_alg».proof.Proof.RegionMat10
import proofs.«148016_j80401787781528_2_alg».proof.Proof.RegionElem11

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The product region: its output array is the reference's product of the same layer. -/
theorem prod5 (c : Dev nD)
    (hcur : W18 m ρ c (Proc.devRef .tc main_v146_0) = Cert.ReferenceIdeal.Read.val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W19 m ρ c (Proc.devRef .tc main_v147) = Cert.ReferenceIdeal.Read.val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W19_arr m ρ c 2).trans ((RegionValue.prod10 (V18 m ρ) c).trans ?_)
  show Cert.Spec.prod 100000 32 32 (W18 m ρ c (Proc.devRef .tc main_v146_0)) (W18 m ρ c (Proc.devRef .tc main_v41)) = _
  rw [hcur, Keep.at18 m ρ c main_v41 (by decide), Prefix.v41 m ρ c]
  exact (Cert.Glue.ref_prod5 _ _ _ _ _ _ _).symm

set_option maxHeartbeats 16000000 in
/-- The stretch between the two regions: the shared aggregation of the product, the layer's dropout draws, its bias as a
    row; the residual carried in is untouched. -/
theorem stretch5 (c : Dev nD) :
    W20 m ρ c (Proc.devRef .tc main_v160) = Cert.Glue.agg32 (W19 m ρ c (Proc.devRef .tc main_v3)) (W19 m ρ c (Proc.devRef .tc main_v6)) (W19 m ρ c (Proc.devRef .tc main_v31)) (W19 m ρ c (Proc.devRef .tc main_v147))
    ∧ W20 m ρ c (Proc.devRef .tc main_v162) = Cert.ReferenceIdeal.Read.val_main_v202 (F := Ideal) (W19 m ρ c (Proc.devRef .tc main_arg2))
    ∧ W20 m ρ c (Proc.devRef .tc main_v163) = Cert.Glue.row32 (W19 m ρ c (Proc.devRef .tc main_v53))
    ∧ W20 m ρ c (Proc.devRef .tc main_v146_1) = W19 m ρ c (Proc.devRef .tc main_v146_1) := by
  refine ⟨?_, ?_, ?_, ?_⟩
  · dsimp only [W20, hostOps11]; after_results_simp; rfl
  · dsimp only [W20, hostOps11]; after_results_simp; rfl
  · dsimp only [W20, hostOps11]; after_results_simp; exact Cert.Glue.rowcast32 _ _
  · dsimp only [W20, hostOps11]; after_results_simp

/-- The layer: the elementwise region's two outputs are the reference's masked and residual activations. -/
theorem layer5 (c : Dev nD)
    (hcur : W18 m ρ c (Proc.devRef .tc main_v146_0) = Cert.ReferenceIdeal.Read.val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hold : W18 m ρ c (Proc.devRef .tc main_v146_1) = Cert.ReferenceIdeal.Read.val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W21 m ρ c (Proc.devRef .tc main_v164_0) = Cert.ReferenceIdeal.Read.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ W21 m ρ c (Proc.devRef .tc main_v164_1) = Cert.ReferenceIdeal.Read.val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨hAgg, hDrop, hRow, hOld⟩ := stretch5 m ρ c
  have hH := prod5 m ρ c hcur
  have e3 : W19 m ρ c (Proc.devRef .tc main_v3) = Cert.ReferenceIdeal.Read.val_main_v3 (F := Ideal) (m ((c : Thread nD τ).loc main_arg1)) := (Keep.at19 m ρ c main_v3 (by decide)).trans (Prefix.v3 m ρ c)
  have e6 : W19 m ρ c (Proc.devRef .tc main_v6) = Cert.ReferenceIdeal.Read.val_main_v6 (F := Ideal) (m ((c : Thread nD τ).loc main_arg1)) := (Keep.at19 m ρ c main_v6 (by decide)).trans (Prefix.v6 m ρ c)
  have e31 : W19 m ρ c (Proc.devRef .tc main_v31) = Cert.ReferenceIdeal.Read.val_main_v31 (F := Ideal) (m ((c : Thread nD τ).loc main_arg1)) := (Keep.at19 m ρ c main_v31 (by decide)).trans (Prefix.v31 m ρ c)
  have e2 : W19 m ρ c (Proc.devRef .tc main_arg2) = (m ((c : Thread nD τ).loc main_arg2)) := (Keep.at19 m ρ c main_arg2 (by decide)).trans (Prefix.arg2 m ρ c)
  have eb : W19 m ρ c (Proc.devRef .tc main_v53) = Cert.ReferenceIdeal.Read.val_main_v53 (F := Ideal) (m ((c : Thread nD τ).loc main_arg6)) := (Keep.at19 m ρ c main_v53 (by decide)).trans (Prefix.v53 m ρ c)
  have eo : W20 m ρ c (Proc.devRef .tc main_v146_1) = Cert.ReferenceIdeal.Read.val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := hOld.trans ((Keep.region10 m ρ c main_v146_1 (by decide)).trans hold)
  rw [e3, e6, e31, hH] at hAgg
  rw [e2] at hDrop
  rw [eb] at hRow
  have hM : W21 m ρ c (Proc.devRef .tc main_v164_0) = Cert.Spec.masked 100000 32 (W20 m ρ c (Proc.devRef .tc main_v160)) (W20 m ρ c (Proc.devRef .tc main_v163)) (W20 m ρ c (Proc.devRef .tc main_v146_1)) (W20 m ρ c (Proc.devRef .tc main_v162)) :=
    (W21_arr m ρ c 4).trans (RegionValue.masked11 (V20 m ρ) c)
  have hR : W21 m ρ c (Proc.devRef .tc main_v164_1) = Cert.Spec.resid 100000 32 (W20 m ρ c (Proc.devRef .tc main_v160)) (W20 m ρ c (Proc.devRef .tc main_v163)) (W20 m ρ c (Proc.devRef .tc main_v146_1)) :=
    (W21_arr m ρ c 5).trans (RegionValue.resid11 (V20 m ρ) c)
  rw [hAgg, hRow, eo, hDrop] at hM
  rw [hAgg, hRow, eo] at hR
  constructor
  · rw [hM, Cert.Glue.ref_cur5, Cert.Glue.ref_agg5]
  · rw [hR, Cert.Glue.ref_old5, Cert.Glue.ref_agg5]

end Cert.KernelIdeal.Layers

end
-- ==== Proof.RegionMat12.lean ====
/-
  A hidden layer's feature product (the sixth 32-wide one) as one function of the arrays its region finds.

  The region runs the 32-wide matrix-product body at 10 grid points.  At point t the left operand's block is rows
  10000 t … 10000 t + 9999 of the layer's input X, the 32 × 32 weight W is fetched whole, and the output's block is the
  same rows of the result.  So what point t writes back is the block of rows 10000 t … of the full product X · W, every
  row r is in the block of point r / 10000, and after the last point the output array holds X · W.
-/
import proofs.«148016_j80401787781528_2_alg».proof.Proof.MatBody
import proofs.«148016_j80401787781528_2_alg».proof.Proof.Spec
import proofs.«148016_j80401787781528_2_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten grid points: the left operand's and the output's row block is the point
    itself, their column block is 0, and the weight's block is (0, 0) at every point. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- Row p of the left operand's block at point t is row 10000 t + p of the left matrix. -/
theorem read12_left (c : Dev nD) (t : Fin cfg12.N) (p : Fin 10000) (k : Fin 32) (r : Fin 100000)
    (hr : r.val = t.val * 10000 + p.val) :
    iblk12 V c 0 t (ix2 p k) = V c main_v164_0 (ix2 r k) := by
  obtain ⟨e0, e1, -⟩ := idx12 t
  show V c main_v164_0 (((cfg12.win 0).blk t).view.emb (ix2 p k)) = V c main_v164_0 (ix2 r k)
  refine congrArg (V c main_v164_0) (funext fun a => Fin.ext ?_)
  match a with
  | ⟨0, _⟩ => show win12_0.index t (0 : Fin 2) * 10000 + 1 * p.val = r.val; omega
  | ⟨1, _⟩ => show win12_0.index t (1 : Fin 2) * 32 + 1 * k.val = k.val; omega

/-- The weight's block at every point is the weight. -/
theorem read12_right (c : Dev nD) (t : Fin cfg12.N) (k : Fin 32) (q q' : Fin 32) (hq : q'.val = q.val) :
    iblk12 V c 1 t (ix2 k q) = V c main_v43 (ix2 k q') := by
  obtain ⟨-, -, e2, e3, -⟩ := idx12 t
  show V c main_v43 (((cfg12.win 1).blk t).view.emb (ix2 k q)) = V c main_v43 (ix2 k q')
  refine congrArg (V c main_v43) (funext fun a => Fin.ext ?_)
  match a with
  | ⟨0, _⟩ => show win12_1.index t (0 : Fin 2) * 32 + 1 * k.val = k.val; omega
  | ⟨1, _⟩ => show win12_1.index t (1 : Fin 2) * 32 + 1 * q.val = q'.val; omega

/-- What point t writes back is its block of the full product. -/
theorem flushed12 (c : Dev nD) (t : Fin cfg12.N) :
    (dat12 (F := Ideal) V c).flushed 2 t
      = ((cfg12.win 2).blk t).view.read (Elt Ideal) (Cert.Spec.prod 100000 32 32 (V c main_v164_0) (V c main_v43)) := by
  show (cfg12.win 2).cut (grid12.coords t) ((dat12 V c).after 2 t) = _
  rw [after12_2]
  unfold out12_2
  rw [View.canon_unit_zero offsets_zero]
  simp only [View.ld_unit_zero (S := S10000x32) offsets_zero, View.ld_unit_zero (S := S32x32) offsets_zero]
  obtain ⟨-, -, -, -, e4, e5⟩ := idx12 t
  funext j
  have hj0 : (j 0).val < 10000 := (j 0).isLt
  have hj1 : (j 1).val < 32 := (j 1).isLt
  have hx : (cfg12.win 2).xinj (grid12.coords t) j = ix2 (⟨(j 0).val, hj0⟩ : Fin 10000) (⟨(j 1).val, hj1⟩ : Fin 32) :=
    funext fun a => by
      match a with
      | ⟨0, _⟩ => rfl
      | ⟨1, _⟩ => rfl
  show k12_pay1 (iblk12 V c 0 t) (iblk12 V c 1 t) ((cfg12.win 2).xinj (grid12.coords t) j)
    = Cert.Spec.prod 100000 32 32 (V c main_v164_0) (V c main_v43) (((cfg12.win 2).blk t).view.emb j)
  rw [hx]
  refine pay12_entry _ _ _ _ _ _ _ (fun k => ?_) (fun k => ?_)
  · refine read12_left V c t _ k _ ?_
    show win12_2.index t (0 : Fin 2) * 10000 + 1 * (j 0).val = t.val * 10000 + (j 0).val
    omega
  · refine read12_right V c t k _ _ ?_
    show win12_2.index t (1 : Fin 2) * 32 + 1 * (j 1).val = (j 1).val
    omega

/-- An index of the output array is in point t's block iff each coordinate is in the block's range on its axis. -/
theorem mem_blk12 (t : Fin cfg12.N) (i : S100000x32.Idx) :
    i ∈ ((cfg12.win 2).blk t).view.set ↔ ∀ a : Fin 2, win12_2.index t a * S10000x32.size a ≤ (i a).val
      ∧ (i a).val < win12_2.index t a * S10000x32.size a + S10000x32.size a := by
  show i ∈ ((View.whole main_v165).slice (win12_2.rect t)).set ↔ _
  rw [View.set_slice_whole, Rect.mem_set_unit]
  exact Iff.rfl

/-- Every index of the output array is in the block of the point its row falls in. -/
theorem cover12 (i : S100000x32.Idx) :
    ∃ t : Fin cfg12.N, (cfg12.win 2).flush t = true ∧ i ∈ ((cfg12.win 2).blk t).view.set := by
  have hi0 : (i 0).val < 100000 := (i 0).isLt
  have hi1 : (i 1).val < 32 := (i 1).isLt
  obtain ⟨t, ht⟩ : ∃ t : Fin cfg12.N, t.val = (i 0).val / 10000 :=
    ⟨⟨(i 0).val / 10000, by show (i 0).val / 10000 < 10; omega⟩, rfl⟩
  obtain ⟨-, -, -, -, e4, e5⟩ := idx12 t
  refine ⟨t, flush12_2 t, ?_⟩
  rw [mem_blk12]
  intro a
  match a with
  | ⟨0, _⟩ =>
    show win12_2.index t (0 : Fin 2) * 10000 ≤ (i 0).val ∧ (i 0).val < win12_2.index t (0 : Fin 2) * 10000 + 10000
    omega
  | ⟨1, _⟩ =>
    show win12_2.index t (1 : Fin 2) * 32 ≤ (i 1).val ∧ (i 1).val < win12_2.index t (1 : Fin 2) * 32 + 32
    omega

/-- After the region the output array holds the product of the left matrix and the weight. -/
theorem prod12 (c : Dev nD) :
    (dat12 (F := Ideal) V c).arrAt 2 cfg12.N = Cert.Spec.prod 100000 32 32 (V c main_v164_0) (V c main_v43) :=
  (dat12 V c).arrAt_eq_of_cover 2 _ (fun t _ => flushed12 V c t) cover12

end Cert.KernelIdeal.RegionValue

end
-- ==== Proof.RegionElem13.lean ====
/-
  Hidden layer, region 13: the two output arrays after all 50 row blocks, each as one function of the arrays the
  region finds.

  The grid is 50 points; point t handles rows 2000 t … 2000 t + 1999 of every [100000, 32] array and the whole bias
  row. At point t the body leaves in each output block the specification's function of the input blocks, which are the
  arrays' rows at the same offsets; the 50 blocks cover all 100000 rows, row r lying in the block of point r / 2000.
-/
import proofs.«148016_j80401787781528_2_alg».proof.Proof.Gen.KernelIdeal.Frame
import proofs.«148016_j80401787781528_2_alg».proof.Proof.ElemBody
import proofs.«148016_j80401787781528_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices over the grid: the five row-blocked windows are at block (t, 0), the bias row at (0, 0). -/
theorem idx13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0
    ∧ win13_5.index t (0 : Fin 2) = t.val ∧ win13_5.index t (1 : Fin 2) = 0 :=
  (by decide +kernel : ∀ t : Fin grid13.N, _)

/-! ## The masked activation (output window 4) -/

/-- What point t writes back is block t of the masked activation of the arrays the region finds. -/
theorem flushed13_4 (c : Dev nD) (t : Fin cfg13.N) :
    (dat13 (F := Ideal) V c).flushed 4 t = ((cfg13.win 4).blk t).view.read (Elt Ideal)
      (Cert.Spec.masked 100000 32 (V c main_v178) (V c main_v181) (V c main_v164_1) (V c main_v180)) := by
  show (cfg13.win 4).cut (grid13.coords t) ((dat13 (F := Ideal) V c).after 4 t) = _
  rw [after13_4]
  unfold out13_4
  rw [View.canon_unit_zero ElemBody.off_zero]
  simp only [View.ld_unit_zero (S := S2000x32) ElemBody.off_zero, View.ld_unit_zero (S := S1x32) ElemBody.off_zero]
  rw [ElemBody.pay2_13]
  obtain ⟨e00, e01, e10, e11, e20, e21, e30, e31, e40, e41, e50, e51⟩ := idx13 t
  funext j
  obtain ⟨p, q, rfl⟩ : ∃ (p : Fin 2000) (q : Fin 32), j = ix2 p q := ⟨j 0, j 1, eq_ix2 j⟩
  refine ElemBody.masked_of_blocks _ _ _ _ _ _ _ _ p q _ ?_ ?_ ?_ ?_ ?_
  · apply Fin.ext
    show win13_4.index t (1 : Fin 2) * 32 + 1 * q.val = q.val
    omega
  · show V c main_v178 (((cfg13.win 0).blk t).view.emb (ix2 p q)) = V c main_v178 (((cfg13.win 4).blk t).view.emb (ix2 p q))
    refine congrArg _ (funext fun a => Fin.ext ?_)
    match a with
    | ⟨0, _⟩ => show win13_0.index t (0 : Fin 2) * 2000 + 1 * p.val = win13_4.index t (0 : Fin 2) * 2000 + 1 * p.val; omega
    | ⟨1, _⟩ => show win13_0.index t (1 : Fin 2) * 32 + 1 * q.val = win13_4.index t (1 : Fin 2) * 32 + 1 * q.val; omega
  · show V c main_v164_1 (((cfg13.win 1).blk t).view.emb (ix2 p q)) = V c main_v164_1 (((cfg13.win 4).blk t).view.emb (ix2 p q))
    refine congrArg _ (funext fun a => Fin.ext ?_)
    match a with
    | ⟨0, _⟩ => show win13_1.index t (0 : Fin 2) * 2000 + 1 * p.val = win13_4.index t (0 : Fin 2) * 2000 + 1 * p.val; omega
    | ⟨1, _⟩ => show win13_1.index t (1 : Fin 2) * 32 + 1 * q.val = win13_4.index t (1 : Fin 2) * 32 + 1 * q.val; omega
  · show V c main_v180 (((cfg13.win 2).blk t).view.emb (ix2 p q)) = V c main_v180 (((cfg13.win 4).blk t).view.emb (ix2 p q))
    refine congrArg _ (funext fun a => Fin.ext ?_)
    match a with
    | ⟨0, _⟩ => show win13_2.index t (0 : Fin 2) * 2000 + 1 * p.val = win13_4.index t (0 : Fin 2) * 2000 + 1 * p.val; omega
    | ⟨1, _⟩ => show win13_2.index t (1 : Fin 2) * 32 + 1 * q.val = win13_4.index t (1 : Fin 2) * 32 + 1 * q.val; omega
  · show V c main_v181 (((cfg13.win 3).blk t).view.emb (ix2 (0 : Fin 1) q)) = V c main_v181 (ix2 (0 : Fin 1) q)
    refine congrArg _ (funext fun a => Fin.ext ?_)
    match a with
    | ⟨0, _⟩ => show win13_3.index t (0 : Fin 2) * 1 + 1 * 0 = 0; omega
    | ⟨1, _⟩ => show win13_3.index t (1 : Fin 2) * 32 + 1 * q.val = q.val; omega

/-- An index of the array is in point t's block iff each coordinate is in the block's range on its axis. -/
theorem mem_blk13_4 (t : Fin cfg13.N) (i : S100000x32.Idx) :
    i ∈ ((cfg13.win 4).blk t).view.set ↔ ∀ a : Fin 2, win13_4.index t a * S2000x32.size a ≤ (i a).val
      ∧ (i a).val < win13_4.index t a * S2000x32.size a + S2000x32.size a := by
  show i ∈ ((View.whole main_v182_0).slice (win13_4.rect t)).set ↔ _
  rw [View.set_slice_whole, Rect.mem_set_unit]
  exact Iff.rfl

/-- Row r is in the block of point r / 2000. -/
theorem covered13_4 (i : S100000x32.Idx) :
    ∃ t : Fin cfg13.N, (cfg13.win 4).flush t = true ∧ i ∈ ((cfg13.win 4).blk t).view.set := by
  have hi0 : (i 0).val < 100000 := (i 0).isLt
  have hi1 : (i 1).val < 32 := (i 1).isLt
  obtain ⟨t, ht⟩ : ∃ t : Fin cfg13.N, t.val = (i 0).val / 2000 :=
    ⟨⟨(i 0).val / 2000, by show (i 0).val / 2000 < grid13.N; rw [N_13]; omega⟩, rfl⟩
  obtain ⟨-, -, -, -, -, -, -, -, e40, e41, -, -⟩ := idx13 t
  refine ⟨t, flush13_4 t, ?_⟩
  rw [mem_blk13_4]
  intro a
  match a with
  | ⟨0, _⟩ => show win13_4.index t (0 : Fin 2) * 2000 ≤ (i 0).val ∧ (i 0).val < win13_4.index t (0 : Fin 2) * 2000 + 2000; omega
  | ⟨1, _⟩ => show win13_4.index t (1 : Fin 2) * 32 ≤ (i 1).val ∧ (i 1).val < win13_4.index t (1 : Fin 2) * 32 + 32; omega

/-- The masked activation's array after the region. -/
theorem masked13 (c : Dev nD) :
    (dat13 (F := Ideal) V c).arrAt 4 cfg13.N = Cert.Spec.masked 100000 32 (V c main_v178) (V c main_v181) (V c main_v164_1) (V c main_v180) :=
  (dat13 (F := Ideal) V c).arrAt_eq_of_cover 4 _ (fun t _ => flushed13_4 V c t) covered13_4

/-! ## The residual activation (output window 5) -/

/-- What point t writes back is block t of the residual activation of the arrays the region finds. -/
theorem flushed13_5 (c : Dev nD) (t : Fin cfg13.N) :
    (dat13 (F := Ideal) V c).flushed 5 t = ((cfg13.win 5).blk t).view.read (Elt Ideal)
      (Cert.Spec.resid 100000 32 (V c main_v178) (V c main_v181) (V c main_v164_1)) := by
  show (cfg13.win 5).cut (grid13.coords t) ((dat13 (F := Ideal) V c).after 5 t) = _
  rw [after13_5]
  unfold out13_5
  rw [View.canon_unit_zero ElemBody.off_zero]
  simp only [View.ld_unit_zero (S := S2000x32) ElemBody.off_zero, View.ld_unit_zero (S := S1x32) ElemBody.off_zero]
  rw [ElemBody.pay1_13]
  obtain ⟨e00, e01, e10, e11, e20, e21, e30, e31, e40, e41, e50, e51⟩ := idx13 t
  funext j
  obtain ⟨p, q, rfl⟩ : ∃ (p : Fin 2000) (q : Fin 32), j = ix2 p q := ⟨j 0, j 1, eq_ix2 j⟩
  refine ElemBody.resid_of_blocks _ _ _ _ _ _ p q _ ?_ ?_ ?_ ?_
  · apply Fin.ext
    show win13_5.index t (1 : Fin 2) * 32 + 1 * q.val = q.val
    omega
  · show V c main_v178 (((cfg13.win 0).blk t).view.emb (ix2 p q)) = V c main_v178 (((cfg13.win 5).blk t).view.emb (ix2 p q))
    refine congrArg _ (funext fun a => Fin.ext ?_)
    match a with
    | ⟨0, _⟩ => show win13_0.index t (0 : Fin 2) * 2000 + 1 * p.val = win13_5.index t (0 : Fin 2) * 2000 + 1 * p.val; omega
    | ⟨1, _⟩ => show win13_0.index t (1 : Fin 2) * 32 + 1 * q.val = win13_5.index t (1 : Fin 2) * 32 + 1 * q.val; omega
  · show V c main_v164_1 (((cfg13.win 1).blk t).view.emb (ix2 p q)) = V c main_v164_1 (((cfg13.win 5).blk t).view.emb (ix2 p q))
    refine congrArg _ (funext fun a => Fin.ext ?_)
    match a with
    | ⟨0, _⟩ => show win13_1.index t (0 : Fin 2) * 2000 + 1 * p.val = win13_5.index t (0 : Fin 2) * 2000 + 1 * p.val; omega
    | ⟨1, _⟩ => show win13_1.index t (1 : Fin 2) * 32 + 1 * q.val = win13_5.index t (1 : Fin 2) * 32 + 1 * q.val; omega
  · show V c main_v181 (((cfg13.win 3).blk t).view.emb (ix2 (0 : Fin 1) q)) = V c main_v181 (ix2 (0 : Fin 1) q)
    refine congrArg _ (funext fun a => Fin.ext ?_)
    match a with
    | ⟨0, _⟩ => show win13_3.index t (0 : Fin 2) * 1 + 1 * 0 = 0; omega
    | ⟨1, _⟩ => show win13_3.index t (1 : Fin 2) * 32 + 1 * q.val = q.val; omega

/-- An index of the array is in point t's block iff each coordinate is in the block's range on its axis. -/
theorem mem_blk13_5 (t : Fin cfg13.N) (i : S100000x32.Idx) :
    i ∈ ((cfg13.win 5).blk t).view.set ↔ ∀ a : Fin 2, win13_5.index t a * S2000x32.size a ≤ (i a).val
      ∧ (i a).val < win13_5.index t a * S2000x32.size a + S2000x32.size a := by
  show i ∈ ((View.whole main_v182_1).slice (win13_5.rect t)).set ↔ _
  rw [View.set_slice_whole, Rect.mem_set_unit]
  exact Iff.rfl

/-- Row r is in the block of point r / 2000. -/
theorem covered13_5 (i : S100000x32.Idx) :
    ∃ t : Fin cfg13.N, (cfg13.win 5).flush t = true ∧ i ∈ ((cfg13.win 5).blk t).view.set := by
  have hi0 : (i 0).val < 100000 := (i 0).isLt
  have hi1 : (i 1).val < 32 := (i 1).isLt
  obtain ⟨t, ht⟩ : ∃ t : Fin cfg13.N, t.val = (i 0).val / 2000 :=
    ⟨⟨(i 0).val / 2000, by show (i 0).val / 2000 < grid13.N; rw [N_13]; omega⟩, rfl⟩
  obtain ⟨-, -, -, -, -, -, -, -, -, -, e50, e51⟩ := idx13 t
  refine ⟨t, flush13_5 t, ?_⟩
  rw [mem_blk13_5]
  intro a
  match a with
  | ⟨0, _⟩ => show win13_5.index t (0 : Fin 2) * 2000 ≤ (i 0).val ∧ (i 0).val < win13_5.index t (0 : Fin 2) * 2000 + 2000; omega
  | ⟨1, _⟩ => show win13_5.index t (1 : Fin 2) * 32 ≤ (i 1).val ∧ (i 1).val < win13_5.index t (1 : Fin 2) * 32 + 32; omega

/-- The residual activation's array after the region. -/
theorem resid13 (c : Dev nD) :
    (dat13 (F := Ideal) V c).arrAt 5 cfg13.N = Cert.Spec.resid 100000 32 (V c main_v178) (V c main_v181) (V c main_v164_1) :=
  (dat13 (F := Ideal) V c).arrAt_eq_of_cover 5 _ (fun t _ => flushed13_5 V c t) covered13_5

end Cert.KernelIdeal.RegionValue

end
-- ==== Proof.Layer6.lean ====
/-
  Layer 6 of the idealized kernel program: its product region, the shared aggregation, its elementwise region.
  From what the layer finds, its two outputs are the reference's masked and residual activations of the same layer.
-/
import proofs.«148016_j80401787781528_2_alg».proof.Proof.Glue
import proofs.«148016_j80401787781528_2_alg».proof.Proof.Prefix
import proofs.«148016_j80401787781528_2_alg».proof.Proof.Keep
import proofs.«148016_j80401787781528_2_alg».proof.Proof.RegionMat12
import proofs.«148016_j80401787781528_2_alg».proof.Proof.RegionElem13

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The product region: its output array is the reference's product of the same layer. -/
theorem prod6 (c : Dev nD)
    (hcur : W21 m ρ c (Proc.devRef .tc main_v164_0) = Cert.ReferenceIdeal.Read.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W22 m ρ c (Proc.devRef .tc main_v165) = Cert.ReferenceIdeal.Read.val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W22_arr m ρ c 2).trans ((RegionValue.prod12 (V21 m ρ) c).trans ?_)
  show Cert.Spec.prod 100000 32 32 (W21 m ρ c (Proc.devRef .tc main_v164_0)) (W21 m ρ c (Proc.devRef .tc main_v43)) = _
  rw [hcur, Keep.at21 m ρ c main_v43 (by decide), Prefix.v43 m ρ c]
  exact (Cert.Glue.ref_prod6 _ _ _ _ _ _ _).symm

set_option maxHeartbeats 16000000 in
/-- The stretch between the two regions: the shared aggregation of the product, the layer's dropout draws, its bias as a
    row; the residual carried in is untouched. -/
theorem stretch6 (c : Dev nD) :
    W23 m ρ c (Proc.devRef .tc main_v178) = Cert.Glue.agg32 (W22 m ρ c (Proc.devRef .tc main_v3)) (W22 m ρ c (Proc.devRef .tc main_v6)) (W22 m ρ c (Proc.devRef .tc main_v31)) (W22 m ρ c (Proc.devRef .tc main_v165))
    ∧ W23 m ρ c (Proc.devRef .tc main_v180) = Cert.ReferenceIdeal.Read.val_main_v227 (F := Ideal) (W22 m ρ c (Proc.devRef .tc main_arg2))
    ∧ W23 m ρ c (Proc.devRef .tc main_v181) = Cert.Glue.row32 (W22 m ρ c (Proc.devRef .tc main_v55))
    ∧ W23 m ρ c (Proc.devRef .tc main_v164_1) = W22 m ρ c (Proc.devRef .tc main_v164_1) := by
  refine ⟨?_, ?_, ?_, ?_⟩
  · dsimp only [W23, hostOps13]; after_results_simp; rfl
  · dsimp only [W23, hostOps13]; after_results_simp; rfl
  · dsimp only [W23, hostOps13]; after_results_simp; exact Cert.Glue.rowcast32 _ _
  · dsimp only [W23, hostOps13]; after_results_simp

/-- The layer: the elementwise region's two outputs are the reference's masked and residual activations. -/
theorem layer6 (c : Dev nD)
    (hcur : W21 m ρ c (Proc.devRef .tc main_v164_0) = Cert.ReferenceIdeal.Read.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hold : W21 m ρ c (Proc.devRef .tc main_v164_1) = Cert.ReferenceIdeal.Read.val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W24 m ρ c (Proc.devRef .tc main_v182_0) = Cert.ReferenceIdeal.Read.val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ W24 m ρ c (Proc.devRef .tc main_v182_1) = Cert.ReferenceIdeal.Read.val_main_v225 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨hAgg, hDrop, hRow, hOld⟩ := stretch6 m ρ c
  have hH := prod6 m ρ c hcur
  have e3 : W22 m ρ c (Proc.devRef .tc main_v3) = Cert.ReferenceIdeal.Read.val_main_v3 (F := Ideal) (m ((c : Thread nD τ).loc main_arg1)) := (Keep.at22 m ρ c main_v3 (by decide)).trans (Prefix.v3 m ρ c)
  have e6 : W22 m ρ c (Proc.devRef .tc main_v6) = Cert.ReferenceIdeal.Read.val_main_v6 (F := Ideal) (m ((c : Thread nD τ).loc main_arg1)) := (Keep.at22 m ρ c main_v6 (by decide)).trans (Prefix.v6 m ρ c)
  have e31 : W22 m ρ c (Proc.devRef .tc main_v31) = Cert.ReferenceIdeal.Read.val_main_v31 (F := Ideal) (m ((c : Thread nD τ).loc main_arg1)) := (Keep.at22 m ρ c main_v31 (by decide)).trans (Prefix.v31 m ρ c)
  have e2 : W22 m ρ c (Proc.devRef .tc main_arg2) = (m ((c : Thread nD τ).loc main_arg2)) := (Keep.at22 m ρ c main_arg2 (by decide)).trans (Prefix.arg2 m ρ c)
  have eb : W22 m ρ c (Proc.devRef .tc main_v55) = Cert.ReferenceIdeal.Read.val_main_v55 (F := Ideal) (m ((c : Thread nD τ).loc main_arg6)) := (Keep.at22 m ρ c main_v55 (by decide)).trans (Prefix.v55 m ρ c)
  have eo : W23 m ρ c (Proc.devRef .tc main_v164_1) = Cert.ReferenceIdeal.Read.val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := hOld.trans ((Keep.region12 m ρ c main_v164_1 (by decide)).trans hold)
  rw [e3, e6, e31, hH] at hAgg
  rw [e2] at hDrop
  rw [eb] at hRow
  have hM : W24 m ρ c (Proc.devRef .tc main_v182_0) = Cert.Spec.masked 100000 32 (W23 m ρ c (Proc.devRef .tc main_v178)) (W23 m ρ c (Proc.devRef .tc main_v181)) (W23 m ρ c (Proc.devRef .tc main_v164_1)) (W23 m ρ c (Proc.devRef .tc main_v180)) :=
    (W24_arr m ρ c 4).trans (RegionValue.masked13 (V23 m ρ) c)
  have hR : W24 m ρ c (Proc.devRef .tc main_v182_1) = Cert.Spec.resid 100000 32 (W23 m ρ c (Proc.devRef .tc main_v178)) (W23 m ρ c (Proc.devRef .tc main_v181)) (W23 m ρ c (Proc.devRef .tc main_v164_1)) :=
    (W24_arr m ρ c 5).trans (RegionValue.resid13 (V23 m ρ) c)
  rw [hAgg, hRow, eo, hDrop] at hM
  rw [hAgg, hRow, eo] at hR
  constructor
  · rw [hM, Cert.Glue.ref_cur6, Cert.Glue.ref_agg6]
  · rw [hR, Cert.Glue.ref_old6, Cert.Glue.ref_agg6]

end Cert.KernelIdeal.Layers

end
-- ==== Proof.RegionMat14.lean ====
/-
  The output layer's product as one function of the arrays its region finds.

  The region runs the 32 × 40 matrix-product body at 10 grid points.  At point t the left operand's block is rows
  10000 t … 10000 t + 9999 of the last hidden activation X, the 32 × 40 weight W is fetched whole, and the output's
  block is the same rows of the result.  So what point t writes back is the block of rows 10000 t … of the full
  product X · W, every row r is in the block of point r / 10000, and after the last point the output array holds X · W.
-/
import proofs.«148016_j80401787781528_2_alg».proof.Proof.MatBody
import proofs.«148016_j80401787781528_2_alg».proof.Proof.Spec
import proofs.«148016_j80401787781528_2_alg».proof.Proof.Gen.KernelIdeal.Frame
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten grid points: the left operand's and the output's row block is the point
    itself, their column block is 0, and the weight's block is (0, 0) at every point. -/
theorem idx14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

/-- Row p of the left operand's block at point t is row 10000 t + p of the left matrix. -/
theorem read14_left (c : Dev nD) (t : Fin cfg14.N) (p : Fin 10000) (k : Fin 32) (r : Fin 100000)
    (hr : r.val = t.val * 10000 + p.val) :
    iblk14 V c 0 t (ix2 p k) = V c main_v182_0 (ix2 r k) := by
  obtain ⟨e0, e1, -⟩ := idx14 t
  show V c main_v182_0 (((cfg14.win 0).blk t).view.emb (ix2 p k)) = V c main_v182_0 (ix2 r k)
  refine congrArg (V c main_v182_0) (funext fun a => Fin.ext ?_)
  match a with
  | ⟨0, _⟩ => show win14_0.index t (0 : Fin 2) * 10000 + 1 * p.val = r.val; omega
  | ⟨1, _⟩ => show win14_0.index t (1 : Fin 2) * 32 + 1 * k.val = k.val; omega

/-- The weight's block at every point is the weight. -/
theorem read14_right (c : Dev nD) (t : Fin cfg14.N) (k : Fin 32) (q q' : Fin 40) (hq : q'.val = q.val) :
    iblk14 V c 1 t (ix2 k q) = V c main_arg7 (ix2 k q') := by
  obtain ⟨-, -, e2, e3, -⟩ := idx14 t
  show V c main_arg7 (((cfg14.win 1).blk t).view.emb (ix2 k q)) = V c main_arg7 (ix2 k q')
  refine congrArg (V c main_arg7) (funext fun a => Fin.ext ?_)
  match a with
  | ⟨0, _⟩ => show win14_1.index t (0 : Fin 2) * 32 + 1 * k.val = k.val; omega
  | ⟨1, _⟩ => show win14_1.index t (1 : Fin 2) * 40 + 1 * q.val = q'.val; omega

/-- What point t writes back is its block of the full product. -/
theorem flushed14 (c : Dev nD) (t : Fin cfg14.N) :
    (dat14 (F := Ideal) V c).flushed 2 t
      = ((cfg14.win 2).blk t).view.read (Elt Ideal) (Cert.Spec.prod 100000 32 40 (V c main_v182_0) (V c main_arg7)) := by
  show (cfg14.win 2).cut (grid14.coords t) ((dat14 V c).after 2 t) = _
  rw [after14_2]
  unfold out14_2
  rw [View.canon_unit_zero offsets_zero]
  simp only [View.ld_unit_zero (S := S10000x32) offsets_zero, View.ld_unit_zero (S := S32x40) offsets_zero]
  obtain ⟨-, -, -, -, e4, e5⟩ := idx14 t
  funext j
  have hj0 : (j 0).val < 10000 := (j 0).isLt
  have hj1 : (j 1).val < 40 := (j 1).isLt
  have hx : (cfg14.win 2).xinj (grid14.coords t) j = ix2 (⟨(j 0).val, hj0⟩ : Fin 10000) (⟨(j 1).val, hj1⟩ : Fin 40) :=
    funext fun a => by
      match a with
      | ⟨0, _⟩ => rfl
      | ⟨1, _⟩ => rfl
  show k14_pay1 (iblk14 V c 0 t) (iblk14 V c 1 t) ((cfg14.win 2).xinj (grid14.coords t) j)
    = Cert.Spec.prod 100000 32 40 (V c main_v182_0) (V c main_arg7) (((cfg14.win 2).blk t).view.emb j)
  rw [hx]
  refine pay14_entry _ _ _ _ _ _ _ (fun k => ?_) (fun k => ?_)
  · refine read14_left V c t _ k _ ?_
    show win14_2.index t (0 : Fin 2) * 10000 + 1 * (j 0).val = t.val * 10000 + (j 0).val
    omega
  · refine read14_right V c t k _ _ ?_
    show win14_2.index t (1 : Fin 2) * 40 + 1 * (j 1).val = (j 1).val
    omega

/-- An index of the output array is in point t's block iff each coordinate is in the block's range on its axis. -/
theorem mem_blk14 (t : Fin cfg14.N) (i : S100000x40.Idx) :
    i ∈ ((cfg14.win 2).blk t).view.set ↔ ∀ a : Fin 2, win14_2.index t a * S10000x40.size a ≤ (i a).val
      ∧ (i a).val < win14_2.index t a * S10000x40.size a + S10000x40.size a := by
  show i ∈ ((View.whole main_v183).slice (win14_2.rect t)).set ↔ _
  rw [View.set_slice_whole, Rect.mem_set_unit]
  exact Iff.rfl

/-- Every index of the output array is in the block of the point its row falls in. -/
theorem cover14 (i : S100000x40.Idx) :
    ∃ t : Fin cfg14.N, (cfg14.win 2).flush t = true ∧ i ∈ ((cfg14.win 2).blk t).view.set := by
  have hi0 : (i 0).val < 100000 := (i 0).isLt
  have hi1 : (i 1).val < 40 := (i 1).isLt
  obtain ⟨t, ht⟩ : ∃ t : Fin cfg14.N, t.val = (i 0).val / 10000 :=
    ⟨⟨(i 0).val / 10000, by show (i 0).val / 10000 < 10; omega⟩, rfl⟩
  obtain ⟨-, -, -, -, e4, e5⟩ := idx14 t
  refine ⟨t, flush14_2 t, ?_⟩
  rw [mem_blk14]
  intro a
  match a with
  | ⟨0, _⟩ =>
    show win14_2.index t (0 : Fin 2) * 10000 ≤ (i 0).val ∧ (i 0).val < win14_2.index t (0 : Fin 2) * 10000 + 10000
    omega
  | ⟨1, _⟩ =>
    show win14_2.index t (1 : Fin 2) * 40 ≤ (i 1).val ∧ (i 1).val < win14_2.index t (1 : Fin 2) * 40 + 40
    omega

/-- After the region the output array holds the product of the left matrix and the weight. -/
theorem prod14 (c : Dev nD) :
    (dat14 (F := Ideal) V c).arrAt 2 cfg14.N = Cert.Spec.prod 100000 32 40 (V c main_v182_0) (V c main_arg7) :=
  (dat14 V c).arrAt_eq_of_cover 2 _ (fun t _ => flushed14 V c t) cover14

end Cert.KernelIdeal.RegionValue

end
-- ==== Proof.RegionBias15.lean ====
/-
  Output layer, region 15: the output array after all 50 row blocks as one function of the arrays the region finds.

  The grid is 50 points; point t handles rows 2000 t … 2000 t + 1999 of the [100000, 40] arrays and the whole bias row.
  At point t the body leaves agg + b of its input block, which is the array's rows at the same offset; the 50 blocks
  cover all 100000 rows, row r lying in the block of point r / 2000.
-/
import proofs.«148016_j80401787781528_2_alg».proof.Proof.Gen.KernelIdeal.Frame
import proofs.«148016_j80401787781528_2_alg».proof.Proof.ElemBody
import proofs.«148016_j80401787781528_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices over the grid: the two row-blocked windows are at block (t, 0), the bias row at (0, 0). -/
theorem idx15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

/-- What point t writes back is block t of agg + b of the arrays the region finds. -/
theorem flushed15_2 (c : Dev nD) (t : Fin cfg15.N) :
    (dat15 (F := Ideal) V c).flushed 2 t = ((cfg15.win 2).blk t).view.read (Elt Ideal)
      (Cert.Spec.biased 100000 40 (V c main_v196) (V c main_v197)) := by
  show (cfg15.win 2).cut (grid15.coords t) ((dat15 (F := Ideal) V c).after 2 t) = _
  rw [after15_2]
  unfold out15_2
  rw [View.canon_unit_zero ElemBody.off_zero]
  simp only [View.ld_unit_zero (S := S2000x40) ElemBody.off_zero, View.ld_unit_zero (S := S1x40) ElemBody.off_zero]
  obtain ⟨e00, e01, e10, e11, e20, e21⟩ := idx15 t
  funext j
  obtain ⟨p, q, rfl⟩ : ∃ (p : Fin 2000) (q : Fin 40), j = ix2 p q := ⟨j 0, j 1, eq_ix2 j⟩
  refine ElemBody.biased_of_blocks _ _ _ _ p q _ ?_ ?_ ?_
  · apply Fin.ext
    show win15_2.index t (1 : Fin 2) * 40 + 1 * q.val = q.val
    omega
  · show V c main_v196 (((cfg15.win 0).blk t).view.emb (ix2 p q)) = V c main_v196 (((cfg15.win 2).blk t).view.emb (ix2 p q))
    refine congrArg _ (funext fun a => Fin.ext ?_)
    match a with
    | ⟨0, _⟩ => show win15_0.index t (0 : Fin 2) * 2000 + 1 * p.val = win15_2.index t (0 : Fin 2) * 2000 + 1 * p.val; omega
    | ⟨1, _⟩ => show win15_0.index t (1 : Fin 2) * 40 + 1 * q.val = win15_2.index t (1 : Fin 2) * 40 + 1 * q.val; omega
  · show V c main_v197 (((cfg15.win 1).blk t).view.emb (ix2 (0 : Fin 1) q)) = V c main_v197 (ix2 (0 : Fin 1) q)
    refine congrArg _ (funext fun a => Fin.ext ?_)
    match a with
    | ⟨0, _⟩ => show win15_1.index t (0 : Fin 2) * 1 + 1 * 0 = 0; omega
    | ⟨1, _⟩ => show win15_1.index t (1 : Fin 2) * 40 + 1 * q.val = q.val; omega

/-- An index of the array is in point t's block iff each coordinate is in the block's range on its axis. -/
theorem mem_blk15_2 (t : Fin cfg15.N) (i : S100000x40.Idx) :
    i ∈ ((cfg15.win 2).blk t).view.set ↔ ∀ a : Fin 2, win15_2.index t a * S2000x40.size a ≤ (i a).val
      ∧ (i a).val < win15_2.index t a * S2000x40.size a + S2000x40.size a := by
  show i ∈ ((View.whole main_v198).slice (win15_2.rect t)).set ↔ _
  rw [View.set_slice_whole, Rect.mem_set_unit]
  exact Iff.rfl

/-- Row r is in the block of point r / 2000. -/
theorem covered15_2 (i : S100000x40.Idx) :
    ∃ t : Fin cfg15.N, (cfg15.win 2).flush t = true ∧ i ∈ ((cfg15.win 2).blk t).view.set := by
  have hi0 : (i 0).val < 100000 := (i 0).isLt
  have hi1 : (i 1).val < 40 := (i 1).isLt
  obtain ⟨t, ht⟩ : ∃ t : Fin cfg15.N, t.val = (i 0).val / 2000 :=
    ⟨⟨(i 0).val / 2000, by show (i 0).val / 2000 < grid15.N; rw [N_15]; omega⟩, rfl⟩
  obtain ⟨-, -, -, -, e20, e21⟩ := idx15 t
  refine ⟨t, flush15_2 t, ?_⟩
  rw [mem_blk15_2]
  intro a
  match a with
  | ⟨0, _⟩ => show win15_2.index t (0 : Fin 2) * 2000 ≤ (i 0).val ∧ (i 0).val < win15_2.index t (0 : Fin 2) * 2000 + 2000; omega
  | ⟨1, _⟩ => show win15_2.index t (1 : Fin 2) * 40 ≤ (i 1).val ∧ (i 1).val < win15_2.index t (1 : Fin 2) * 40 + 40; omega

/-- The output layer's array after the region. -/
theorem biased15 (c : Dev nD) :
    (dat15 (F := Ideal) V c).arrAt 2 cfg15.N = Cert.Spec.biased 100000 40 (V c main_v196) (V c main_v197) :=
  (dat15 (F := Ideal) V c).arrAt_eq_of_cover 2 _ (fun t _ => flushed15_2 V c t) covered15_2

end Cert.KernelIdeal.RegionValue

end
-- ==== Proof.Layer7.lean ====
/-
  The output layer of the idealized kernel program: its product region (width 40), the shared aggregation, the
  bias-add region.  From the last hidden layer's masked activation, the result buffer holds the reference's result.
-/
import proofs.«148016_j80401787781528_2_alg».proof.Proof.Glue
import proofs.«148016_j80401787781528_2_alg».proof.Proof.Prefix
import proofs.«148016_j80401787781528_2_alg».proof.Proof.Keep
import proofs.«148016_j80401787781528_2_alg».proof.Proof.RegionMat14
import proofs.«148016_j80401787781528_2_alg».proof.Proof.RegionBias15

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The product region: its output array is the reference's product of the output layer. -/
theorem prod7 (c : Dev nD)
    (hcur : W24 m ρ c (Proc.devRef .tc main_v182_0) = Cert.ReferenceIdeal.Read.val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W25 m ρ c (Proc.devRef .tc main_v183) = Cert.ReferenceIdeal.Read.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W25_arr m ρ c 2).trans ((RegionValue.prod14 (V24 m ρ) c).trans ?_)
  show Cert.Spec.prod 100000 32 40 (W24 m ρ c (Proc.devRef .tc main_v182_0)) (W24 m ρ c (Proc.devRef .tc main_arg7)) = _
  rw [hcur, Keep.at24 m ρ c main_arg7 (by decide), Prefix.arg7 m ρ c]
  exact (Cert.Glue.ref_prod7 _ _ _ _ _ _ _ _).symm

set_option maxHeartbeats 16000000 in
/-- The stretch before the last region: the shared aggregation of the product, and the output bias as a row. -/
theorem stretch7 (c : Dev nD) :
    W26 m ρ c (Proc.devRef .tc main_v196) = Cert.Glue.agg40 (W25 m ρ c (Proc.devRef .tc main_v3)) (W25 m ρ c (Proc.devRef .tc main_v6)) (W25 m ρ c (Proc.devRef .tc main_v31)) (W25 m ρ c (Proc.devRef .tc main_v183))
    ∧ W26 m ρ c (Proc.devRef .tc main_v197) = Cert.Glue.row40 (W25 m ρ c (Proc.devRef .tc main_arg8)) := by
  refine ⟨?_, ?_⟩
  · dsimp only [W26, hostOps15]; after_results_simp; rfl
  · dsimp only [W26, hostOps15]; after_results_simp; exact Cert.Glue.rowcast40 _ _

/-- The result buffer after the last region is the reference's result of the same arguments. -/
theorem out (c : Dev nD)
    (hcur : W24 m ρ c (Proc.devRef .tc main_v182_0) = Cert.ReferenceIdeal.Read.val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W27 m ρ c (Proc.devRef .tc main_v198) = Cert.ReferenceIdeal.Read.val_main_v248 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨hAgg, hRow⟩ := stretch7 m ρ c
  have hH := prod7 m ρ c hcur
  have e3 : W25 m ρ c (Proc.devRef .tc main_v3) = Cert.ReferenceIdeal.Read.val_main_v3 (F := Ideal) (m ((c : Thread nD τ).loc main_arg1)) := (Keep.at25 m ρ c main_v3 (by decide)).trans (Prefix.v3 m ρ c)
  have e6 : W25 m ρ c (Proc.devRef .tc main_v6) = Cert.ReferenceIdeal.Read.val_main_v6 (F := Ideal) (m ((c : Thread nD τ).loc main_arg1)) := (Keep.at25 m ρ c main_v6 (by decide)).trans (Prefix.v6 m ρ c)
  have e31 : W25 m ρ c (Proc.devRef .tc main_v31) = Cert.ReferenceIdeal.Read.val_main_v31 (F := Ideal) (m ((c : Thread nD τ).loc main_arg1)) := (Keep.at25 m ρ c main_v31 (by decide)).trans (Prefix.v31 m ρ c)
  have eb : W25 m ρ c (Proc.devRef .tc main_arg8) = (m ((c : Thread nD τ).loc main_arg8)) := (Keep.at25 m ρ c main_arg8 (by decide)).trans (Prefix.arg8 m ρ c)
  rw [e3, e6, e31, hH] at hAgg
  rw [eb] at hRow
  have hB : W27 m ρ c (Proc.devRef .tc main_v198) = Cert.Spec.biased 100000 40 (W26 m ρ c (Proc.devRef .tc main_v196)) (W26 m ρ c (Proc.devRef .tc main_v197)) :=
    (W27_arr m ρ c 2).trans (RegionValue.biased15 (V26 m ρ) c)
  rw [hAgg, hRow] at hB
  rw [hB, Cert.Glue.ref_out, Cert.Glue.ref_agg7]

end Cert.KernelIdeal.Layers

end
-- ==== Proof.Chain.lean ====
/-
  The idealized kernel program's result buffer, after its sixteen regions, holds the reference's result of the same
  arguments: the eight layers in order, each starting from what the one before left.
-/
import proofs.«148016_j80401787781528_2_alg».proof.Proof.Layer0
import proofs.«148016_j80401787781528_2_alg».proof.Proof.Layer1
import proofs.«148016_j80401787781528_2_alg».proof.Proof.Layer2
import proofs.«148016_j80401787781528_2_alg».proof.Proof.Layer3
import proofs.«148016_j80401787781528_2_alg».proof.Proof.Layer4
import proofs.«148016_j80401787781528_2_alg».proof.Proof.Layer5
import proofs.«148016_j80401787781528_2_alg».proof.Proof.Layer6
import proofs.«148016_j80401787781528_2_alg».proof.Proof.Layer7

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The last boundary's contents at the result buffer are the reference's result stage of the launch arguments. -/
theorem result (c : Dev nD) :
    W27 m ρ c (Proc.devRef .tc main_v198) = Cert.ReferenceIdeal.Read.val_main_v248 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨c0, o0⟩ := layer0 m ρ c
  obtain ⟨c1, o1⟩ := layer1 m ρ c c0 o0
  obtain ⟨c2, o2⟩ := layer2 m ρ c c1 o1
  obtain ⟨c3, o3⟩ := layer3 m ρ c c2 o2
  obtain ⟨c4, o4⟩ := layer4 m ρ c c3 o3
  obtain ⟨c5, o5⟩ := layer5 m ρ c c4 o4
  obtain ⟨c6, _⟩ := layer6 m ρ c c5 o5
  exact out m ρ c c6

end Cert.KernelIdeal.Layers

end
-- ==== Proof.lean ====
/-
  The proof of `Cert.Claim`: the three frames, the (empty) idealization ledger, and the equality of the idealized
  kernel program's result with the idealized reference's, element by element over the extended reals.

  The mathematics.  Both programs compute an eight-layer graph convolution.  Every layer multiplies the node features
  by a weight matrix, aggregates the product's rows along the edges (gather at the sources, scale by the edge
  normalisation, scatter-add at the destinations), and then, for the seven hidden layers, takes
  max(agg + b, 0) + old and multiplies it by the dropout factor (2 where the draw exceeds 1/2, else 0); the output
  layer adds its bias.  The kernel program runs each product and each elementwise tail as a tiled kernel region over
  blocks of rows and leaves the aggregation to the same host operations as the reference.  At the exact values a
  product into a zero accumulator is the plain sum over the contracted index, whatever the tiling and whatever the
  rounding of the operands on the way in (a change of float format is the identity), so region by region the kernel
  program's arrays are the reference's stages of the same arguments.  No algebraic law beyond that reading is needed,
  and the finiteness of the inputs is never used.
-/
import proofs.«148016_j80401787781528_2_alg».proof.Defs
import proofs.«148016_j80401787781528_2_alg».proof.Proof.Gen.Kernel
import proofs.«148016_j80401787781528_2_alg».proof.Proof.Gen.Kernel.Frame
import proofs.«148016_j80401787781528_2_alg».proof.Proof.Gen.KernelIdeal
import proofs.«148016_j80401787781528_2_alg».proof.Proof.Gen.KernelIdeal.Frame
import proofs.«148016_j80401787781528_2_alg».proof.Proof.Gen.ReferenceIdeal
import proofs.«148016_j80401787781528_2_alg».proof.Proof.Gen.Pre_finite_inputs
import proofs.«148016_j80401787781528_2_alg».proof.Proof.RefRun
import proofs.«148016_j80401787781528_2_alg».proof.Proof.RunResult
import proofs.«148016_j80401787781528_2_alg».proof.Proof.Chain
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments both idealized programs run, and the kernel program's result buffer ends
    holding the reference's result: the last boundary's contents on one side, the reference's last stage on the other,
    equal by the chain of the eight layers. -/
theorem algebraic : Cert.algebraic_KernelIdeal_ReferenceIdeal := by
  intro m ρ m' ρ' _ hagree
  refine ⟨fun c => Cert.KernelIdeal.Gen.W27 m ρ c (Proc.devRef .tc Cert.KernelIdeal.main_v198),
    Cert.KernelIdeal.RunResult.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.KernelIdeal.Layers.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
